-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S128x10 .f32) (main_arg8 : FVec F S10 .f32) (main_v33 : IVec S_ 1) : IVec S_ 1 :=
  let main_v34 : FVec F S128x10 .f32 := Host.absf main_arg7
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S3x128 .f32) (main_arg5 : FVec F S128x128 .f32) (main_arg6 : FVec F S128 .f32) (main_arg7 : FVec F S128x10 .f32) (main_arg8 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x128 .f32) (main_arg2 : FVec F S128 .f32) (main_arg3 : FVec F S3x128x128 .f32) (main_arg4 : FVec F S3x128 .f32) (main_arg5 : FVec F S128x128 .f32) (main_arg6 : FVec F S128 .f32) (main_arg7 : FVec F S128x10 .f32) (main_arg8 : FVec F S10 .f32) (main_arg9 : IVec S2x1600000 32) (main_arg10 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S512 : Shape := ⟨1, ![512]⟩
abbrev S100000x1 : Shape := ⟨2, ![100000, 1]⟩
abbrev S512x1 : Shape := ⟨2, ![512, 1]⟩
abbrev S10000x128 : Shape := ⟨2, ![10000, 128]⟩
abbrev S1x128 : Shape := ⟨2, ![1, 128]⟩
abbrev S512x128 : Shape := ⟨2, ![512, 128]⟩
abbrev S1x128x128 : Shape := ⟨3, ![1, 128, 128]⟩
abbrev S1700000x128 : Shape := ⟨2, ![1700000, 128]⟩
abbrev S512x10 : Shape := ⟨2, ![512, 10]⟩
abbrev S1x10 : Shape := ⟨2, ![1, 10]⟩

abbrev nBuf : Space → Nat
  | .hbm => 150
  | .vmem => 42
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S3x128x128, .f32⟩
  | 4 => ⟨S3x128, .f32⟩
  | 5 => ⟨S128x128, .f32⟩
  | 6 => ⟨S128, .f32⟩
  | 7 => ⟨S128x10, .f32⟩
  | 8 => ⟨S10, .f32⟩
  | 9 => ⟨S2x1600000, .i32⟩
  | 10 => ⟨S100000, .i32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S_, .f32⟩
  | 49 => ⟨S100000, .f32⟩
  | 50 => ⟨S_, .f32⟩
  | 51 => ⟨S512, .f32⟩
  | 52 => ⟨S100000x1, .i32⟩
  | 53 => ⟨S512, .f32⟩
  | 54 => ⟨S_, .f32⟩
  | 55 => ⟨S512, .f32⟩
  | 56 => ⟨S512, .f32⟩
  | 57 => ⟨S512x1, .f32⟩
  | 58 => ⟨S100000x128, .f32⟩
  | 59 => ⟨S_, .f32⟩
  | 60 => ⟨S512x128, .f32⟩
  | 61 => ⟨S100000x1, .i32⟩
  | 62 => ⟨S512x128, .f32⟩
  | 63 => ⟨S512x128, .f32⟩
  | 64 => ⟨S512x128, .f32⟩
  | 65 => ⟨S1x128x128, .f32⟩
  | 66 => ⟨S128x128, .f32⟩
  | 67 => ⟨S100000x128, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x128, .f32⟩
  | 77 => ⟨S1700000x128, .f32⟩
  | 78 => ⟨S1700000x128, .f32⟩
  | 79 => ⟨S_, .f32⟩
  | 80 => ⟨S100000x128, .f32⟩
  | 81 => ⟨S1700000x1, .i32⟩
  | 82 => ⟨S100000x128, .f32⟩
  | 83 => ⟨S1x128, .f32⟩
  | 84 => ⟨S128, .f32⟩
  | 85 => ⟨S100000x128, .f32⟩
  | 86 => ⟨S_, .f32⟩
  | 87 => ⟨S512x128, .f32⟩
  | 88 => ⟨S100000x1, .i32⟩
  | 89 => ⟨S512x128, .f32⟩
  | 90 => ⟨S512x128, .f32⟩
  | 91 => ⟨S512x128, .f32⟩
  | 92 => ⟨S512x128, .f32⟩
  | 93 => ⟨S1x128x128, .f32⟩
  | 94 => ⟨S128x128, .f32⟩
  | 95 => ⟨S100000x128, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S1x128, .f32⟩
  | 112 => ⟨S128, .f32⟩
  | 113 => ⟨S100000x128, .f32⟩
  | 114 => ⟨S_, .f32⟩
  | 115 => ⟨S512x128, .f32⟩
  | 116 => ⟨S100000x1, .i32⟩
  | 117 => ⟨S512x128, .f32⟩
  | 118 => ⟨S512x128, .f32⟩
  | 119 => ⟨S512x128, .f32⟩
  | 120 => ⟨S512x128, .f32⟩
  | 121 => ⟨S1x128x128, .f32⟩
  | 122 => ⟨S128x128, .f32⟩
  | 123 => ⟨S100000x128, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x128, .f32⟩
  | 5 => ⟨S1700000x128, .f32⟩
  | 6 => ⟨S1700000x128, .f32⟩
  | 7 => ⟨S_, .f32⟩
  | 8 => ⟨S100000x128, .f32⟩
  | 9 => ⟨S1700000x1, .i32⟩
  | 10 => ⟨S100000x128, .f32⟩
  | 11 => ⟨S1x128, .f32⟩
  | 12 => ⟨S128, .f32⟩
  | 13 => ⟨S100000x128, .f32⟩
  | 14 => ⟨S_, .f32⟩
  | 15 => ⟨S512x128, .f32⟩
  | 16 => ⟨S100000x1, .i32⟩
  | 17 => ⟨S512x128, .f32⟩
  | 18 => ⟨S512x128, .f32⟩
  | 19 => ⟨S512x128, .f32⟩
  | 20 => ⟨S512x128, .f32⟩
  | 21 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S128x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S128, .f32⟩
  | .local _ .vmem, ⟨34, _⟩ => ⟨S10000x128, .f32⟩
  | .local _ .vmem, ⟨35, _⟩ => ⟨S10000x128, .f32⟩
  | .local _ .vmem, ⟨36, _⟩ => ⟨S512x128, .f32⟩
  | .local _ .vmem, ⟨37, _⟩ => ⟨S128x128, .f32⟩
  | .local _ .vmem, ⟨38, _⟩ => ⟨S128, .f32⟩
  | .local _ .vmem, ⟨39, _⟩ => ⟨S128x10, .f32⟩
  | .local _ .vmem, ⟨40, _⟩ => ⟨S10, .f32⟩
  | .local _ .vmem, ⟨41, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_17 : Ref sig .tc := ⟨.hbm, 124, rfl⟩
abbrev main_v94 : Ref sig .tc := ⟨.hbm, 125, rfl⟩
abbrev main_v95 : Ref sig .tc := ⟨.hbm, 126, rfl⟩
abbrev main_c_18 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_19 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_20 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg3_0 : Ref sig .tc := ⟨.vmem, 39, rfl⟩
abbrev cc7_stg4_0 : Ref sig .tc := ⟨.vmem, 40, rfl⟩
abbrev cc7_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem1_0 : DmaSem sig := 37
abbrev cc7_sem2_0 : DmaSem sig := 38
abbrev cc7_sem3_0 : DmaSem sig := 39
abbrev cc7_sem4_0 : DmaSem sig := 40
abbrev cc7_sem5_0 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x10 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S10 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x10 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S_S512x128 : S_.BroadcastsInDim S512x128 (![] : Fin 0 → Fin S512x128.rank)
  bcast_S512x1_S512x128_0_1 : S512x1.BroadcastsInDim S512x128 (![0, 1] : Fin 2 → Fin S512x128.rank)
  slices_S3x128x128_S1x128x128_0_0_0 : S3x128x128.Slices ![0, 0, 0] S1x128x128
  shapeCasts_S1x128x128_S128x128 : S1x128x128.ShapeCasts S128x128
  shapeCasts_S10000x128_S10000x128 : S10000x128.ShapeCasts S10000x128
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  scatter_S512_S100000x1_S100000_n_0_0_1_wf : ScatterDims.WF S512 S100000x1 S100000 [] [0] [0] 1
  dot_S10000x128_S128x128_S10000x128_1_0_0_1_n_n_wf : DotDims.WF S10000x128 S128x128 S10000x128 [1] [0] [0] [1] [] []
  scatter_S512x128_S100000x1_S100000x128_1_0_0_1_wf : ScatterDims.WF S512x128 S100000x1 S100000x128 [1] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x128.size a ≤ S512x128.size a
  hwx7_0 : ∀ i : grid7.Coords, EltTy.bits .f32 = 32 ∨ (Rect.block (s := S512x128) S512x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x10.size a ≤ S128x10.size a
  hwx7_3 : ∀ i : grid7.Coords, EltTy.bits .f32 = 32 ∨ (Rect.block (s := S128x10) S128x10.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S10.size a ≤ S10.size a
  hwx7_4 : ∀ i : grid7.Coords, EltTy.bits .f32 = 32 ∨ (Rect.block (s := S10) S10.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x10.size a ≤ S512x10.size a
  hwx7_5 : ∀ i : grid7.Coords, EltTy.bits .f32 = 32 ∨ (Rect.block (s := S512x10) S512x10.size (cc7_transform_5 i) (hinb7_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v105) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v107) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v108) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v114) S512x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg5) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg6) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg7) S128x10.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg8) S10.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v115) S512x10.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S512 : Shape := ⟨1, ![512]⟩
abbrev S100000x1 : Shape := ⟨2, ![100000, 1]⟩
abbrev S512x1 : Shape := ⟨2, ![512, 1]⟩
abbrev S1x128 : Shape := ⟨2, ![1, 128]⟩
abbrev S512x128 : Shape := ⟨2, ![512, 128]⟩
abbrev S1x128x128 : Shape := ⟨3, ![1, 128, 128]⟩
abbrev S1700000x128 : Shape := ⟨2, ![1700000, 128]⟩
abbrev S512x10 : Shape := ⟨2, ![512, 10]⟩
abbrev S1x10 : Shape := ⟨2, ![1, 10]⟩

abbrev nBuf : Space → Nat
  | .hbm => 256
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S3x128x128, .f32⟩
  | 4 => ⟨S3x128, .f32⟩
  | 5 => ⟨S128x128, .f32⟩
  | 6 => ⟨S128, .f32⟩
  | 7 => ⟨S128x10, .f32⟩
  | 8 => ⟨S10, .f32⟩
  | 9 => ⟨S2x1600000, .i32⟩
  | 10 => ⟨S100000, .i32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S_, .f32⟩
  | 49 => ⟨S100000, .f32⟩
  | 50 => ⟨S_, .f32⟩
  | 51 => ⟨S512, .f32⟩
  | 52 => ⟨S100000x1, .i32⟩
  | 53 => ⟨S512, .f32⟩
  | 54 => ⟨S_, .f32⟩
  | 55 => ⟨S512, .f32⟩
  | 56 => ⟨S512, .f32⟩
  | 57 => ⟨S512x1, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .i1⟩
  | 65 => ⟨S_, .f32⟩
  | 66 => ⟨S100000x128, .f32⟩
  | 67 => ⟨S100000x128, .i1⟩
  | 68 => ⟨S_, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .f32⟩
  | 78 => ⟨S512x128, .f32⟩
  | 79 => ⟨S100000x1, .i32⟩
  | 80 => ⟨S512x128, .f32⟩
  | 81 => ⟨S512x128, .f32⟩
  | 82 => ⟨S512x128, .f32⟩
  | 83 => ⟨S1x128x128, .f32⟩
  | 84 => ⟨S128x128, .f32⟩
  | 85 => ⟨S100000x128, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x128, .f32⟩
  | 95 => ⟨S1700000x128, .f32⟩
  | 96 => ⟨S1700000x128, .f32⟩
  | 97 => ⟨S_, .f32⟩
  | 98 => ⟨S100000x128, .f32⟩
  | 99 => ⟨S1700000x1, .i32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .i1⟩
  | 109 => ⟨S_, .f32⟩
  | 110 => ⟨S100000x128, .f32⟩
  | 111 => ⟨S100000x128, .i1⟩
  | 112 => ⟨S_, .f32⟩
  | 113 => ⟨S_, .f32⟩
  | 114 => ⟨S100000x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S_, .f32⟩
  | 122 => ⟨S512x128, .f32⟩
  | 123 => ⟨S100000x1, .i32⟩
  | 124 => ⟨S512x128, .f32⟩
  | 125 => ⟨S512x128, .f32⟩
  | 126 => ⟨S512x128, .f32⟩
  | 127 => ⟨S512x128, .f32⟩
  | _ => ⟨S100000x128, .f32⟩

abbrev hbmTy0_1 (i : Nat) : BufTy := match i % 128 with
  | 0 => ⟨S1x128x128, .f32⟩
  | 1 => ⟨S128x128, .f32⟩
  | 2 => ⟨S100000x128, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x128, .f32⟩
  | 12 => ⟨S1700000x128, .f32⟩
  | 13 => ⟨S1700000x128, .f32⟩
  | 14 => ⟨S_, .f32⟩
  | 15 => ⟨S100000x128, .f32⟩
  | 16 => ⟨S1700000x1, .i32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .i1⟩
  | 26 => ⟨S_, .f32⟩
  | 27 => ⟨S100000x128, .f32⟩
  | 28 => ⟨S100000x128, .i1⟩
  | 29 => ⟨S_, .f32⟩
  | 30 => ⟨S_, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S_, .f32⟩
  | 39 => ⟨S512x128, .f32⟩
  | 40 => ⟨S100000x1, .i32⟩
  | 41 => ⟨S512x128, .f32⟩
  | 42 => ⟨S512x128, .f32⟩
  | 43 => ⟨S512x128, .f32⟩
  | 44 => ⟨S512x128, .f32⟩
  | 45 => ⟨S1x128x128, .f32⟩
  | 46 => ⟨S128x128, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .i1⟩
  | 71 => ⟨S_, .f32⟩
  | 72 => ⟨S100000x128, .f32⟩
  | 73 => ⟨S100000x128, .i1⟩
  | 74 => ⟨S_, .f32⟩
  | 75 => ⟨S_, .f32⟩
  | 76 => ⟨S100000x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S_, .f32⟩
  | 84 => ⟨S512x128, .f32⟩
  | 85 => ⟨S100000x1, .i32⟩
  | 86 => ⟨S512x128, .f32⟩
  | 87 => ⟨S512x128, .f32⟩
  | 88 => ⟨S512x128, .f32⟩
  | 89 => ⟨S512x128, .f32⟩
  | 90 => ⟨S512x128, .f32⟩
  | 91 => ⟨S1x128, .f32⟩
  | 92 => ⟨S512x128, .f32⟩
  | 93 => ⟨S512x128, .f32⟩
  | 94 => ⟨S_, .f32⟩
  | 95 => ⟨S512x128, .f32⟩
  | 96 => ⟨S512x128, .i1⟩
  | 97 => ⟨S_, .f32⟩
  | 98 => ⟨S512x128, .f32⟩
  | 99 => ⟨S512x128, .i1⟩
  | 100 => ⟨S_, .f32⟩
  | 101 => ⟨S_, .f32⟩
  | 102 => ⟨S512x128, .f32⟩
  | 103 => ⟨S512x128, .f32⟩
  | 104 => ⟨S512x128, .f32⟩
  | 105 => ⟨S_, .f32⟩
  | 106 => ⟨S512x128, .f32⟩
  | 107 => ⟨S512x128, .f32⟩
  | 108 => ⟨S512x128, .f32⟩
  | 109 => ⟨S512x10, .f32⟩
  | 110 => ⟨S1x10, .f32⟩
  | 111 => ⟨S512x10, .f32⟩
  | 112 => ⟨S512x10, .f32⟩
  | 113 => ⟨S_, .f32⟩
  | 114 => ⟨S512, .f32⟩
  | 115 => ⟨S_, .f32⟩
  | 116 => ⟨S512, .f32⟩
  | 117 => ⟨S512, .f32⟩
  | 118 => ⟨S512x1, .f32⟩
  | 119 => ⟨S512x10, .f32⟩
  | 120 => ⟨S512x10, .f32⟩
  | 121 => ⟨S512x10, .f32⟩
  | 122 => ⟨S_, .f32⟩
  | 123 => ⟨S512, .f32⟩
  | 124 => ⟨S512x1, .f32⟩
  | 125 => ⟨S512x1, .f32⟩
  | 126 => ⟨S512x10, .f32⟩
  | 127 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_cst_1 : Ref sig .tc := ⟨.hbm, 68, rfl⟩
abbrev main_call0_call0_v0 : Ref sig .tc := ⟨.hbm, 69, rfl⟩
abbrev main_call0_call0_v1 : Ref sig .tc := ⟨.hbm, 70, rfl⟩
abbrev main_call0_v4 : Ref sig .tc := ⟨.hbm, 71, rfl⟩
abbrev main_call0_v5 : Ref sig .tc := ⟨.hbm, 72, rfl⟩
abbrev main_call0_cst_2 : Ref sig .tc := ⟨.hbm, 73, rfl⟩
abbrev main_call0_v6 : Ref sig .tc := ⟨.hbm, 74, rfl⟩
abbrev main_call0_v7 : Ref sig .tc := ⟨.hbm, 75, rfl⟩
abbrev main_v41 : Ref sig .tc := ⟨.hbm, 76, rfl⟩
abbrev main_cst_8 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_9 : Ref sig .tc := ⟨.hbm, 86, rfl⟩
abbrev main_v50 : Ref sig .tc := ⟨.hbm, 87, rfl⟩
abbrev main_v51 : Ref sig .tc := ⟨.hbm, 88, rfl⟩
abbrev main_c_10 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call1_cst : Ref sig .tc := ⟨.hbm, 106, rfl⟩
abbrev main_call1_v0 : Ref sig .tc := ⟨.hbm, 107, rfl⟩
abbrev main_call1_v1 : Ref sig .tc := ⟨.hbm, 108, rfl⟩
abbrev main_call1_cst_0 : Ref sig .tc := ⟨.hbm, 109, rfl⟩
abbrev main_call1_v2 : Ref sig .tc := ⟨.hbm, 110, rfl⟩
abbrev main_call1_v3 : Ref sig .tc := ⟨.hbm, 111, rfl⟩
abbrev main_call1_cst_1 : Ref sig .tc := ⟨.hbm, 112, rfl⟩
abbrev main_call1_call0_v0 : Ref sig .tc := ⟨.hbm, 113, rfl⟩
abbrev main_call1_call0_v1 : Ref sig .tc := ⟨.hbm, 114, rfl⟩
abbrev main_call1_v4 : Ref sig .tc := ⟨.hbm, 115, rfl⟩
abbrev main_call1_v5 : Ref sig .tc := ⟨.hbm, 116, rfl⟩
abbrev main_call1_cst_2 : Ref sig .tc := ⟨.hbm, 117, rfl⟩
abbrev main_call1_v6 : Ref sig .tc := ⟨.hbm, 118, rfl⟩
abbrev main_call1_v7 : Ref sig .tc := ⟨.hbm, 119, rfl⟩
abbrev main_v67 : Ref sig .tc := ⟨.hbm, 120, rfl⟩
abbrev main_cst_12 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_13 : Ref sig .tc := ⟨.hbm, 131, rfl⟩
abbrev main_v77 : Ref sig .tc := ⟨.hbm, 132, rfl⟩
abbrev main_v78 : Ref sig .tc := ⟨.hbm, 133, rfl⟩
abbrev main_c_14 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_15 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_call2_cst : Ref sig .tc := ⟨.hbm, 151, rfl⟩
abbrev main_call2_v0 : Ref sig .tc := ⟨.hbm, 152, rfl⟩
abbrev main_call2_v1 : Ref sig .tc := ⟨.hbm, 153, rfl⟩
abbrev main_call2_cst_0 : Ref sig .tc := ⟨.hbm, 154, rfl⟩
abbrev main_call2_v2 : Ref sig .tc := ⟨.hbm, 155, rfl⟩
abbrev main_call2_v3 : Ref sig .tc := ⟨.hbm, 156, rfl⟩
abbrev main_call2_cst_1 : Ref sig .tc := ⟨.hbm, 157, rfl⟩
abbrev main_call2_call0_v0 : Ref sig .tc := ⟨.hbm, 158, rfl⟩
abbrev main_call2_call0_v1 : Ref sig .tc := ⟨.hbm, 159, rfl⟩
abbrev main_call2_v4 : Ref sig .tc := ⟨.hbm, 160, rfl⟩
abbrev main_call2_v5 : Ref sig .tc := ⟨.hbm, 161, rfl⟩
abbrev main_call2_cst_2 : Ref sig .tc := ⟨.hbm, 162, rfl⟩
abbrev main_call2_v6 : Ref sig .tc := ⟨.hbm, 163, rfl⟩
abbrev main_call2_v7 : Ref sig .tc := ⟨.hbm, 164, rfl⟩
abbrev main_v94 : Ref sig .tc := ⟨.hbm, 165, rfl⟩
abbrev main_cst_16 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_c_17 : Ref sig .tc := ⟨.hbm, 176, rfl⟩
abbrev main_v104 : Ref sig .tc := ⟨.hbm, 177, rfl⟩
abbrev main_v105 : Ref sig .tc := ⟨.hbm, 178, rfl⟩
abbrev main_c_18 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_cst_19 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_call3_cst : Ref sig .tc := ⟨.hbm, 196, rfl⟩
abbrev main_call3_v0 : Ref sig .tc := ⟨.hbm, 197, rfl⟩
abbrev main_call3_v1 : Ref sig .tc := ⟨.hbm, 198, rfl⟩
abbrev main_call3_cst_0 : Ref sig .tc := ⟨.hbm, 199, rfl⟩
abbrev main_call3_v2 : Ref sig .tc := ⟨.hbm, 200, rfl⟩
abbrev main_call3_v3 : Ref sig .tc := ⟨.hbm, 201, rfl⟩
abbrev main_call3_cst_1 : Ref sig .tc := ⟨.hbm, 202, rfl⟩
abbrev main_call3_call0_v0 : Ref sig .tc := ⟨.hbm, 203, rfl⟩
abbrev main_call3_call0_v1 : Ref sig .tc := ⟨.hbm, 204, rfl⟩
abbrev main_call3_v4 : Ref sig .tc := ⟨.hbm, 205, rfl⟩
abbrev main_call3_v5 : Ref sig .tc := ⟨.hbm, 206, rfl⟩
abbrev main_call3_cst_2 : Ref sig .tc := ⟨.hbm, 207, rfl⟩
abbrev main_call3_v6 : Ref sig .tc := ⟨.hbm, 208, rfl⟩
abbrev main_call3_v7 : Ref sig .tc := ⟨.hbm, 209, rfl⟩
abbrev main_v121 : Ref sig .tc := ⟨.hbm, 210, rfl⟩
abbrev main_cst_20 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_call4_cst : Ref sig .tc := ⟨.hbm, 222, rfl⟩
abbrev main_call4_v0 : Ref sig .tc := ⟨.hbm, 223, rfl⟩
abbrev main_call4_v1 : Ref sig .tc := ⟨.hbm, 224, rfl⟩
abbrev main_call4_cst_0 : Ref sig .tc := ⟨.hbm, 225, rfl⟩
abbrev main_call4_v2 : Ref sig .tc := ⟨.hbm, 226, rfl⟩
abbrev main_call4_v3 : Ref sig .tc := ⟨.hbm, 227, rfl⟩
abbrev main_call4_cst_1 : Ref sig .tc := ⟨.hbm, 228, rfl⟩
abbrev main_call4_call0_v0 : Ref sig .tc := ⟨.hbm, 229, rfl⟩
abbrev main_call4_call0_v1 : Ref sig .tc := ⟨.hbm, 230, rfl⟩
abbrev main_call4_v4 : Ref sig .tc := ⟨.hbm, 231, rfl⟩
abbrev main_call4_v5 : Ref sig .tc := ⟨.hbm, 232, rfl⟩
abbrev main_call4_cst_2 : Ref sig .tc := ⟨.hbm, 233, rfl⟩
abbrev main_call4_v6 : Ref sig .tc := ⟨.hbm, 234, rfl⟩
abbrev main_call4_v7 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_call5_cst : Ref sig .tc := ⟨.hbm, 241, rfl⟩
abbrev main_call5_v0 : Ref sig .tc := ⟨.hbm, 242, rfl⟩
abbrev main_call5_cst_0 : Ref sig .tc := ⟨.hbm, 243, rfl⟩
abbrev main_call5_v1 : Ref sig .tc := ⟨.hbm, 244, rfl⟩
abbrev main_call5_v2 : Ref sig .tc := ⟨.hbm, 245, rfl⟩
abbrev main_call5_v3 : Ref sig .tc := ⟨.hbm, 246, rfl⟩
abbrev main_call5_v4 : Ref sig .tc := ⟨.hbm, 247, rfl⟩
abbrev main_call5_v5 : Ref sig .tc := ⟨.hbm, 248, rfl⟩
abbrev main_call5_v6 : Ref sig .tc := ⟨.hbm, 249, rfl⟩
abbrev main_call5_cst_1 : Ref sig .tc := ⟨.hbm, 250, rfl⟩
abbrev main_call5_v7 : Ref sig .tc := ⟨.hbm, 251, rfl⟩
abbrev main_call5_v8 : Ref sig .tc := ⟨.hbm, 252, rfl⟩
abbrev main_call5_v9 : Ref sig .tc := ⟨.hbm, 253, rfl⟩
abbrev main_call5_v10 : Ref sig .tc := ⟨.hbm, 254, rfl⟩
abbrev main_v137 : Ref sig .tc := ⟨.hbm, 255, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  scatter_S512_S100000x1_S100000_n_0_0_1_wf : ScatterDims.WF S512 S100000x1 S100000 [] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KRun.lean ====
/-
  The idealized kernel's whole run with its result named.

  The program is eight tiled regions among stretches of host operations. Its run ends with every buffer
  that outlives a region holding the contents of the last boundary of the chain "launch memory, host
  stretch, region, host stretch, …": the result buffer holds that boundary's contents at the result
  buffer, and the eleven argument arrays are unchanged. Everything else in the certificate reads that
  one boundary valuation back through the chain.
-/
import proofs.«159488_j4544075399263_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's program terminates without a fault; the result buffer
    ends at the last boundary's contents and every argument array is unchanged. -/
theorem run_named : θ_run defs (onTc (τ := τ) (main (F := F))) ⟨m, fun _ => 0, ρ⟩ (fun r => ∀ c : Dev nD,
      r.2.mem ((c.tc : Thread nD τ).loc main_v115) = W16 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v115 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.Named

end
-- ==== Proof.Gcn.lean ====
/-
  The graph network's stages as functions of whole arrays, at the exact-real reading of floats.

  A node feature matrix is 100000 × 128; the edge list is 2 × 1600000 node numbers; every node belongs to one of
  512 graphs. One layer multiplies the features by a 128 × 128 matrix, sends each node's row along every edge
  (and along a loop at the node itself) scaled by the two endpoints' inverse square-root degrees, sums what
  arrives at each node, adds a bias row and applies the exponential linear unit. After the input layer and after
  each of the three layers the features are averaged over each graph; the four averages are summed and passed
  through a two-layer head ending in a logarithmic softmax over ten classes.

  Each definition below is one such stage, spelt with the host operations in which both programs state it; the
  network is their composition, `net`.
-/
import proofs.«159488_j4544075399263_1_alg».proof.Proof.Gen.ReferenceIdeal
import Idealize.ShloMosaic.PureOps.Ideal

noncomputable section

namespace Cert.Gcn

open Idealize.ShloMosaic Cert.ReferenceIdeal Cert.ReferenceIdeal.Facts₀

/-- A float array of the given shape, its entries extended reals. -/
abbrev CF (S : Shape) : Type := FVec Ideal S .f32
/-- An array of 32-bit integers of the given shape. -/
abbrev CI (S : Shape) : Type := IVec S 32

/-! ## The edges, with a loop at every node -/

/-- The edges' source nodes followed by 0 … 99999 (the loops). -/
def src (e : CI S2x1600000) : CI S1700000 :=
  concatenate S1700000 0
    [⟨S1600000, fun i => shapeCast S1600000 (extractStridedSlice S1x1600000 ![0, 0] e slices_S2x1600000_S1x1600000_0_0)
        shapeCasts_S1x1600000_S1600000 i⟩,
     ⟨S100000, iotaInDim S100000 32 0⟩]
    concatenates_S1600000_S100000_S1700000_d0

/-- The edges' target nodes followed by 0 … 99999 (the loops). -/
def dst (e : CI S2x1600000) : CI S1700000 :=
  concatenate S1700000 0
    [⟨S1600000, fun i => shapeCast S1600000 (extractStridedSlice S1x1600000 ![1, 0] e slices_S2x1600000_S1x1600000_1_0)
        shapeCasts_S1x1600000_S1600000 i⟩,
     ⟨S100000, iotaInDim S100000 32 0⟩]
    concatenates_S1600000_S100000_S1700000_d0

/-- A node number read as an index into 100000 rows: a negative one counts from the end. -/
def wrap (ix : CI S1700000) : CI S1700000 :=
  select (cmpi .slt ix (broadcastInDim S1700000 ![] bcast_S_S1700000 (constantI S_ 32 0#32)))
    (addi ix (broadcastInDim S1700000 ![] bcast_S_S1700000 (constantI S_ 32 100000#32))) ix

/-- A list of node numbers as a one-column table of indices. -/
def asColumn (ix : CI S1700000) : CI S1700000x1 := broadcastInDim S1700000x1 ![0] bcast_S1700000_S1700000x1_0 ix

/-- Each node's inverse square-root degree: its in-degree counted over edges and loops, at least one. -/
def invSqrtDeg (d : CI S1700000) : CF S100000 :=
  Host.rsqrt (F := Ideal)
    (maximumf
      (Host.scatterAdd (F := Ideal) scatter_S100000_S1700000x1_S1700000_n_0_0_1
        (broadcastInDim S100000 ![] bcast_S_S100000 (constant (F := Ideal) S_ .f32 0x00000000#32))
        (asColumn d)
        (broadcastInDim S1700000 ![] bcast_S_S1700000 (constant (F := Ideal) S_ .f32 0x3F800000#32)))
      (broadcastInDim S100000 ![] bcast_S_S100000 (constant (F := Ideal) S_ .f32 0x3F800000#32)))

/-- Each edge's weight: the product of its two endpoints' inverse square-root degrees, as a column. -/
def edgeWeight (s d : CI S1700000) : CF S1700000x1 :=
  broadcastInDim S1700000x1 ![0] bcast_S1700000_S1700000x1_0
    (mulf
      (Host.gather gather_S100000_S1700000x1_S1700000_n_0_n_n_0_1_1 (invSqrtDeg d) (asColumn (wrap s)))
      (Host.gather gather_S100000_S1700000x1_S1700000_n_0_n_n_0_1_1 (invSqrtDeg d) (asColumn (wrap d))))

/-- One round of message passing: every edge carries its source's row, scaled by the edge's weight, to its target,
    where the arrivals are summed. -/
def propagate (s d : CI S1700000) (wt : CF S1700000x1) (hw : CF S100000x128) : CF S100000x128 :=
  Host.scatterAdd (F := Ideal) scatter_S100000x128_S1700000x1_S1700000x128_1_0_0_1
    (broadcastInDim S100000x128 ![] bcast_S_S100000x128 (constant (F := Ideal) S_ .f32 0x00000000#32))
    (asColumn d)
    (mulf (broadcastInDim S1700000x128 ![0, 1] bcast_S1700000x1_S1700000x128_0_1 wt)
      (Host.gather gather_S100000x128_S1700000x1_S1700000x128_1_0_n_n_0_1_1128 hw (asColumn (wrap s))))

/-! ## Averaging over each graph -/

/-- The number of nodes of each graph, at least one, as a column. -/
def graphSize (g : CI S100000) : CF S512x1 :=
  broadcastInDim S512x1 ![0] bcast_S512_S512x1_0
    (maximumf
      (Host.scatterAdd (F := Ideal) scatter_S512_S100000x1_S100000_n_0_0_1
        (broadcastInDim S512 ![] bcast_S_S512 (constant (F := Ideal) S_ .f32 0x00000000#32))
        (broadcastInDim S100000x1 ![0] bcast_S100000_S100000x1_0 g)
        (broadcastInDim S100000 ![] bcast_S_S100000 (constant (F := Ideal) S_ .f32 0x3F800000#32)))
      (broadcastInDim S512 ![] bcast_S_S512 (constant (F := Ideal) S_ .f32 0x3F800000#32)))

/-- The mean of the node rows of each graph. -/
def graphMean (g : CI S100000) (size : CF S512x1) (h : CF S100000x128) : CF S512x128 :=
  Host.divf (F := Ideal)
    (Host.scatterAdd (F := Ideal) scatter_S512x128_S100000x1_S100000x128_1_0_0_1
      (broadcastInDim S512x128 ![] bcast_S_S512x128 (constant (F := Ideal) S_ .f32 0x00000000#32))
      (broadcastInDim S100000x1 ![0] bcast_S100000_S100000x1_0 g)
      h)
    (broadcastInDim S512x128 ![0, 1] bcast_S512x1_S512x128_0_1 size)

/-! ## The layers' parameters -/

def weight0 (w : CF S3x128x128) : CF S128x128 := fun i =>
  shapeCast S128x128 (extractStridedSlice S1x128x128 ![0, 0, 0] w slices_S3x128x128_S1x128x128_0_0_0) shapeCasts_S1x128x128_S128x128 i
def weight1 (w : CF S3x128x128) : CF S128x128 := fun i =>
  shapeCast S128x128 (extractStridedSlice S1x128x128 ![1, 0, 0] w slices_S3x128x128_S1x128x128_1_0_0) shapeCasts_S1x128x128_S128x128 i
def weight2 (w : CF S3x128x128) : CF S128x128 := fun i =>
  shapeCast S128x128 (extractStridedSlice S1x128x128 ![2, 0, 0] w slices_S3x128x128_S1x128x128_2_0_0) shapeCasts_S1x128x128_S128x128 i
def bias0 (b : CF S3x128) : CF S128 := fun i =>
  shapeCast S128 (extractStridedSlice S1x128 ![0, 0] b slices_S3x128_S1x128_0_0) shapeCasts_S1x128_S128 i
def bias1 (b : CF S3x128) : CF S128 := fun i =>
  shapeCast S128 (extractStridedSlice S1x128 ![1, 0] b slices_S3x128_S1x128_1_0) shapeCasts_S1x128_S128 i
def bias2 (b : CF S3x128) : CF S128 := fun i =>
  shapeCast S128 (extractStridedSlice S1x128 ![2, 0] b slices_S3x128_S1x128_2_0) shapeCasts_S1x128_S128 i

/-! ## The dense stages -/

/-- The exponential linear unit on a node matrix: `y` where positive, `exp y - 1` elsewhere (spelt as a selection
    between `y` and one times `expm1` of `y` with its positive entries zeroed). -/
def elu (y : CF S100000x128) : CF S100000x128 :=
  select (cmpf .ogt y (broadcastInDim S100000x128 ![] bcast_S_S100000x128 (constant (F := Ideal) S_ .f32 0x00000000#32)))
    y
    (mulf (broadcastInDim S100000x128 ![] bcast_S_S100000x128 (constant (F := Ideal) S_ .f32 0x3F800000#32))
      (Host.expm1 (F := Ideal)
        (select (cmpf .ogt y (broadcastInDim S100000x128 ![] bcast_S_S100000x128 (constant (F := Ideal) S_ .f32 0x00000000#32)))
          (broadcastInDim S100000x128 ![] bcast_S_S100000x128 (id (constant (F := Ideal) S_ .f32 0x00000000#32)))
          y)))

/-- The same unit on a 512 × 128 matrix. -/
def eluG (y : CF S512x128) : CF S512x128 :=
  select (cmpf .ogt y (broadcastInDim S512x128 ![] bcast_S_S512x128 (constant (F := Ideal) S_ .f32 0x00000000#32)))
    y
    (mulf (broadcastInDim S512x128 ![] bcast_S_S512x128 (constant (F := Ideal) S_ .f32 0x3F800000#32))
      (Host.expm1 (F := Ideal)
        (select (cmpf .ogt y (broadcastInDim S512x128 ![] bcast_S_S512x128 (constant (F := Ideal) S_ .f32 0x00000000#32)))
          (broadcastInDim S512x128 ![] bcast_S_S512x128 (id (constant (F := Ideal) S_ .f32 0x00000000#32)))
          y)))

/-- A bias row repeated down the 100000 node rows. -/
def biasRows (b : CF S128) : CF S100000x128 :=
  broadcastInDim S100000x128 ![0, 1] bcast_S1x128_S100000x128_0_1 (broadcastInDim S1x128 ![1] bcast_S128_S1x128_1 b)

/-- Node features times a 128 × 128 matrix. -/
def project (h : CF S100000x128) (w : CF S128x128) : CF S100000x128 :=
  Host.dotGeneral (F := Ideal) dot_S100000x128_S128x128_S100000x128_1_0_0_1_n_n none h w

/-- Add a bias row to every node row and apply the unit. -/
def activate (a : CF S100000x128) (b : CF S128) : CF S100000x128 := elu (addf a (biasRows b))

/-- The input layer: project, add the bias, apply the unit. -/
def inputLayer (x : CF S100000x128) (w : CF S128x128) (b : CF S128) : CF S100000x128 := activate (project x w) b

/-- The logarithmic softmax of each row of a 512 × 10 matrix. -/
def logSoftmax (z : CF S512x10) : CF S512x10 :=
  subf
    (subf z (broadcastInDim S512x10 ![0, 1] bcast_S512x1_S512x10_0_1 (broadcastInDim S512x1 ![0] bcast_S512_S512x1_0
      (maximumf (broadcastInDim S512 ![] bcast_S_S512 (constant (F := Ideal) S_ .f32 0xFF800000#32))
        (Host.reduce FloatOps.maximumf z (constant (F := Ideal) S_ .f32 0xFF800000#32) reducesTo_S512x10_S512_d1 h_S_)))))
    (broadcastInDim S512x10 ![0, 1] bcast_S512x1_S512x10_0_1
      (Host.log (F := Ideal)
        (broadcastInDim S512x1 ![0] bcast_S512_S512x1_0
          (Host.reduceAdd (F := Ideal)
            (Host.exp (F := Ideal)
              (subf z (broadcastInDim S512x10 ![0, 1] bcast_S512x1_S512x10_0_1 (broadcastInDim S512x1 ![0] bcast_S512_S512x1_0
                (maximumf (broadcastInDim S512 ![] bcast_S_S512 (constant (F := Ideal) S_ .f32 0xFF800000#32))
                  (Host.reduce FloatOps.maximumf z (constant (F := Ideal) S_ .f32 0xFF800000#32) reducesTo_S512x10_S512_d1 h_S_))))))
            (constant (F := Ideal) S_ .f32 0x00000000#32) reducesTo_S512x10_S512_d1 h_S_))))

/-- The head: a dense layer with the unit, a dense layer to ten classes, the logarithmic softmax. -/
def head (r : CF S512x128) (w1 : CF S128x128) (b1 : CF S128) (w2 : CF S128x10) (b2 : CF S10) : CF S512x10 :=
  logSoftmax
    (addf
      (Host.dotGeneral (F := Ideal) dot_S512x128_S128x10_S512x10_1_0_0_1_n_n none
        (eluG (addf (Host.dotGeneral (F := Ideal) dot_S512x128_S128x128_S512x128_1_0_0_1_n_n none r w1)
          (broadcastInDim S512x128 ![0, 1] bcast_S1x128_S512x128_0_1 (broadcastInDim S1x128 ![1] bcast_S128_S1x128_1 b1))))
        w2)
      (broadcastInDim S512x10 ![0, 1] bcast_S1x10_S512x10_0_1 (broadcastInDim S1x10 ![1] bcast_S10_S1x10_1 b2)))

/-! ## The network -/

/-- The whole network as one function of its eleven arguments. -/
def net (x : CF S100000x128) (w1 : CF S128x128) (b1 : CF S128) (gw : CF S3x128x128) (gb : CF S3x128)
    (lw : CF S128x128) (lb : CF S128) (cw : CF S128x10) (cb : CF S10) (e : CI S2x1600000) (g : CI S100000) : CF S512x10 :=
  let s := src e
  let d := dst e
  let wt := edgeWeight s d
  let n := graphSize g
  let h0 := inputLayer x w1 b1
  let h1 := activate (propagate s d wt (project h0 (weight0 gw))) (bias0 gb)
  let h2 := activate (propagate s d wt (project h1 (weight1 gw))) (bias1 gb)
  let h3 := activate (propagate s d wt (project h2 (weight2 gw))) (bias2 gb)
  head (addf (addf (addf (graphMean g n h0) (graphMean g n h1)) (graphMean g n h2)) (graphMean g n h3)) lw lb cw cb

end Cert.Gcn

end
-- ==== Proof.HostRead.lean ====
/-
  Reading a buffer after a straight line of host operations.

  The contents of a buffer after a list of host operations is a fold over the list: at the buffer an operation
  writes it is that operation's function of its operands' contents, and at any other buffer it is what was there
  before. Rewriting with these two facts, one operation at a time and until neither applies, reads a buffer back
  to a term over the contents the line started from. Two lines run one after the other fold one after the other.
-/
import Idealize.ShloMosaic.Lib.StableHlo.Run

namespace Cert.HostRead

open Idealize.ShloMosaic Idealize.ShloMosaic.StableHlo

/-- Rewrite every remaining "contents after this operation" to the operation's value or to the contents before it. -/
macro "results_loop" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- The contents after two lines run one after the other: the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.HostRead
-- ==== Proof.KHost.lean ====
/-
  The idealized kernel program's host stretches, read as the network's stages.

  Between its tiled regions the program runs stretches of host operations: before the first region it builds the
  edge lists with a loop at every node, the edge weights and the graph sizes; after a projection it propagates
  the projected rows along the edges and slices out the layer's bias; after an activation it averages the new
  features over each graph, adds the average to the running sum and slices out the next layer's weight matrix.
  For an arbitrary state of the buffers on entry, each lemma below reads one buffer after a stretch as a stage
  of the network applied to the entry contents of the buffers it depends on; `keptK` says that a buffer the
  K-th stretch does not write keeps its contents.
-/
import proofs.«159488_j4544075399263_1_alg».proof.Proof.Gen.KernelIdeal.Launch
import proofs.«159488_j4544075399263_1_alg».proof.Proof.Gcn
import proofs.«159488_j4544075399263_1_alg».proof.Proof.HostRead

noncomputable section

namespace Cert.KernelIdeal.Host

open Idealize.ShloMosaic Idealize.ShloMosaic.StableHlo Idealize.SL.Sem Cert.KernelIdeal Cert.KernelIdeal.Gen Cert.HostRead

variable (W : Valuation τ sig (Elt Ideal))

/-! ## What each stretch writes, and what it leaves alone -/

/-- The buffers stretch 0 writes. -/
def written0 : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29, main_cst_5, main_v30, main_cst_6, main_v31, main_v32, main_v33, main_cst_7, main_v34, main_v35, main_v36]

theorem written0_covers : (hostOps0 (F := Ideal)).Forall fun op => op.writes ⊆ ((written0).map (Proc.devRef (τ := τ) .tc)).toFinset := by
  simp only [hostOps0, List.Forall, nullary_writes, unary_writes, binary_writes, ternary_writes, reshape_writes]
  repeat' apply And.intro
  all_goals exact Finset.singleton_subset_iff.mpr (List.mem_toFinset.mpr (List.mem_map.mpr ⟨_, by decide, rfl⟩))

/-- A buffer stretch 0 does not write keeps its contents. -/
theorem kept0 (b : Ref sig .tc) (hb : b ∉ written0) : after (hostOps0 (F := Ideal)) W (Proc.devRef .tc b) = W (Proc.devRef .tc b) :=
  after_of_writes_sub _ W written0_covers hb

/-- The buffers stretch 1 writes. -/
def written1 : List (Ref sig .tc) := [main_cst_8, main_v38, main_v39, main_v40, main_v41, main_v42, main_v43, main_v44]

theorem written1_covers : (hostOps1 (F := Ideal)).Forall fun op => op.writes ⊆ ((written1).map (Proc.devRef (τ := τ) .tc)).toFinset := by
  simp only [hostOps1, List.Forall, nullary_writes, unary_writes, binary_writes, ternary_writes, reshape_writes]
  repeat' apply And.intro
  all_goals exact Finset.singleton_subset_iff.mpr (List.mem_toFinset.mpr (List.mem_map.mpr ⟨_, by decide, rfl⟩))

/-- A buffer stretch 1 does not write keeps its contents. -/
theorem kept1 (b : Ref sig .tc) (hb : b ∉ written1) : after (hostOps1 (F := Ideal)) W (Proc.devRef .tc b) = W (Proc.devRef .tc b) :=
  after_of_writes_sub _ W written1_covers hb

/-- The buffers stretch 2 writes. -/
def written2 : List (Ref sig .tc) := [main_c_9, main_v46, main_v47, main_c_10, main_v48, main_v49, main_v50, main_v51, main_v52, main_v53, main_v54, main_cst_11, main_v55, main_v56, main_v57, main_v58, main_v59]

theorem written2_covers : (hostOps2 (F := Ideal)).Forall fun op => op.writes ⊆ ((written2).map (Proc.devRef (τ := τ) .tc)).toFinset := by
  simp only [hostOps2, List.Forall, nullary_writes, unary_writes, binary_writes, ternary_writes, reshape_writes]
  repeat' apply And.intro
  all_goals exact Finset.singleton_subset_iff.mpr (List.mem_toFinset.mpr (List.mem_map.mpr ⟨_, by decide, rfl⟩))

/-- A buffer stretch 2 does not write keeps its contents. -/
theorem kept2 (b : Ref sig .tc) (hb : b ∉ written2) : after (hostOps2 (F := Ideal)) W (Proc.devRef .tc b) = W (Proc.devRef .tc b) :=
  after_of_writes_sub _ W written2_covers hb

/-- The buffers stretch 3 writes. -/
def written3 : List (Ref sig .tc) := [main_cst_12, main_v61, main_v62, main_v63, main_v64, main_v65, main_v66, main_v67, main_v68]

theorem written3_covers : (hostOps3 (F := Ideal)).Forall fun op => op.writes ⊆ ((written3).map (Proc.devRef (τ := τ) .tc)).toFinset := by
  simp only [hostOps3, List.Forall, nullary_writes, unary_writes, binary_writes, ternary_writes, reshape_writes]
  repeat' apply And.intro
  all_goals exact Finset.singleton_subset_iff.mpr (List.mem_toFinset.mpr (List.mem_map.mpr ⟨_, by decide, rfl⟩))

/-- A buffer stretch 3 does not write keeps its contents. -/
theorem kept3 (b : Ref sig .tc) (hb : b ∉ written3) : after (hostOps3 (F := Ideal)) W (Proc.devRef .tc b) = W (Proc.devRef .tc b) :=
  after_of_writes_sub _ W written3_covers hb

/-- The buffers stretch 4 writes. -/
def written4 : List (Ref sig .tc) := [main_c_13, main_v70, main_v71, main_c_14, main_v72, main_v73, main_v74, main_v75, main_v76, main_v77, main_v78, main_cst_15, main_v79, main_v80, main_v81, main_v82, main_v83]

theorem written4_covers : (hostOps4 (F := Ideal)).Forall fun op => op.writes ⊆ ((written4).map (Proc.devRef (τ := τ) .tc)).toFinset := by
  simp only [hostOps4, List.Forall, nullary_writes, unary_writes, binary_writes, ternary_writes, reshape_writes]
  repeat' apply And.intro
  all_goals exact Finset.singleton_subset_iff.mpr (List.mem_toFinset.mpr (List.mem_map.mpr ⟨_, by decide, rfl⟩))

/-- A buffer stretch 4 does not write keeps its contents. -/
theorem kept4 (b : Ref sig .tc) (hb : b ∉ written4) : after (hostOps4 (F := Ideal)) W (Proc.devRef .tc b) = W (Proc.devRef .tc b) :=
  after_of_writes_sub _ W written4_covers hb

/-- The buffers stretch 5 writes. -/
def written5 : List (Ref sig .tc) := [main_cst_16, main_v85, main_v86, main_v87, main_v88, main_v89, main_v90, main_v91, main_v92]

theorem written5_covers : (hostOps5 (F := Ideal)).Forall fun op => op.writes ⊆ ((written5).map (Proc.devRef (τ := τ) .tc)).toFinset := by
  simp only [hostOps5, List.Forall, nullary_writes, unary_writes, binary_writes, ternary_writes, reshape_writes]
  repeat' apply And.intro
  all_goals exact Finset.singleton_subset_iff.mpr (List.mem_toFinset.mpr (List.mem_map.mpr ⟨_, by decide, rfl⟩))

/-- A buffer stretch 5 does not write keeps its contents. -/
theorem kept5 (b : Ref sig .tc) (hb : b ∉ written5) : after (hostOps5 (F := Ideal)) W (Proc.devRef .tc b) = W (Proc.devRef .tc b) :=
  after_of_writes_sub _ W written5_covers hb

/-- The buffers stretch 6 writes. -/
def written6 : List (Ref sig .tc) := [main_c_17, main_v94, main_v95, main_c_18, main_v96, main_v97, main_v98, main_v99, main_v100, main_v101, main_v102, main_cst_19, main_v103, main_v104, main_v105, main_v106, main_v107]

theorem written6_covers : (hostOps6 (F := Ideal)).Forall fun op => op.writes ⊆ ((written6).map (Proc.devRef (τ := τ) .tc)).toFinset := by
  simp only [hostOps6, List.Forall, nullary_writes, unary_writes, binary_writes, ternary_writes, reshape_writes]
  repeat' apply And.intro
  all_goals exact Finset.singleton_subset_iff.mpr (List.mem_toFinset.mpr (List.mem_map.mpr ⟨_, by decide, rfl⟩))

/-- A buffer stretch 6 does not write keeps its contents. -/
theorem kept6 (b : Ref sig .tc) (hb : b ∉ written6) : after (hostOps6 (F := Ideal)) W (Proc.devRef .tc b) = W (Proc.devRef .tc b) :=
  after_of_writes_sub _ W written6_covers hb

/-- The buffers stretch 7 writes. -/
def written7 : List (Ref sig .tc) := [main_cst_20, main_v109, main_v110, main_v111, main_v112, main_v113, main_v114]

theorem written7_covers : (hostOps7 (F := Ideal)).Forall fun op => op.writes ⊆ ((written7).map (Proc.devRef (τ := τ) .tc)).toFinset := by
  simp only [hostOps7, List.Forall, nullary_writes, unary_writes, binary_writes, ternary_writes, reshape_writes]
  repeat' apply And.intro
  all_goals exact Finset.singleton_subset_iff.mpr (List.mem_toFinset.mpr (List.mem_map.mpr ⟨_, by decide, rfl⟩))

/-- A buffer stretch 7 does not write keeps its contents. -/
theorem kept7 (b : Ref sig .tc) (hb : b ∉ written7) : after (hostOps7 (F := Ideal)) W (Proc.devRef .tc b) = W (Proc.devRef .tc b) :=
  after_of_writes_sub _ W written7_covers hb

/-! ## The first stretch: edges, weights, graph sizes -/

theorem sources : after (hostOps0 (F := Ideal)) W (Proc.devRef .tc main_v5) = Cert.Gcn.src (W (Proc.devRef .tc main_arg9)) := by
  after_results; rfl

theorem targets : after (hostOps0 (F := Ideal)) W (Proc.devRef .tc main_v6) = Cert.Gcn.dst (W (Proc.devRef .tc main_arg9)) := by
  after_results; rfl

theorem weights : after (hostOps0 (F := Ideal)) W (Proc.devRef .tc main_v29)
    = Cert.Gcn.edgeWeight (Cert.Gcn.src (W (Proc.devRef .tc main_arg9))) (Cert.Gcn.dst (W (Proc.devRef .tc main_arg9))) := by
  after_results_simp; results_loop; rfl

theorem sizes : after (hostOps0 (F := Ideal)) W (Proc.devRef .tc main_v36) = Cert.Gcn.graphSize (W (Proc.devRef .tc main_arg10)) := by
  after_results_simp; rfl

/-! ## After the input layer and after each activation: the graph mean, the running sum, the next weight matrix -/

theorem mean0 : after (hostOps1 (F := Ideal)) W (Proc.devRef .tc main_v42)
    = Cert.Gcn.graphMean (W (Proc.devRef .tc main_arg10)) (W (Proc.devRef .tc main_v36)) (W (Proc.devRef .tc main_v37)) := by
  after_results_simp; rfl

theorem matrix0 : after (hostOps1 (F := Ideal)) W (Proc.devRef .tc main_v44) = Cert.Gcn.weight0 (W (Proc.devRef .tc main_arg3)) := by
  after_results_simp; rfl

theorem sum1 : after (hostOps3 (F := Ideal)) W (Proc.devRef .tc main_v66)
    = addf (W (Proc.devRef .tc main_v42)) (Cert.Gcn.graphMean (W (Proc.devRef .tc main_arg10)) (W (Proc.devRef .tc main_v36)) (W (Proc.devRef .tc main_v60))) := by
  after_results_simp; rfl

theorem matrix1 : after (hostOps3 (F := Ideal)) W (Proc.devRef .tc main_v68) = Cert.Gcn.weight1 (W (Proc.devRef .tc main_arg3)) := by
  after_results_simp; rfl

theorem sum2 : after (hostOps5 (F := Ideal)) W (Proc.devRef .tc main_v90)
    = addf (W (Proc.devRef .tc main_v66)) (Cert.Gcn.graphMean (W (Proc.devRef .tc main_arg10)) (W (Proc.devRef .tc main_v36)) (W (Proc.devRef .tc main_v84))) := by
  after_results_simp; rfl

theorem matrix2 : after (hostOps5 (F := Ideal)) W (Proc.devRef .tc main_v92) = Cert.Gcn.weight2 (W (Proc.devRef .tc main_arg3)) := by
  after_results_simp; rfl

theorem sum3 : after (hostOps7 (F := Ideal)) W (Proc.devRef .tc main_v114)
    = addf (W (Proc.devRef .tc main_v90)) (Cert.Gcn.graphMean (W (Proc.devRef .tc main_arg10)) (W (Proc.devRef .tc main_v36)) (W (Proc.devRef .tc main_v108))) := by
  after_results_simp; rfl

/-! ## After each projection: the propagation along the edges, and the layer's bias -/

theorem spread0 : after (hostOps2 (F := Ideal)) W (Proc.devRef .tc main_v57)
    = Cert.Gcn.propagate (W (Proc.devRef .tc main_v5)) (W (Proc.devRef .tc main_v6)) (W (Proc.devRef .tc main_v29)) (W (Proc.devRef .tc main_v45)) := by
  after_results_simp; rfl

theorem shift0 : after (hostOps2 (F := Ideal)) W (Proc.devRef .tc main_v59) = Cert.Gcn.bias0 (W (Proc.devRef .tc main_arg4)) := by
  after_results_simp; rfl

theorem spread1 : after (hostOps4 (F := Ideal)) W (Proc.devRef .tc main_v81)
    = Cert.Gcn.propagate (W (Proc.devRef .tc main_v5)) (W (Proc.devRef .tc main_v6)) (W (Proc.devRef .tc main_v29)) (W (Proc.devRef .tc main_v69)) := by
  after_results_simp; rfl

theorem shift1 : after (hostOps4 (F := Ideal)) W (Proc.devRef .tc main_v83) = Cert.Gcn.bias1 (W (Proc.devRef .tc main_arg4)) := by
  after_results_simp; rfl

theorem spread2 : after (hostOps6 (F := Ideal)) W (Proc.devRef .tc main_v105)
    = Cert.Gcn.propagate (W (Proc.devRef .tc main_v5)) (W (Proc.devRef .tc main_v6)) (W (Proc.devRef .tc main_v29)) (W (Proc.devRef .tc main_v93)) := by
  after_results_simp; rfl

theorem shift2 : after (hostOps6 (F := Ideal)) W (Proc.devRef .tc main_v107) = Cert.Gcn.bias2 (W (Proc.devRef .tc main_arg4)) := by
  after_results_simp; rfl

end Cert.KernelIdeal.Host

end
-- ==== Proof.KChain.lean ====
/-
  The idealized kernel's result as the network of its arguments.

  The program's run passes sixteen boundaries: after each stretch of host operations and after each tiled region.
  At each boundary the buffers that later stages still read hold stages of the network applied to the argument
  arrays: the edge lists, weights and graph sizes from the first stretch on; after the input layer's region the
  first hidden features; then, layer by layer, the projected features, the propagated ones and the bias, the
  activated ones, and the running sum of the graph means; at the last boundary the head of the summed means.
  What each region leaves in its output array, as a function of the contents it is entered with, is taken as a
  hypothesis here (`RegionValues`) and proved region by region elsewhere.
-/
import proofs.«159488_j4544075399263_1_alg».proof.Proof.Gen.KernelIdeal.Frame
import proofs.«159488_j4544075399263_1_alg».proof.Proof.KHost

noncomputable section

namespace Cert.KernelIdeal.Chain

open Idealize.ShloMosaic Idealize.ShloMosaic.StableHlo Idealize.ShloMosaic.TcCoe Idealize.SL.Sem
open Cert.KernelIdeal Cert.KernelIdeal.Gen Cert.KernelIdeal.Host
open Idealize.ShloMosaic.Pipeline (Dat)

/-- The contents a region is entered with: every buffer of every core. -/
abbrev Entry := (c : Dev nD) → (b : Ref sig .tc) → Buf (Elt Ideal) ((c : Thread nD τ).loc b)

/-- What each region leaves in its output array, whatever contents it is entered with: the input layer, the three
    projections, the three activations, the head — each of the region's operand arrays as it finds them. -/
structure RegionValues : Prop where
  input : ∀ (V : Entry) (c : Dev nD), (dat0 (F := Ideal) V c).arrAt 3 cfg0.N
      = Cert.Gcn.inputLayer (V c main_arg0) (V c main_arg1) (V c main_arg2)
  project1 : ∀ (V : Entry) (c : Dev nD), (dat1 (F := Ideal) V c).arrAt 2 cfg1.N = Cert.Gcn.project (V c main_v37) (V c main_v44)
  activate2 : ∀ (V : Entry) (c : Dev nD), (dat2 (F := Ideal) V c).arrAt 2 cfg2.N = Cert.Gcn.activate (V c main_v57) (V c main_v59)
  project3 : ∀ (V : Entry) (c : Dev nD), (dat3 (F := Ideal) V c).arrAt 2 cfg3.N = Cert.Gcn.project (V c main_v60) (V c main_v68)
  activate4 : ∀ (V : Entry) (c : Dev nD), (dat4 (F := Ideal) V c).arrAt 2 cfg4.N = Cert.Gcn.activate (V c main_v81) (V c main_v83)
  project5 : ∀ (V : Entry) (c : Dev nD), (dat5 (F := Ideal) V c).arrAt 2 cfg5.N = Cert.Gcn.project (V c main_v84) (V c main_v92)
  activate6 : ∀ (V : Entry) (c : Dev nD), (dat6 (F := Ideal) V c).arrAt 2 cfg6.N = Cert.Gcn.activate (V c main_v105) (V c main_v107)
  head : ∀ (V : Entry) (c : Dev nD), (dat7 (F := Ideal) V c).arrAt 5 cfg7.N
      = Cert.Gcn.head (V c main_v114) (V c main_arg5) (V c main_arg6) (V c main_arg7) (V c main_arg8)

variable (m : (ℓ : Loc nD τ sig) → Buf (Elt Ideal) ℓ) (ρ : Dev nD → PrngReg) (c : Dev nD)

/-! ## The argument arrays and the network's stages over them -/

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)

/-- Edge sources, edge targets, edge weights, graph sizes. -/
def S := Cert.Gcn.src (A9 m c)
def D := Cert.Gcn.dst (A9 m c)
def Wt := Cert.Gcn.edgeWeight (S m c) (D m c)
def Sz := Cert.Gcn.graphSize (A10 m c)
/-- The hidden features after the input layer and after each of the three layers. -/
def H0 := Cert.Gcn.inputLayer (A0 m c) (A1 m c) (A2 m c)
def P1 := Cert.Gcn.project (H0 m c) (Cert.Gcn.weight0 (A3 m c))
def H1 := Cert.Gcn.activate (Cert.Gcn.propagate (S m c) (D m c) (Wt m c) (P1 m c)) (Cert.Gcn.bias0 (A4 m c))
def P2 := Cert.Gcn.project (H1 m c) (Cert.Gcn.weight1 (A3 m c))
def H2 := Cert.Gcn.activate (Cert.Gcn.propagate (S m c) (D m c) (Wt m c) (P2 m c)) (Cert.Gcn.bias1 (A4 m c))
def P3 := Cert.Gcn.project (H2 m c) (Cert.Gcn.weight2 (A3 m c))
def H3 := Cert.Gcn.activate (Cert.Gcn.propagate (S m c) (D m c) (Wt m c) (P3 m c)) (Cert.Gcn.bias2 (A4 m c))
/-- The running sums of the graph means. -/
def R0 := Cert.Gcn.graphMean (A10 m c) (Sz m c) (H0 m c)
def R1 := addf (R0 m c) (Cert.Gcn.graphMean (A10 m c) (Sz m c) (H1 m c))
def R2 := addf (R1 m c) (Cert.Gcn.graphMean (A10 m c) (Sz m c) (H2 m c))
def R3 := addf (R2 m c) (Cert.Gcn.graphMean (A10 m c) (Sz m c) (H3 m c))

/-- The network of the arguments is the head of the last running sum. -/
theorem net_eq : Cert.Gcn.net (A0 m c) (A1 m c) (A2 m c) (A3 m c) (A4 m c) (A5 m c) (A6 m c) (A7 m c) (A8 m c) (A9 m c) (A10 m c)
    = Cert.Gcn.head (R3 m c) (A5 m c) (A6 m c) (A7 m c) (A8 m c) := rfl

/-! ## The buffers carried unchanged from the first stretch to the end -/

/-- Buffers written at most by the first stretch and read by later ones: the layers' and the head's parameters, the
    graph assignment, the edge lists, the edge weights, the graph sizes. -/
def carried : List (Ref sig .tc) :=
  [main_arg3, main_arg4, main_arg5, main_arg6, main_arg7, main_arg8, main_arg10, main_v5, main_v6, main_v29, main_v36]

/-! ### Boundary 1: after the first stretch -/

theorem at1_arg (b : Ref sig .tc) (hb : b ∉ written0) : W1 m ρ c (Proc.devRef .tc b) = W0 m ρ c (Proc.devRef .tc b) :=
  kept0 _ b hb
theorem at1_A0 : W1 m ρ c (Proc.devRef .tc main_arg0) = A0 m c := at1_arg m ρ c main_arg0 (by decide)
theorem at1_A1 : W1 m ρ c (Proc.devRef .tc main_arg1) = A1 m c := at1_arg m ρ c main_arg1 (by decide)
theorem at1_A2 : W1 m ρ c (Proc.devRef .tc main_arg2) = A2 m c := at1_arg m ρ c main_arg2 (by decide)
theorem at1_A3 : W1 m ρ c (Proc.devRef .tc main_arg3) = A3 m c := at1_arg m ρ c main_arg3 (by decide)
theorem at1_A4 : W1 m ρ c (Proc.devRef .tc main_arg4) = A4 m c := at1_arg m ρ c main_arg4 (by decide)
theorem at1_A5 : W1 m ρ c (Proc.devRef .tc main_arg5) = A5 m c := at1_arg m ρ c main_arg5 (by decide)
theorem at1_A6 : W1 m ρ c (Proc.devRef .tc main_arg6) = A6 m c := at1_arg m ρ c main_arg6 (by decide)
theorem at1_A7 : W1 m ρ c (Proc.devRef .tc main_arg7) = A7 m c := at1_arg m ρ c main_arg7 (by decide)
theorem at1_A8 : W1 m ρ c (Proc.devRef .tc main_arg8) = A8 m c := at1_arg m ρ c main_arg8 (by decide)
theorem at1_A10 : W1 m ρ c (Proc.devRef .tc main_arg10) = A10 m c := at1_arg m ρ c main_arg10 (by decide)
theorem at1_S : W1 m ρ c (Proc.devRef .tc main_v5) = S m c := sources _
theorem at1_D : W1 m ρ c (Proc.devRef .tc main_v6) = D m c := targets _
theorem at1_Wt : W1 m ρ c (Proc.devRef .tc main_v29) = Wt m c := weights _
theorem at1_Sz : W1 m ρ c (Proc.devRef .tc main_v36) = Sz m c := sizes _

/-! ### Boundary 2: after the input layer's region -/

theorem at2_carried (b : Ref sig .tc) (hb : b ∈ carried) : W2 m ρ c (Proc.devRef .tc b) = W1 m ρ c (Proc.devRef .tc b) :=
  W2_of_ne m ρ c b ((by decide : ∀ b ∈ carried, ∀ w, Pipeline.arrRef spec0 w ≠ b) b hb)

theorem at2_H0 (hR : RegionValues) : W2 m ρ c (Proc.devRef .tc main_v37) = H0 m c := by
  refine (W2_arr m ρ c 3).trans ((hR.input (V1 m ρ) c).trans ?_)
  show Cert.Gcn.inputLayer (W1 m ρ c (Proc.devRef .tc main_arg0)) (W1 m ρ c (Proc.devRef .tc main_arg1)) (W1 m ρ c (Proc.devRef .tc main_arg2)) = _
  rw [at1_A0, at1_A1, at1_A2]; rfl

/-! ### Boundary 3: after the stretch that follows it -/

theorem at3_carried (b : Ref sig .tc) (hb : b ∈ carried) : W3 m ρ c (Proc.devRef .tc b) = W1 m ρ c (Proc.devRef .tc b) :=
  (kept1 _ b ((by decide : ∀ b ∈ carried, b ∉ written1) b hb)).trans (at2_carried m ρ c b hb)

theorem at3_H0 (hR : RegionValues) : W3 m ρ c (Proc.devRef .tc main_v37) = H0 m c :=
  (kept1 _ main_v37 (by decide)).trans (at2_H0 m ρ c hR)

theorem at3_R0 (hR : RegionValues) : W3 m ρ c (Proc.devRef .tc main_v42) = R0 m c := by
  refine (mean0 _).trans ?_
  rw [at2_carried m ρ c main_arg10 (by decide), at2_carried m ρ c main_v36 (by decide), at1_A10, at1_Sz, at2_H0 m ρ c hR]; rfl

theorem at3_M0 : W3 m ρ c (Proc.devRef .tc main_v44) = Cert.Gcn.weight0 (A3 m c) := by
  refine (matrix0 _).trans ?_
  rw [at2_carried m ρ c main_arg3 (by decide), at1_A3]

/-! ### Boundary 4: after the first projection's region -/

theorem at4_carried (b : Ref sig .tc) (hb : b ∈ carried) : W4 m ρ c (Proc.devRef .tc b) = W1 m ρ c (Proc.devRef .tc b) :=
  (W4_of_ne m ρ c b ((by decide : ∀ b ∈ carried, ∀ w, Pipeline.arrRef spec1 w ≠ b) b hb)).trans (at3_carried m ρ c b hb)

theorem at4_R0 (hR : RegionValues) : W4 m ρ c (Proc.devRef .tc main_v42) = R0 m c :=
  (W4_of_ne m ρ c main_v42 (by decide)).trans (at3_R0 m ρ c hR)

theorem at4_P1 (hR : RegionValues) : W4 m ρ c (Proc.devRef .tc main_v45) = P1 m c := by
  refine (W4_arr m ρ c 2).trans ((hR.project1 (V3 m ρ) c).trans ?_)
  show Cert.Gcn.project (W3 m ρ c (Proc.devRef .tc main_v37)) (W3 m ρ c (Proc.devRef .tc main_v44)) = _
  rw [at3_H0 m ρ c hR, at3_M0]; rfl

/-! ### Boundary 5: after the first propagation -/

theorem at5_carried (b : Ref sig .tc) (hb : b ∈ carried) : W5 m ρ c (Proc.devRef .tc b) = W1 m ρ c (Proc.devRef .tc b) :=
  (kept2 _ b ((by decide : ∀ b ∈ carried, b ∉ written2) b hb)).trans (at4_carried m ρ c b hb)

theorem at5_R0 (hR : RegionValues) : W5 m ρ c (Proc.devRef .tc main_v42) = R0 m c :=
  (kept2 _ main_v42 (by decide)).trans (at4_R0 m ρ c hR)

theorem at5_G1 (hR : RegionValues) : W5 m ρ c (Proc.devRef .tc main_v57) = Cert.Gcn.propagate (S m c) (D m c) (Wt m c) (P1 m c) := by
  refine (spread0 _).trans ?_
  rw [at4_carried m ρ c main_v5 (by decide), at4_carried m ρ c main_v6 (by decide), at4_carried m ρ c main_v29 (by decide), at1_S, at1_D, at1_Wt, at4_P1 m ρ c hR]

theorem at5_B0 : W5 m ρ c (Proc.devRef .tc main_v59) = Cert.Gcn.bias0 (A4 m c) := by
  refine (shift0 _).trans ?_
  rw [at4_carried m ρ c main_arg4 (by decide), at1_A4]

/-! ### Boundary 6: after the first activation's region -/

theorem at6_carried (b : Ref sig .tc) (hb : b ∈ carried) : W6 m ρ c (Proc.devRef .tc b) = W1 m ρ c (Proc.devRef .tc b) :=
  (W6_of_ne m ρ c b ((by decide : ∀ b ∈ carried, ∀ w, Pipeline.arrRef spec2 w ≠ b) b hb)).trans (at5_carried m ρ c b hb)

theorem at6_R0 (hR : RegionValues) : W6 m ρ c (Proc.devRef .tc main_v42) = R0 m c :=
  (W6_of_ne m ρ c main_v42 (by decide)).trans (at5_R0 m ρ c hR)

theorem at6_H1 (hR : RegionValues) : W6 m ρ c (Proc.devRef .tc main_v60) = H1 m c := by
  refine (W6_arr m ρ c 2).trans ((hR.activate2 (V5 m ρ) c).trans ?_)
  show Cert.Gcn.activate (W5 m ρ c (Proc.devRef .tc main_v57)) (W5 m ρ c (Proc.devRef .tc main_v59)) = _
  rw [at5_G1 m ρ c hR, at5_B0]; rfl

/-! ### Boundary 7: after the second graph mean -/

theorem at7_carried (b : Ref sig .tc) (hb : b ∈ carried) : W7 m ρ c (Proc.devRef .tc b) = W1 m ρ c (Proc.devRef .tc b) :=
  (kept3 _ b ((by decide : ∀ b ∈ carried, b ∉ written3) b hb)).trans (at6_carried m ρ c b hb)

theorem at7_H1 (hR : RegionValues) : W7 m ρ c (Proc.devRef .tc main_v60) = H1 m c :=
  (kept3 _ main_v60 (by decide)).trans (at6_H1 m ρ c hR)

theorem at7_R1 (hR : RegionValues) : W7 m ρ c (Proc.devRef .tc main_v66) = R1 m c := by
  refine (sum1 _).trans ?_
  rw [at6_R0 m ρ c hR, at6_carried m ρ c main_arg10 (by decide), at6_carried m ρ c main_v36 (by decide), at1_A10, at1_Sz, at6_H1 m ρ c hR]; rfl

theorem at7_M1 : W7 m ρ c (Proc.devRef .tc main_v68) = Cert.Gcn.weight1 (A3 m c) := by
  refine (matrix1 _).trans ?_
  rw [at6_carried m ρ c main_arg3 (by decide), at1_A3]

/-! ### Boundary 8: after the second projection's region -/

theorem at8_carried (b : Ref sig .tc) (hb : b ∈ carried) : W8 m ρ c (Proc.devRef .tc b) = W1 m ρ c (Proc.devRef .tc b) :=
  (W8_of_ne m ρ c b ((by decide : ∀ b ∈ carried, ∀ w, Pipeline.arrRef spec3 w ≠ b) b hb)).trans (at7_carried m ρ c b hb)

theorem at8_R1 (hR : RegionValues) : W8 m ρ c (Proc.devRef .tc main_v66) = R1 m c :=
  (W8_of_ne m ρ c main_v66 (by decide)).trans (at7_R1 m ρ c hR)

theorem at8_P2 (hR : RegionValues) : W8 m ρ c (Proc.devRef .tc main_v69) = P2 m c := by
  refine (W8_arr m ρ c 2).trans ((hR.project3 (V7 m ρ) c).trans ?_)
  show Cert.Gcn.project (W7 m ρ c (Proc.devRef .tc main_v60)) (W7 m ρ c (Proc.devRef .tc main_v68)) = _
  rw [at7_H1 m ρ c hR, at7_M1]; rfl

/-! ### Boundary 9: after the second propagation -/

theorem at9_carried (b : Ref sig .tc) (hb : b ∈ carried) : W9 m ρ c (Proc.devRef .tc b) = W1 m ρ c (Proc.devRef .tc b) :=
  (kept4 _ b ((by decide : ∀ b ∈ carried, b ∉ written4) b hb)).trans (at8_carried m ρ c b hb)

theorem at9_R1 (hR : RegionValues) : W9 m ρ c (Proc.devRef .tc main_v66) = R1 m c :=
  (kept4 _ main_v66 (by decide)).trans (at8_R1 m ρ c hR)

theorem at9_G2 (hR : RegionValues) : W9 m ρ c (Proc.devRef .tc main_v81) = Cert.Gcn.propagate (S m c) (D m c) (Wt m c) (P2 m c) := by
  refine (spread1 _).trans ?_
  rw [at8_carried m ρ c main_v5 (by decide), at8_carried m ρ c main_v6 (by decide), at8_carried m ρ c main_v29 (by decide), at1_S, at1_D, at1_Wt, at8_P2 m ρ c hR]

theorem at9_B1 : W9 m ρ c (Proc.devRef .tc main_v83) = Cert.Gcn.bias1 (A4 m c) := by
  refine (shift1 _).trans ?_
  rw [at8_carried m ρ c main_arg4 (by decide), at1_A4]

/-! ### Boundary 10: after the second activation's region -/

theorem at10_carried (b : Ref sig .tc) (hb : b ∈ carried) : W10 m ρ c (Proc.devRef .tc b) = W1 m ρ c (Proc.devRef .tc b) :=
  (W10_of_ne m ρ c b ((by decide : ∀ b ∈ carried, ∀ w, Pipeline.arrRef spec4 w ≠ b) b hb)).trans (at9_carried m ρ c b hb)

theorem at10_R1 (hR : RegionValues) : W10 m ρ c (Proc.devRef .tc main_v66) = R1 m c :=
  (W10_of_ne m ρ c main_v66 (by decide)).trans (at9_R1 m ρ c hR)

theorem at10_H2 (hR : RegionValues) : W10 m ρ c (Proc.devRef .tc main_v84) = H2 m c := by
  refine (W10_arr m ρ c 2).trans ((hR.activate4 (V9 m ρ) c).trans ?_)
  show Cert.Gcn.activate (W9 m ρ c (Proc.devRef .tc main_v81)) (W9 m ρ c (Proc.devRef .tc main_v83)) = _
  rw [at9_G2 m ρ c hR, at9_B1]; rfl

/-! ### Boundary 11: after the third graph mean -/

theorem at11_carried (b : Ref sig .tc) (hb : b ∈ carried) : W11 m ρ c (Proc.devRef .tc b) = W1 m ρ c (Proc.devRef .tc b) :=
  (kept5 _ b ((by decide : ∀ b ∈ carried, b ∉ written5) b hb)).trans (at10_carried m ρ c b hb)

theorem at11_H2 (hR : RegionValues) : W11 m ρ c (Proc.devRef .tc main_v84) = H2 m c :=
  (kept5 _ main_v84 (by decide)).trans (at10_H2 m ρ c hR)

theorem at11_R2 (hR : RegionValues) : W11 m ρ c (Proc.devRef .tc main_v90) = R2 m c := by
  refine (sum2 _).trans ?_
  rw [at10_R1 m ρ c hR, at10_carried m ρ c main_arg10 (by decide), at10_carried m ρ c main_v36 (by decide), at1_A10, at1_Sz, at10_H2 m ρ c hR]; rfl

theorem at11_M2 : W11 m ρ c (Proc.devRef .tc main_v92) = Cert.Gcn.weight2 (A3 m c) := by
  refine (matrix2 _).trans ?_
  rw [at10_carried m ρ c main_arg3 (by decide), at1_A3]

/-! ### Boundary 12: after the third projection's region -/

theorem at12_carried (b : Ref sig .tc) (hb : b ∈ carried) : W12 m ρ c (Proc.devRef .tc b) = W1 m ρ c (Proc.devRef .tc b) :=
  (W12_of_ne m ρ c b ((by decide : ∀ b ∈ carried, ∀ w, Pipeline.arrRef spec5 w ≠ b) b hb)).trans (at11_carried m ρ c b hb)

theorem at12_R2 (hR : RegionValues) : W12 m ρ c (Proc.devRef .tc main_v90) = R2 m c :=
  (W12_of_ne m ρ c main_v90 (by decide)).trans (at11_R2 m ρ c hR)

theorem at12_P3 (hR : RegionValues) : W12 m ρ c (Proc.devRef .tc main_v93) = P3 m c := by
  refine (W12_arr m ρ c 2).trans ((hR.project5 (V11 m ρ) c).trans ?_)
  show Cert.Gcn.project (W11 m ρ c (Proc.devRef .tc main_v84)) (W11 m ρ c (Proc.devRef .tc main_v92)) = _
  rw [at11_H2 m ρ c hR, at11_M2]; rfl

/-! ### Boundary 13: after the third propagation -/

theorem at13_carried (b : Ref sig .tc) (hb : b ∈ carried) : W13 m ρ c (Proc.devRef .tc b) = W1 m ρ c (Proc.devRef .tc b) :=
  (kept6 _ b ((by decide : ∀ b ∈ carried, b ∉ written6) b hb)).trans (at12_carried m ρ c b hb)

theorem at13_R2 (hR : RegionValues) : W13 m ρ c (Proc.devRef .tc main_v90) = R2 m c :=
  (kept6 _ main_v90 (by decide)).trans (at12_R2 m ρ c hR)

theorem at13_G3 (hR : RegionValues) : W13 m ρ c (Proc.devRef .tc main_v105) = Cert.Gcn.propagate (S m c) (D m c) (Wt m c) (P3 m c) := by
  refine (spread2 _).trans ?_
  rw [at12_carried m ρ c main_v5 (by decide), at12_carried m ρ c main_v6 (by decide), at12_carried m ρ c main_v29 (by decide), at1_S, at1_D, at1_Wt, at12_P3 m ρ c hR]

theorem at13_B2 : W13 m ρ c (Proc.devRef .tc main_v107) = Cert.Gcn.bias2 (A4 m c) := by
  refine (shift2 _).trans ?_
  rw [at12_carried m ρ c main_arg4 (by decide), at1_A4]

/-! ### Boundary 14: after the third activation's region -/

theorem at14_carried (b : Ref sig .tc) (hb : b ∈ carried) : W14 m ρ c (Proc.devRef .tc b) = W1 m ρ c (Proc.devRef .tc b) :=
  (W14_of_ne m ρ c b ((by decide : ∀ b ∈ carried, ∀ w, Pipeline.arrRef spec6 w ≠ b) b hb)).trans (at13_carried m ρ c b hb)

theorem at14_R2 (hR : RegionValues) : W14 m ρ c (Proc.devRef .tc main_v90) = R2 m c :=
  (W14_of_ne m ρ c main_v90 (by decide)).trans (at13_R2 m ρ c hR)

theorem at14_H3 (hR : RegionValues) : W14 m ρ c (Proc.devRef .tc main_v108) = H3 m c := by
  refine (W14_arr m ρ c 2).trans ((hR.activate6 (V13 m ρ) c).trans ?_)
  show Cert.Gcn.activate (W13 m ρ c (Proc.devRef .tc main_v105)) (W13 m ρ c (Proc.devRef .tc main_v107)) = _
  rw [at13_G3 m ρ c hR, at13_B2]; rfl

/-! ### Boundary 15: after the last graph mean -/

theorem at15_carried (b : Ref sig .tc) (hb : b ∈ carried) : W15 m ρ c (Proc.devRef .tc b) = W1 m ρ c (Proc.devRef .tc b) :=
  (kept7 _ b ((by decide : ∀ b ∈ carried, b ∉ written7) b hb)).trans (at14_carried m ρ c b hb)

theorem at15_R3 (hR : RegionValues) : W15 m ρ c (Proc.devRef .tc main_v114) = R3 m c := by
  refine (sum3 _).trans ?_
  rw [at14_R2 m ρ c hR, at14_carried m ρ c main_arg10 (by decide), at14_carried m ρ c main_v36 (by decide), at1_A10, at1_Sz, at14_H3 m ρ c hR]; rfl

/-! ### Boundary 16: after the head's region -/

/-- The result buffer at the last boundary holds the network of the argument arrays. -/
theorem result (hR : RegionValues) : W16 m ρ c (Proc.devRef .tc main_v115)
    = Cert.Gcn.net (A0 m c) (A1 m c) (A2 m c) (A3 m c) (A4 m c) (A5 m c) (A6 m c) (A7 m c) (A8 m c) (A9 m c) (A10 m c) := by
  rw [net_eq]
  refine (W16_arr m ρ c 5).trans ((hR.head (V15 m ρ) c).trans ?_)
  show Cert.Gcn.head (W15 m ρ c (Proc.devRef .tc main_v114)) (W15 m ρ c (Proc.devRef .tc main_arg5)) (W15 m ρ c (Proc.devRef .tc main_arg6))
    (W15 m ρ c (Proc.devRef .tc main_arg7)) (W15 m ρ c (Proc.devRef .tc main_arg8)) = _
  rw [at15_R3 m ρ c hR, at15_carried m ρ c main_arg5 (by decide), at15_carried m ρ c main_arg6 (by decide), at15_carried m ρ c main_arg7 (by decide), at15_carried m ρ c main_arg8 (by decide),
    at1_A5, at1_A6, at1_A7, at1_A8]

end Cert.KernelIdeal.Chain

end
-- ==== Proof.Tile0.lean ====
/-
  Region 0 of the tiled program is the network's input layer, ten thousand rows at a time.

  The 100000 node rows are cut into ten blocks of 10000 consecutive rows. At grid point t the region reads block t
  of the input features, the whole 128 × 128 matrix and the whole bias row of 128 entries; it multiplies the block
  by the matrix into a zero accumulator, adds the bias entry of each column, applies the exponential linear unit
  (y where y is positive, exp y − 1 elsewhere) and writes the result back as block t. Entry (p, q) of a block's
  product is the sum over k of the block's (p, k) entry times the matrix's (k, q) entry; the network's stage
  spells the unit as a selection between y and one times expm1 of y with its positive entries zeroed, which is
  the same function of y. Row p of block t is row 10000·t + p of the input features, so the block written at
  point t is block t of the input layer applied to the whole arrays, and the ten blocks fill the result.
-/
import proofs.«159488_j4544075399263_1_alg».proof.Proof.Gen.KernelIdeal.Frame
import proofs.«159488_j4544075399263_1_alg».proof.Proof.Gcn
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Tiles

open Cert.KernelIdeal Cert.KernelIdeal.Gen
open Idealize.ShloMosaic Idealize.ShloMosaic.TcCoe Idealize.ShloMosaic.ValueIdx
open Idealize.ShloMosaic.Pipeline (Dat)
open scoped BigOperators

/-! ## One entry of a block's product -/

/-- The block product's dimension numbers: the block's columns are contracted against the matrix's rows. -/
abbrev blockDot0 : DotDims S10000x128 S128x128 S10000x128 := dot_S10000x128_S128x128_S10000x128_1_0_0_1_n_n

/-- The left factor's row is the entry's row, -/
theorem blockDot0_lhs_row (i : S10000x128.Idx) (k : blockDot0.contr.Idx) : (blockDot0.lhsIdx i k 0).val = (i 0).val := by
  unfold DotDims.lhsIdx
  rw [dif_neg (show ¬(0 : Fin S10000x128.rank) ∈ blockDot0.lhsBatch by decide),
    dif_pos (show (0 : Fin S10000x128.rank) ∈ blockDot0.lhsNonContracting by decide)]
  rfl

/-- its column the summation index; -/
theorem blockDot0_lhs_col (i : S10000x128.Idx) (k : blockDot0.contr.Idx) :
    (blockDot0.lhsIdx i k 1).val = (k ⟨0, by decide⟩).val :=
  blockDot0.lhsIdx_val_of_single rfl i k

/-- the right factor's row is the summation index, -/
theorem blockDot0_rhs_row (i : S10000x128.Idx) (k : blockDot0.contr.Idx) :
    (blockDot0.rhsIdx i k 0).val = (k ⟨0, by decide⟩).val :=
  blockDot0.rhsIdx_val_of_single rfl i k

/-- and its column the entry's column. -/
theorem blockDot0_rhs_col (i : S10000x128.Idx) (k : blockDot0.contr.Idx) : (blockDot0.rhsIdx i k 1).val = (i 1).val := by
  unfold DotDims.rhsIdx
  rw [dif_neg (show ¬(1 : Fin S128x128.rank) ∈ blockDot0.rhsBatch by decide),
    dif_pos (show (1 : Fin S128x128.rank) ∈ blockDot0.rhsNonContracting by decide)]
  rfl

/-- Entry (p, q) of a block `x` times the matrix `w`, into a zero accumulator: the sum over k of
    x(p, k) · w(k, q). The changes of float format are the identity on extended reals. -/
theorem blockProduct0_apply (x : Vec Ideal S10000x128 .f32) (w : Vec Ideal S128x128 .f32)
    (hx hw : FTy.bf16.bits < FTy.f32.bits) (p : Fin 10000) (q : Fin 128) :
    matmul blockDot0 none (truncf .bf16 x hx) (truncf .bf16 w hw) (constant (F := Ideal) S10000x128 .f32 0x00000000#32) (ix2 p q)
      = ∑ k : Fin 128, x (ix2 p k) * w (ix2 k q) := by
  refine (Ideal.matmul_constant_zero_apply blockDot0 none _ _ (ix2 p q)).trans ?_
  rw [← Equiv.sum_comp (contrEquiv1 blockDot0 128 rfl rfl).symm]
  refine Finset.sum_congr rfl fun k _ => ?_
  have hk := contrEquiv1_symm_val blockDot0 128 rfl rfl k
  have el : blockDot0.lhsIdx (ix2 p q) ((contrEquiv1 blockDot0 128 rfl rfl).symm k) = ix2 p k :=
    funext fun a => Fin.ext (by
      match a with
      | ⟨0, _⟩ => exact blockDot0_lhs_row _ _
      | ⟨1, _⟩ => exact (blockDot0_lhs_col _ _).trans hk)
  have er : blockDot0.rhsIdx (ix2 p q) ((contrEquiv1 blockDot0 128 rfl rfl).symm k) = ix2 k q :=
    funext fun a => Fin.ext (by
      match a with
      | ⟨0, _⟩ => exact (blockDot0_rhs_row _ _).trans hk
      | ⟨1, _⟩ => exact blockDot0_rhs_col _ _)
  rw [el, er]
  rfl

/-! ## One entry of the whole product -/

/-- The whole product's dimension numbers. -/
abbrev nodeDot0 : DotDims Cert.ReferenceIdeal.S100000x128 Cert.ReferenceIdeal.S128x128 Cert.ReferenceIdeal.S100000x128 :=
  Cert.ReferenceIdeal.dot_S100000x128_S128x128_S100000x128_1_0_0_1_n_n

theorem nodeDot0_lhs_row (i : Cert.ReferenceIdeal.S100000x128.Idx) (k : nodeDot0.contr.Idx) :
    (nodeDot0.lhsIdx i k 0).val = (i 0).val := by
  unfold DotDims.lhsIdx
  rw [dif_neg (show ¬(0 : Fin Cert.ReferenceIdeal.S100000x128.rank) ∈ nodeDot0.lhsBatch by decide),
    dif_pos (show (0 : Fin Cert.ReferenceIdeal.S100000x128.rank) ∈ nodeDot0.lhsNonContracting by decide)]
  rfl

theorem nodeDot0_lhs_col (i : Cert.ReferenceIdeal.S100000x128.Idx) (k : nodeDot0.contr.Idx) :
    (nodeDot0.lhsIdx i k 1).val = (k ⟨0, by decide⟩).val :=
  nodeDot0.lhsIdx_val_of_single rfl i k

theorem nodeDot0_rhs_row (i : Cert.ReferenceIdeal.S100000x128.Idx) (k : nodeDot0.contr.Idx) :
    (nodeDot0.rhsIdx i k 0).val = (k ⟨0, by decide⟩).val :=
  nodeDot0.rhsIdx_val_of_single rfl i k

theorem nodeDot0_rhs_col (i : Cert.ReferenceIdeal.S100000x128.Idx) (k : nodeDot0.contr.Idx) :
    (nodeDot0.rhsIdx i k 1).val = (i 1).val := by
  unfold DotDims.rhsIdx
  rw [dif_neg (show ¬(1 : Fin Cert.ReferenceIdeal.S128x128.rank) ∈ nodeDot0.rhsBatch by decide),
    dif_pos (show (1 : Fin Cert.ReferenceIdeal.S128x128.rank) ∈ nodeDot0.rhsNonContracting by decide)]
  rfl

/-- Entry (r, q) of the node features times the matrix: the sum over k of h(r, k) · w(k, q). -/
theorem project0_apply (h : Cert.Gcn.CF Cert.ReferenceIdeal.S100000x128) (w : Cert.Gcn.CF Cert.ReferenceIdeal.S128x128)
    (r : Fin 100000) (q : Fin 128) :
    Cert.Gcn.project h w (ix2 r q) = ∑ k : Fin 128, h (ix2 r k) * w (ix2 k q) := by
  unfold Cert.Gcn.project
  simp only [Host.dotGeneral]
  rw [Ideal.dotGeneral_apply, ← Equiv.sum_comp (contrEquiv1 nodeDot0 128 rfl rfl).symm]
  refine Finset.sum_congr rfl fun k _ => ?_
  have hk := contrEquiv1_symm_val nodeDot0 128 rfl rfl k
  have el : nodeDot0.lhsIdx (ix2 r q) ((contrEquiv1 nodeDot0 128 rfl rfl).symm k) = ix2 r k :=
    funext fun a => Fin.ext (by
      match a with
      | ⟨0, _⟩ => exact nodeDot0_lhs_row _ _
      | ⟨1, _⟩ => exact (nodeDot0_lhs_col _ _).trans hk)
  have er : nodeDot0.rhsIdx (ix2 r q) ((contrEquiv1 nodeDot0 128 rfl rfl).symm k) = ix2 k q :=
    funext fun a => Fin.ext (by
      match a with
      | ⟨0, _⟩ => exact (nodeDot0_rhs_row _ _).trans hk
      | ⟨1, _⟩ => exact nodeDot0_rhs_col _ _)
  rw [el, er]

/-! ## The unit at one entry -/

/-- The exponential linear unit as the region's body spells it: y where y is positive, exp y − 1 elsewhere. -/
def unit0 (y : Ideal .f32) : Ideal .f32 :=
  Scalar.select (FloatOps.cmpf .ogt y (Ideal.ofBits .f32 0x00000000#32)) y (Ideal.exp y - Ideal.ofBits .f32 0x3F800000#32)

/-- The network's stage spells the unit as a selection between y and one times expm1 of (zero where y is positive,
    y elsewhere). Where y is positive both are y; elsewhere the inner selection is y, expm1 y is exp y − 1 and the
    factor is one. -/
theorem unit0_eq_stage (y : Ideal .f32) :
    Scalar.select (FloatOps.cmpf .ogt y (Ideal.ofBits .f32 0x00000000#32)) y
        (Ideal.ofBits .f32 0x3F800000#32
          * (Ideal.exp (Scalar.select (FloatOps.cmpf .ogt y (Ideal.ofBits .f32 0x00000000#32)) (Ideal.ofBits .f32 0x00000000#32) y) - 1))
      = unit0 y := by
  unfold unit0
  rcases BitVec.eq_zero_or_eq_one (FloatOps.cmpf .ogt y (Ideal.ofBits .f32 0x00000000#32)) with h | h
  · rw [h, select_zero, select_zero, select_zero, Ideal.ofBits_one_f32, one_mul]
  · rw [h, select_one, select_one]

/-- Entry (p, q) of what the region's body computes from a block `x`, the matrix `w` and the bias row `b`: the
    unit of the product's entry plus b(q). The bias row is viewed as a one-row matrix and repeated down the
    block's rows. -/
theorem blockLayer0_apply (x : Vec Ideal S10000x128 .f32) (w : Vec Ideal S128x128 .f32) (b : Vec Ideal S128 .f32)
    (p : Fin 10000) (q : Fin 128) :
    k0_pay1 (F := Ideal) x w b (ix2 p q) = unit0 ((∑ k : Fin 128, x (ix2 p k) * w (ix2 k q)) + b (ix1 q)) := by
  unfold k0_pay1
  exact congrArg₂ (fun u v => unit0 (u + v)) (blockProduct0_apply x w _ _ p q)
    ((broadcastTo_1b_ab_apply _ _ p q).trans (shapeCast_a_1a_apply b _ 0 q))

/-! ## The network's stage at one entry -/

/-- The bias row repeated down the node rows reads, at (r, q), the bias entry of column q. -/
theorem biasRows0_apply (b : Cert.Gcn.CF Cert.ReferenceIdeal.S128) (r : Fin 100000) (q : Fin 128) :
    Cert.Gcn.biasRows b (ix2 r q) = b (ix1 q) := by
  unfold Cert.Gcn.biasRows
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The unit stage at an entry is the unit of the entry. -/
theorem elu0_apply (y : Cert.Gcn.CF Cert.ReferenceIdeal.S100000x128) (i : Cert.ReferenceIdeal.S100000x128.Idx) :
    Cert.Gcn.elu y i = unit0 (y i) := by
  have h0 : broadcastInDim Cert.ReferenceIdeal.S100000x128 ![] Cert.ReferenceIdeal.Facts₀.bcast_S_S100000x128
      (constant (F := Ideal) Cert.ReferenceIdeal.S_ .f32 0x00000000#32) i = Ideal.ofBits .f32 0x00000000#32 :=
    broadcastInDim_scalar_apply _ _ i
  have h1 : broadcastInDim Cert.ReferenceIdeal.S100000x128 ![] Cert.ReferenceIdeal.Facts₀.bcast_S_S100000x128
      (constant (F := Ideal) Cert.ReferenceIdeal.S_ .f32 0x3F800000#32) i = Ideal.ofBits .f32 0x3F800000#32 :=
    broadcastInDim_scalar_apply _ _ i
  rw [← unit0_eq_stage]
  unfold Cert.Gcn.elu
  simp only [select_apply, cmpf_apply, mulf_apply, Host.expm1, id, Ideal.hostUnary_expm1_def]
  rw [h0, h1]

/-- Entry (r, q) of the bias-and-unit stage: the unit of a(r, q) + b(q). -/
theorem activate0_apply (a : Cert.Gcn.CF Cert.ReferenceIdeal.S100000x128) (b : Cert.Gcn.CF Cert.ReferenceIdeal.S128)
    (r : Fin 100000) (q : Fin 128) :
    Cert.Gcn.activate a b (ix2 r q) = unit0 (a (ix2 r q) + b (ix1 q)) := by
  unfold Cert.Gcn.activate
  rw [elu0_apply, addf_apply, biasRows0_apply]

/-- Entry (r, q) of the input layer: the unit of the product's entry plus b(q). -/
theorem inputLayer0_apply (x : Cert.Gcn.CF Cert.ReferenceIdeal.S100000x128) (w : Cert.Gcn.CF Cert.ReferenceIdeal.S128x128)
    (b : Cert.Gcn.CF Cert.ReferenceIdeal.S128) (r : Fin 100000) (q : Fin 128) :
    Cert.Gcn.inputLayer x w b (ix2 r q) = unit0 ((∑ k : Fin 128, x (ix2 r k) * w (ix2 k q)) + b (ix1 q)) := by
  unfold Cert.Gcn.inputLayer
  rw [activate0_apply, project0_apply]

/-- A block's result is the input layer's on the block's rows: if row p of the block `x` is row r of the input
    features `x'`, and the block's matrix and bias row are `w'` and `b'`, the two agree at entry (p, q) and
    (r, q). -/
theorem blockLayer0_eq_inputLayer (x : Vec Ideal S10000x128 .f32) (w : Vec Ideal S128x128 .f32) (b : Vec Ideal S128 .f32)
    (x' : Cert.Gcn.CF Cert.ReferenceIdeal.S100000x128) (w' : Cert.Gcn.CF Cert.ReferenceIdeal.S128x128)
    (b' : Cert.Gcn.CF Cert.ReferenceIdeal.S128) (p : Fin 10000) (q : Fin 128) (r : Fin 100000)
    (hx : ∀ k : Fin 128, x (ix2 p k) = x' (ix2 r k)) (hw : ∀ k : Fin 128, w (ix2 k q) = w' (ix2 k q))
    (hb : b (ix1 q) = b' (ix1 q)) :
    k0_pay1 (F := Ideal) x w b (ix2 p q) = Cert.Gcn.inputLayer x' w' b' (ix2 r q) := by
  rw [blockLayer0_apply, inputLayer0_apply, hb]
  exact congrArg (fun z => unit0 (z + b' (ix1 q))) (Finset.sum_congr rfl fun k _ => by rw [hx k, hw k])

/-! ## From the ten blocks to the whole result -/

variable (V : (c : Dev nD) → (b : Ref sig .tc) → Buf (Elt Ideal) ((c : Thread nD τ).loc b))

theorem zeroOffsets0 : (![0, 0] : Fin 2 → Nat) = fun _ => 0 := funext fun a => by fin_cases a <;> rfl
theorem zeroOffset0 : (![0] : Fin 1 → Nat) = fun _ => 0 := funext fun a => by fin_cases a; rfl

/-- Where each window's block sits at grid point t: the feature block and the result block are block t of their
    matrices' rows and the only block of their columns; the 128 × 128 matrix and the bias row are one block each. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of the feature block at grid point t is row 10000·t + p of the input features. -/
theorem featureBlock0_apply (c : Dev nD) (t : Fin cfg0.N) (p : Fin 10000) (k : Fin 128) (r : Fin 100000)
    (hr : r.val = t.val * 10000 + p.val) :
    iblk0 V c 0 t (ix2 p k) = V c (Pipeline.arrRef spec0 0) (ix2 r k) := by
  obtain ⟨e0, e1, -, -, -, -, -⟩ := blockIndex0 t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The matrix block at every grid point is the whole 128 × 128 matrix. -/
theorem matrixBlock0_apply (c : Dev nD) (t : Fin cfg0.N) (k : Fin 128) (q : Fin 128) :
    iblk0 V c 1 t (ix2 k q) = V c (Pipeline.arrRef spec0 1) (ix2 k q) := by
  obtain ⟨-, -, e2, e3, -, -, -⟩ := blockIndex0 t
  show V c (Pipeline.arrRef spec0 1) (((cfg0.win 1).blk t).view.emb (ix2 k q)) = _
  refine congrArg (V c (Pipeline.arrRef spec0 1)) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias block at every grid point is the whole bias row. -/
theorem biasBlock0_apply (c : Dev nD) (t : Fin cfg0.N) (q : Fin 128) :
    iblk0 V c 2 t (ix1 q) = V c (Pipeline.arrRef spec0 2) (ix1 q) := by
  obtain ⟨-, -, -, -, e4, -, -⟩ := blockIndex0 t
  show V c (Pipeline.arrRef spec0 2) (((cfg0.win 2).blk t).view.emb (ix1 q)) = _
  refine congrArg (V c (Pipeline.arrRef spec0 2)) (funext fun a => Fin.ext ?_)
  match a with
  | ⟨0, _⟩ => show win0_2.index t (0 : Fin 1) * 128 + 1 * q.val = q.val; omega

/-- Entry (p, q) of the result block at grid point t is entry (10000·t + p, q) of the result. -/
theorem resultBlock0_emb (t : Fin cfg0.N) (p : Fin 10000) (q : Fin 128) (r : Fin 100000)
    (hr : r.val = t.val * 10000 + p.val) :
    ((cfg0.win 3).blk t).view.emb (ix2 p q) = ix2 r q := by
  obtain ⟨-, -, -, -, -, e5, e6⟩ := blockIndex0 t
  funext a; apply Fin.ext
  match a with
  | ⟨0, _⟩ => show win0_3.index t (0 : Fin 2) * 10000 + 1 * p.val = r.val; omega
  | ⟨1, _⟩ => show win0_3.index t (1 : Fin 2) * 128 + 1 * q.val = q.val; omega

/-- What grid point t writes back is block t of the input layer applied to the arrays the region finds. -/
theorem written0 (c : Dev nD) (t : Fin cfg0.N) :
    (dat0 (F := Ideal) V c).flushed 3 t
      = ((cfg0.win 3).blk t).view.read (Elt Ideal)
          (Cert.Gcn.inputLayer (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeroOffsets0]
  simp only [View.ld_unit_zero (S := S10000x128) zeroOffsets0, View.ld_unit_zero (S := S128x128) zeroOffsets0,
    View.ld_unit_zero (S := S128) zeroOffset0]
  have ht : t.val < 10 := by have h := t.isLt; have hN : cfg0.N = 10 := N_0; omega
  funext j
  obtain ⟨p, q, rfl⟩ : ∃ (p : Fin 10000) (q : Fin 128), j = ix2 p q := ⟨j 0, j 1, eq_ix2 j⟩
  have hp : p.val < 10000 := p.isLt
  show k0_pay1 (F := Ideal) (iblk0 V c 0 t) (iblk0 V c 1 t) (iblk0 V c 2 t) (ix2 p q)
    = Cert.Gcn.inputLayer (V c (Pipeline.arrRef spec0 0)) (V c (Pipeline.arrRef spec0 1)) (V c (Pipeline.arrRef spec0 2))
        (((cfg0.win 3).blk t).view.emb (ix2 p q))
  rw [resultBlock0_emb t p q ⟨t.val * 10000 + p.val, by omega⟩ rfl]
  exact blockLayer0_eq_inputLayer (iblk0 V c 0 t) (iblk0 V c 1 t) (iblk0 V c 2 t) (V c (Pipeline.arrRef spec0 0))
    (V c (Pipeline.arrRef spec0 1)) (V c (Pipeline.arrRef spec0 2)) p q ⟨t.val * 10000 + p.val, by omega⟩
    (fun k => featureBlock0_apply V c t p k _ rfl) (fun k => matrixBlock0_apply V c t k q) (biasBlock0_apply V c t q)

/-- An entry of the result is in grid point t's block exactly when each coordinate is in the block's range. -/
theorem mem_block0 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole (Pipeline.arrRef spec0 3)).slice (win0_3.rect t)).set ↔ _
  rw [View.set_slice_whole, Rect.mem_set_unit]
  exact Iff.rfl

/-- Every entry of the result is written: row r by grid point r / 10000. -/
theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, -, e5, e6⟩ := blockIndex0 t
  have e5' : win0_3.index t (0 : Fin 2) = (i 0).val / 10000 := e5
  refine ⟨t, flush0_3 t, ?_⟩
  rw [mem_block0]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- After region 0 its result array holds the input layer of the input features, the 128 × 128 matrix and the
    bias row as the region found them. -/
theorem inputLayer0 (c : Dev nD) :
    (dat0 (F := Ideal) V c).arrAt 3 cfg0.N
      = Cert.Gcn.inputLayer (V c (Pipeline.arrRef spec0 0)) (V c (Pipeline.arrRef spec0 1)) (V c (Pipeline.arrRef spec0 2)) :=
  (dat0 (F := Ideal) V c).arrAt_eq_of_cover 3 _ (fun t _ => written0 V c t) (covered0)

end Cert.KernelIdeal.Tiles

end
-- ==== Proof.Tile1.lean ====
/-
  Region 1 of the tiled program multiplies the node features by a 128 × 128 matrix, ten thousand rows at a time.

  The 100000 node rows are cut into ten blocks of 10000 consecutive rows. At grid point t the region reads block t
  of the feature matrix and the whole 128 × 128 matrix, multiplies them into a zero accumulator, and writes the
  product back as block t of the result. Entry (p, q) of a block's product is the sum over k of the block's
  (p, k) entry times the matrix's (k, q) entry, and row p of block t is row 10000·t + p of the feature matrix; so
  the block written at point t is block t of the product of the whole feature matrix with the matrix. Every row
  r lies in block r / 10000, so the ten blocks fill the result, which is therefore the whole product.
-/
import proofs.«159488_j4544075399263_1_alg».proof.Proof.Gen.KernelIdeal.Frame
import proofs.«159488_j4544075399263_1_alg».proof.Proof.Gcn
import Idealize.ShloMosaic.Lib.Pipeline.Value
import Idealize.ShloMosaic.Lib.ValueIdx
import Idealize.ShloMosaic.PureOps.Ideal.Laws

set_option maxRecDepth 16384

noncomputable section

namespace Cert.KernelIdeal.Tiles

open Cert.KernelIdeal Cert.KernelIdeal.Gen Cert.KernelIdeal.Facts₀
open Idealize.ShloMosaic Idealize.ShloMosaic.TcCoe Idealize.ShloMosaic.ValueIdx
open Idealize.ShloMosaic.Pipeline (Dat)
open scoped BigOperators

/-! ## One entry of a block's product -/

/-- The block product's dimension numbers: the block's columns are contracted against the matrix's rows. -/
abbrev blockDot1 : DotDims S10000x128 S128x128 S10000x128 := dot_S10000x128_S128x128_S10000x128_1_0_0_1_n_n

/-- The left factor's row is the entry's row, -/
theorem blockDot1_lhs_row (i : S10000x128.Idx) (k : blockDot1.contr.Idx) : (blockDot1.lhsIdx i k 0).val = (i 0).val := by
  unfold DotDims.lhsIdx
  rw [dif_neg (show ¬(0 : Fin S10000x128.rank) ∈ blockDot1.lhsBatch by decide),
    dif_pos (show (0 : Fin S10000x128.rank) ∈ blockDot1.lhsNonContracting by decide)]
  rfl

/-- its column the summation index; -/
theorem blockDot1_lhs_col (i : S10000x128.Idx) (k : blockDot1.contr.Idx) :
    (blockDot1.lhsIdx i k 1).val = (k ⟨0, by decide⟩).val :=
  blockDot1.lhsIdx_val_of_single rfl i k

/-- the right factor's row is the summation index, -/
theorem blockDot1_rhs_row (i : S10000x128.Idx) (k : blockDot1.contr.Idx) :
    (blockDot1.rhsIdx i k 0).val = (k ⟨0, by decide⟩).val :=
  blockDot1.rhsIdx_val_of_single rfl i k

/-- and its column the entry's column. -/
theorem blockDot1_rhs_col (i : S10000x128.Idx) (k : blockDot1.contr.Idx) : (blockDot1.rhsIdx i k 1).val = (i 1).val := by
  unfold DotDims.rhsIdx
  rw [dif_neg (show ¬(1 : Fin S128x128.rank) ∈ blockDot1.rhsBatch by decide),
    dif_pos (show (1 : Fin S128x128.rank) ∈ blockDot1.rhsNonContracting by decide)]
  rfl

/-- Entry (p, q) of what the region's body computes from a block `x` and the matrix `w`: the sum over k of
    x(p, k) · w(k, q). The changes of float format are the identity on extended reals and the accumulator is zero. -/
theorem blockProduct1_apply (x : Vec Ideal S10000x128 .f32) (w : Vec Ideal S128x128 .f32) (p : Fin 10000) (q : Fin 128) :
    k1_pay1 (F := Ideal) x w (ix2 p q) = ∑ k : Fin 128, x (ix2 p k) * w (ix2 k q) := by
  unfold k1_pay1
  simp only [shapeCast_self]
  refine (Ideal.matmul_constant_zero_apply blockDot1 none _ _ (ix2 p q)).trans ?_
  rw [← Equiv.sum_comp (contrEquiv1 blockDot1 128 rfl rfl).symm]
  refine Finset.sum_congr rfl fun k _ => ?_
  have hk := contrEquiv1_symm_val blockDot1 128 rfl rfl k
  have el : blockDot1.lhsIdx (ix2 p q) ((contrEquiv1 blockDot1 128 rfl rfl).symm k) = ix2 p k :=
    funext fun a => Fin.ext (by
      match a with
      | ⟨0, _⟩ => exact blockDot1_lhs_row _ _
      | ⟨1, _⟩ => exact (blockDot1_lhs_col _ _).trans hk)
  have er : blockDot1.rhsIdx (ix2 p q) ((contrEquiv1 blockDot1 128 rfl rfl).symm k) = ix2 k q :=
    funext fun a => Fin.ext (by
      match a with
      | ⟨0, _⟩ => exact (blockDot1_rhs_row _ _).trans hk
      | ⟨1, _⟩ => exact blockDot1_rhs_col _ _)
  rw [el, er]
  rfl

/-! ## One entry of the whole product -/

/-- The whole product's dimension numbers. -/
abbrev nodeDot1 : DotDims Cert.ReferenceIdeal.S100000x128 Cert.ReferenceIdeal.S128x128 Cert.ReferenceIdeal.S100000x128 :=
  Cert.ReferenceIdeal.dot_S100000x128_S128x128_S100000x128_1_0_0_1_n_n

theorem nodeDot1_lhs_row (i : Cert.ReferenceIdeal.S100000x128.Idx) (k : nodeDot1.contr.Idx) :
    (nodeDot1.lhsIdx i k 0).val = (i 0).val := by
  unfold DotDims.lhsIdx
  rw [dif_neg (show ¬(0 : Fin Cert.ReferenceIdeal.S100000x128.rank) ∈ nodeDot1.lhsBatch by decide),
    dif_pos (show (0 : Fin Cert.ReferenceIdeal.S100000x128.rank) ∈ nodeDot1.lhsNonContracting by decide)]
  rfl

theorem nodeDot1_lhs_col (i : Cert.ReferenceIdeal.S100000x128.Idx) (k : nodeDot1.contr.Idx) :
    (nodeDot1.lhsIdx i k 1).val = (k ⟨0, by decide⟩).val :=
  nodeDot1.lhsIdx_val_of_single rfl i k

theorem nodeDot1_rhs_row (i : Cert.ReferenceIdeal.S100000x128.Idx) (k : nodeDot1.contr.Idx) :
    (nodeDot1.rhsIdx i k 0).val = (k ⟨0, by decide⟩).val :=
  nodeDot1.rhsIdx_val_of_single rfl i k

theorem nodeDot1_rhs_col (i : Cert.ReferenceIdeal.S100000x128.Idx) (k : nodeDot1.contr.Idx) :
    (nodeDot1.rhsIdx i k 1).val = (i 1).val := by
  unfold DotDims.rhsIdx
  rw [dif_neg (show ¬(1 : Fin Cert.ReferenceIdeal.S128x128.rank) ∈ nodeDot1.rhsBatch by decide),
    dif_pos (show (1 : Fin Cert.ReferenceIdeal.S128x128.rank) ∈ nodeDot1.rhsNonContracting by decide)]
  rfl

/-- Entry (r, q) of the node features times the matrix: the sum over k of h(r, k) · w(k, q). -/
theorem project1_apply (h : Cert.Gcn.CF Cert.ReferenceIdeal.S100000x128) (w : Cert.Gcn.CF Cert.ReferenceIdeal.S128x128)
    (r : Fin 100000) (q : Fin 128) :
    Cert.Gcn.project h w (ix2 r q) = ∑ k : Fin 128, h (ix2 r k) * w (ix2 k q) := by
  unfold Cert.Gcn.project
  simp only [Host.dotGeneral]
  rw [Ideal.dotGeneral_apply, ← Equiv.sum_comp (contrEquiv1 nodeDot1 128 rfl rfl).symm]
  refine Finset.sum_congr rfl fun k _ => ?_
  have hk := contrEquiv1_symm_val nodeDot1 128 rfl rfl k
  have el : nodeDot1.lhsIdx (ix2 r q) ((contrEquiv1 nodeDot1 128 rfl rfl).symm k) = ix2 r k :=
    funext fun a => Fin.ext (by
      match a with
      | ⟨0, _⟩ => exact nodeDot1_lhs_row _ _
      | ⟨1, _⟩ => exact (nodeDot1_lhs_col _ _).trans hk)
  have er : nodeDot1.rhsIdx (ix2 r q) ((contrEquiv1 nodeDot1 128 rfl rfl).symm k) = ix2 k q :=
    funext fun a => Fin.ext (by
      match a with
      | ⟨0, _⟩ => exact (nodeDot1_rhs_row _ _).trans hk
      | ⟨1, _⟩ => exact nodeDot1_rhs_col _ _)
  rw [el, er]

/-- A block's product is the whole product on the block's rows: if row p of the block `x` is row r of the features
    `h`, and the block's matrix is the matrix `w'`, entry (p, q) of the one is entry (r, q) of the other. -/
theorem blockProduct1_eq_project (x : Vec Ideal S10000x128 .f32) (w : Vec Ideal S128x128 .f32)
    (h : Cert.Gcn.CF Cert.ReferenceIdeal.S100000x128) (w' : Cert.Gcn.CF Cert.ReferenceIdeal.S128x128)
    (p : Fin 10000) (q : Fin 128) (r : Fin 100000)
    (hx : ∀ k : Fin 128, x (ix2 p k) = h (ix2 r k)) (hw : ∀ k : Fin 128, w (ix2 k q) = w' (ix2 k q)) :
    k1_pay1 (F := Ideal) x w (ix2 p q) = Cert.Gcn.project h w' (ix2 r q) := by
  rw [blockProduct1_apply, project1_apply]
  exact Finset.sum_congr rfl fun k _ => by rw [hx k, hw k]

/-! ## From the ten blocks to the whole result -/

variable (V : (c : Dev nD) → (b : Ref sig .tc) → Buf (Elt Ideal) ((c : Thread nD τ).loc b))

theorem zeroOffsets1 : (![0, 0] : Fin 2 → Nat) = fun _ => 0 := funext fun a => by fin_cases a <;> rfl

/-- Where each window's block sits at grid point t: the feature block and the result block are block t of their
    matrices' rows and the only block of their columns; the 128 × 128 matrix is one block. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the feature block at grid point t is row 10000·t + p of the feature matrix. -/
theorem featureBlock1_apply (c : Dev nD) (t : Fin cfg1.N) (p : Fin 10000) (k : Fin 128) (r : Fin 100000)
    (hr : r.val = t.val * 10000 + p.val) :
    iblk1 V c 0 t (ix2 p k) = V c (Pipeline.arrRef spec1 0) (ix2 r k) := by
  obtain ⟨e0, e1, -, -, -, -⟩ := blockIndex1 t
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- The matrix block at every grid point is the whole 128 × 128 matrix. -/
theorem matrixBlock1_apply (c : Dev nD) (t : Fin cfg1.N) (k : Fin 128) (q : Fin 128) :
    iblk1 V c 1 t (ix2 k q) = V c (Pipeline.arrRef spec1 1) (ix2 k q) := by
  obtain ⟨-, -, e2, e3, -, -⟩ := blockIndex1 t
  show V c (Pipeline.arrRef spec1 1) (((cfg1.win 1).blk t).view.emb (ix2 k q)) = _
  refine congrArg (V c (Pipeline.arrRef spec1 1)) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- Entry (p, q) of the result block at grid point t is entry (10000·t + p, q) of the result. -/
theorem resultBlock1_emb (t : Fin cfg1.N) (p : Fin 10000) (q : Fin 128) (r : Fin 100000)
    (hr : r.val = t.val * 10000 + p.val) :
    ((cfg1.win 2).blk t).view.emb (ix2 p q) = ix2 r q := by
  obtain ⟨-, -, -, -, e4, e5⟩ := blockIndex1 t
  funext a; apply Fin.ext
  match a with
  | ⟨0, _⟩ => show win1_2.index t (0 : Fin 2) * 10000 + 1 * p.val = r.val; omega
  | ⟨1, _⟩ => show win1_2.index t (1 : Fin 2) * 128 + 1 * q.val = q.val; omega

/-- What grid point t writes back is block t of the whole product of the arrays the region finds. -/
theorem written1 (c : Dev nD) (t : Fin cfg1.N) :
    (dat1 (F := Ideal) V c).flushed 2 t
      = ((cfg1.win 2).blk t).view.read (Elt Ideal)
          (Cert.Gcn.project (V c (Pipeline.arrRef spec1 0)) (V c (Pipeline.arrRef spec1 1))) := by
  show (cfg1.win 2).cut (grid1.coords t) ((dat1 V c).after 2 t) = _
  rw [after1_2]
  unfold out1_2
  rw [View.canon_unit_zero zeroOffsets1]
  simp only [View.ld_unit_zero (S := S10000x128) zeroOffsets1, View.ld_unit_zero (S := S128x128) zeroOffsets1]
  have ht : t.val < 10 := by have h := t.isLt; have hN : cfg1.N = 10 := N_1; omega
  funext j
  obtain ⟨p, q, rfl⟩ : ∃ (p : Fin 10000) (q : Fin 128), j = ix2 p q := ⟨j 0, j 1, eq_ix2 j⟩
  have hp : p.val < 10000 := p.isLt
  show k1_pay1 (F := Ideal) (iblk1 V c 0 t) (iblk1 V c 1 t) (ix2 p q)
    = Cert.Gcn.project (V c (Pipeline.arrRef spec1 0)) (V c (Pipeline.arrRef spec1 1)) (((cfg1.win 2).blk t).view.emb (ix2 p q))
  rw [resultBlock1_emb t p q ⟨t.val * 10000 + p.val, by omega⟩ rfl]
  exact blockProduct1_eq_project (iblk1 V c 0 t) (iblk1 V c 1 t) (V c (Pipeline.arrRef spec1 0))
    (V c (Pipeline.arrRef spec1 1)) p q ⟨t.val * 10000 + p.val, by omega⟩
    (fun k => featureBlock1_apply V c t p k _ rfl) (fun k => matrixBlock1_apply V c t k q)

/-- An entry of the result is in grid point t's block exactly when each coordinate is in the block's range. -/
theorem mem_block1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole (Pipeline.arrRef spec1 2)).slice (win1_2.rect t)).set ↔ _
  rw [View.set_slice_whole, Rect.mem_set_unit]
  exact Iff.rfl

/-- Every entry of the result is written: row r by grid point r / 10000. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨-, -, -, -, e4, e5⟩ := blockIndex1 t
  have e4' : win1_2.index t (0 : Fin 2) = (i 0).val / 10000 := e4
  refine ⟨t, flush1_2 t, ?_⟩
  rw [mem_block1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- After region 1 its result array holds the product of the feature matrix and the 128 × 128 matrix as the
    region found them. -/
theorem project1 (c : Dev nD) :
    (dat1 (F := Ideal) V c).arrAt 2 cfg1.N
      = Cert.Gcn.project (V c (Pipeline.arrRef spec1 0)) (V c (Pipeline.arrRef spec1 1)) :=
  (dat1 (F := Ideal) V c).arrAt_eq_of_cover 2 _ (fun t _ => written1 V c t) (covered1)

end Cert.KernelIdeal.Tiles

end
-- ==== Proof.Tile2.lean ====
/-
  Region 2 of the tiled program adds a bias row to every node row and applies the exponential linear unit, ten
  thousand rows at a time.

  The 100000 node rows are cut into ten blocks of 10000 consecutive rows. At grid point t the region reads block t
  of the node matrix and the whole bias row of 128 entries, and writes back, as block t of the result, the unit
  applied to each entry plus the bias entry of its column: y where y is positive, exp y − 1 elsewhere. The same
  stage of the network selects between y and one times expm1 of y with its positive entries zeroed; the two
  agree entry by entry, whichever way the comparison falls, because expm1 y is exp y − 1 and the factor is the
  number one. Row p of block t is row 10000·t + p of the node matrix, so the block written at point t is block t
  of the stage applied to the whole matrix, and the ten blocks fill the result.
-/
import proofs.«159488_j4544075399263_1_alg».proof.Proof.Gen.KernelIdeal.Frame
import proofs.«159488_j4544075399263_1_alg».proof.Proof.Gcn
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Tiles

open Cert.KernelIdeal Cert.KernelIdeal.Gen
open Idealize.ShloMosaic Idealize.ShloMosaic.TcCoe Idealize.ShloMosaic.ValueIdx
open Idealize.ShloMosaic.Pipeline (Dat)

/-! ## The unit at one entry -/

/-- The exponential linear unit as the region's body spells it: y where y is positive, exp y − 1 elsewhere. -/
def unit2 (y : Ideal .f32) : Ideal .f32 :=
  Scalar.select (FloatOps.cmpf .ogt y (Ideal.ofBits .f32 0x00000000#32)) y (Ideal.exp y - Ideal.ofBits .f32 0x3F800000#32)

/-- The network's stage spells the unit as a selection between y and one times expm1 of (zero where y is positive,
    y elsewhere). Where y is positive both are y; elsewhere the inner selection is y, expm1 y is exp y − 1 and the
    factor is one. -/
theorem unit2_eq_stage (y : Ideal .f32) :
    Scalar.select (FloatOps.cmpf .ogt y (Ideal.ofBits .f32 0x00000000#32)) y
        (Ideal.ofBits .f32 0x3F800000#32
          * (Ideal.exp (Scalar.select (FloatOps.cmpf .ogt y (Ideal.ofBits .f32 0x00000000#32)) (Ideal.ofBits .f32 0x00000000#32) y) - 1))
      = unit2 y := by
  unfold unit2
  rcases BitVec.eq_zero_or_eq_one (FloatOps.cmpf .ogt y (Ideal.ofBits .f32 0x00000000#32)) with h | h
  · rw [h, select_zero, select_zero, select_zero, Ideal.ofBits_one_f32, one_mul]
  · rw [h, select_one, select_one]

/-- Entry (p, q) of what the region's body computes from a block `x` and the bias row `b`: the unit of
    x(p, q) + b(q). The bias row is viewed as a one-row matrix and repeated down the block's rows. -/
theorem blockUnit2_apply (x : Vec Ideal S10000x128 .f32) (b : Vec Ideal S128 .f32) (p : Fin 10000) (q : Fin 128) :
    k2_pay1 (F := Ideal) x b (ix2 p q) = unit2 (x (ix2 p q) + b (ix1 q)) := by
  unfold k2_pay1
  simp only [shapeCast_self]
  exact congrArg (fun z => unit2 (x (ix2 p q) + z))
    ((broadcastTo_1b_ab_apply _ _ p q).trans (shapeCast_a_1a_apply b _ 0 q))

/-! ## The network's stage at one entry -/

/-- The bias row repeated down the node rows reads, at (r, q), the bias entry of column q. -/
theorem biasRows2_apply (b : Cert.Gcn.CF Cert.ReferenceIdeal.S128) (r : Fin 100000) (q : Fin 128) :
    Cert.Gcn.biasRows b (ix2 r q) = b (ix1 q) := by
  unfold Cert.Gcn.biasRows
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The unit stage at an entry is the unit of the entry. -/
theorem elu2_apply (y : Cert.Gcn.CF Cert.ReferenceIdeal.S100000x128) (i : Cert.ReferenceIdeal.S100000x128.Idx) :
    Cert.Gcn.elu y i = unit2 (y i) := by
  have h0 : broadcastInDim Cert.ReferenceIdeal.S100000x128 ![] Cert.ReferenceIdeal.Facts₀.bcast_S_S100000x128
      (constant (F := Ideal) Cert.ReferenceIdeal.S_ .f32 0x00000000#32) i = Ideal.ofBits .f32 0x00000000#32 :=
    broadcastInDim_scalar_apply _ _ i
  have h1 : broadcastInDim Cert.ReferenceIdeal.S100000x128 ![] Cert.ReferenceIdeal.Facts₀.bcast_S_S100000x128
      (constant (F := Ideal) Cert.ReferenceIdeal.S_ .f32 0x3F800000#32) i = Ideal.ofBits .f32 0x3F800000#32 :=
    broadcastInDim_scalar_apply _ _ i
  rw [← unit2_eq_stage]
  unfold Cert.Gcn.elu
  simp only [select_apply, cmpf_apply, mulf_apply, Host.expm1, id, Ideal.hostUnary_expm1_def]
  rw [h0, h1]

/-- Entry (r, q) of the bias-and-unit stage: the unit of a(r, q) + b(q). -/
theorem activate2_apply (a : Cert.Gcn.CF Cert.ReferenceIdeal.S100000x128) (b : Cert.Gcn.CF Cert.ReferenceIdeal.S128)
    (r : Fin 100000) (q : Fin 128) :
    Cert.Gcn.activate a b (ix2 r q) = unit2 (a (ix2 r q) + b (ix1 q)) := by
  unfold Cert.Gcn.activate
  rw [elu2_apply, addf_apply, biasRows2_apply]

/-- A block's result is the stage's on the block's rows: if entry (p, q) of the block `x` is entry (r, q) of the
    node matrix `a`, and the block's bias row is the row `b'`, the two agree at that entry. -/
theorem blockUnit2_eq_activate (x : Vec Ideal S10000x128 .f32) (b : Vec Ideal S128 .f32)
    (a : Cert.Gcn.CF Cert.ReferenceIdeal.S100000x128) (b' : Cert.Gcn.CF Cert.ReferenceIdeal.S128)
    (p : Fin 10000) (q : Fin 128) (r : Fin 100000)
    (hx : x (ix2 p q) = a (ix2 r q)) (hb : b (ix1 q) = b' (ix1 q)) :
    k2_pay1 (F := Ideal) x b (ix2 p q) = Cert.Gcn.activate a b' (ix2 r q) := by
  rw [blockUnit2_apply, activate2_apply, hx, hb]

/-! ## From the ten blocks to the whole result -/

variable (V : (c : Dev nD) → (b : Ref sig .tc) → Buf (Elt Ideal) ((c : Thread nD τ).loc b))

theorem zeroOffsets2 : (![0, 0] : Fin 2 → Nat) = fun _ => 0 := funext fun a => by fin_cases a <;> rfl
theorem zeroOffset2 : (![0] : Fin 1 → Nat) = fun _ => 0 := funext fun a => by fin_cases a; rfl

/-- Where each window's block sits at grid point t: the node block and the result block are block t of their
    matrices' rows and the only block of their columns; the bias row is one block. -/
theorem blockIndex2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- Row p of the node block at grid point t is row 10000·t + p of the node matrix. -/
theorem nodeBlock2_apply (c : Dev nD) (t : Fin cfg2.N) (p : Fin 10000) (q : Fin 128) (r : Fin 100000)
    (hr : r.val = t.val * 10000 + p.val) :
    iblk2 V c 0 t (ix2 p q) = V c (Pipeline.arrRef spec2 0) (ix2 r q) := by
  obtain ⟨e0, e1, -, -, -⟩ := blockIndex2 t
  show V c (Pipeline.arrRef spec2 0) (((cfg2.win 0).blk t).view.emb (ix2 p q)) = _
  refine congrArg (V c (Pipeline.arrRef spec2 0)) (funext fun a => Fin.ext ?_)
  match a with
  | ⟨0, _⟩ => show win2_0.index t (0 : Fin 2) * 10000 + 1 * p.val = r.val; omega
  | ⟨1, _⟩ => show win2_0.index t (1 : Fin 2) * 128 + 1 * q.val = q.val; omega

/-- The bias block at every grid point is the whole bias row. -/
theorem biasBlock2_apply (c : Dev nD) (t : Fin cfg2.N) (q : Fin 128) :
    iblk2 V c 1 t (ix1 q) = V c (Pipeline.arrRef spec2 1) (ix1 q) := by
  obtain ⟨-, -, e2, -, -⟩ := blockIndex2 t
  show V c (Pipeline.arrRef spec2 1) (((cfg2.win 1).blk t).view.emb (ix1 q)) = _
  refine congrArg (V c (Pipeline.arrRef spec2 1)) (funext fun a => Fin.ext ?_)
  match a with
  | ⟨0, _⟩ => show win2_1.index t (0 : Fin 1) * 128 + 1 * q.val = q.val; omega

/-- Entry (p, q) of the result block at grid point t is entry (10000·t + p, q) of the result. -/
theorem resultBlock2_emb (t : Fin cfg2.N) (p : Fin 10000) (q : Fin 128) (r : Fin 100000)
    (hr : r.val = t.val * 10000 + p.val) :
    ((cfg2.win 2).blk t).view.emb (ix2 p q) = ix2 r q := by
  obtain ⟨-, -, -, e4, e5⟩ := blockIndex2 t
  funext a; apply Fin.ext
  match a with
  | ⟨0, _⟩ => show win2_2.index t (0 : Fin 2) * 10000 + 1 * p.val = r.val; omega
  | ⟨1, _⟩ => show win2_2.index t (1 : Fin 2) * 128 + 1 * q.val = q.val; omega

/-- What grid point t writes back is block t of the stage applied to the arrays the region finds. -/
theorem written2 (c : Dev nD) (t : Fin cfg2.N) :
    (dat2 (F := Ideal) V c).flushed 2 t
      = ((cfg2.win 2).blk t).view.read (Elt Ideal)
          (Cert.Gcn.activate (V c (Pipeline.arrRef spec2 0)) (V c (Pipeline.arrRef spec2 1))) := by
  show (cfg2.win 2).cut (grid2.coords t) ((dat2 V c).after 2 t) = _
  rw [after2_2]
  unfold out2_2
  rw [View.canon_unit_zero zeroOffsets2]
  simp only [View.ld_unit_zero (S := S10000x128) zeroOffsets2, View.ld_unit_zero (S := S128) zeroOffset2]
  have ht : t.val < 10 := by have h := t.isLt; have hN : cfg2.N = 10 := N_2; omega
  funext j
  obtain ⟨p, q, rfl⟩ : ∃ (p : Fin 10000) (q : Fin 128), j = ix2 p q := ⟨j 0, j 1, eq_ix2 j⟩
  have hp : p.val < 10000 := p.isLt
  show k2_pay1 (F := Ideal) (iblk2 V c 0 t) (iblk2 V c 1 t) (ix2 p q)
    = Cert.Gcn.activate (V c (Pipeline.arrRef spec2 0)) (V c (Pipeline.arrRef spec2 1)) (((cfg2.win 2).blk t).view.emb (ix2 p q))
  rw [resultBlock2_emb t p q ⟨t.val * 10000 + p.val, by omega⟩ rfl]
  exact blockUnit2_eq_activate (iblk2 V c 0 t) (iblk2 V c 1 t) (V c (Pipeline.arrRef spec2 0))
    (V c (Pipeline.arrRef spec2 1)) p q ⟨t.val * 10000 + p.val, by omega⟩
    (nodeBlock2_apply V c t p q _ rfl) (biasBlock2_apply V c t q)

/-- An entry of the result is in grid point t's block exactly when each coordinate is in the block's range. -/
theorem mem_block2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole (Pipeline.arrRef spec2 2)).slice (win2_2.rect t)).set ↔ _
  rw [View.set_slice_whole, Rect.mem_set_unit]
  exact Iff.rfl

/-- Every entry of the result is written: row r by grid point r / 10000. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨-, -, -, e4, e5⟩ := blockIndex2 t
  have e4' : win2_2.index t (0 : Fin 2) = (i 0).val / 10000 := e4
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- After region 2 its result array holds the bias-and-unit stage of the node matrix and the bias row as the
    region found them. -/
theorem activate2 (c : Dev nD) :
    (dat2 (F := Ideal) V c).arrAt 2 cfg2.N
      = Cert.Gcn.activate (V c (Pipeline.arrRef spec2 0)) (V c (Pipeline.arrRef spec2 1)) :=
  (dat2 (F := Ideal) V c).arrAt_eq_of_cover 2 _ (fun t _ => written2 V c t) (covered2)

end Cert.KernelIdeal.Tiles

end
-- ==== Proof.Tile3.lean ====
/-
  Region 3 of the tiled program multiplies the node features by a 128 × 128 matrix, ten thousand rows at a time.

  The 100000 node rows are cut into ten blocks of 10000 consecutive rows. At grid point t the region reads block t
  of the feature matrix and the whole 128 × 128 matrix, multiplies them into a zero accumulator, and writes the
  product back as block t of the result. Entry (p, q) of a block's product is the sum over k of the block's
  (p, k) entry times the matrix's (k, q) entry, and row p of block t is row 10000·t + p of the feature matrix; so
  the block written at point t is block t of the product of the whole feature matrix with the matrix. Every row
  r lies in block r / 10000, so the ten blocks fill the result, which is therefore the whole product.
-/
import proofs.«159488_j4544075399263_1_alg».proof.Proof.Gen.KernelIdeal.Frame
import proofs.«159488_j4544075399263_1_alg».proof.Proof.Gcn
import Idealize.ShloMosaic.Lib.Pipeline.Value
import Idealize.ShloMosaic.Lib.ValueIdx
import Idealize.ShloMosaic.PureOps.Ideal.Laws

set_option maxRecDepth 16384

noncomputable section

namespace Cert.KernelIdeal.Tiles

open Cert.KernelIdeal Cert.KernelIdeal.Gen Cert.KernelIdeal.Facts₀
open Idealize.ShloMosaic Idealize.ShloMosaic.TcCoe Idealize.ShloMosaic.ValueIdx
open Idealize.ShloMosaic.Pipeline (Dat)
open scoped BigOperators

/-! ## One entry of a block's product -/

/-- The block product's dimension numbers: the block's columns are contracted against the matrix's rows. -/
abbrev blockDot3 : DotDims S10000x128 S128x128 S10000x128 := dot_S10000x128_S128x128_S10000x128_1_0_0_1_n_n

/-- The left factor's row is the entry's row, -/
theorem blockDot3_lhs_row (i : S10000x128.Idx) (k : blockDot3.contr.Idx) : (blockDot3.lhsIdx i k 0).val = (i 0).val := by
  unfold DotDims.lhsIdx
  rw [dif_neg (show ¬(0 : Fin S10000x128.rank) ∈ blockDot3.lhsBatch by decide),
    dif_pos (show (0 : Fin S10000x128.rank) ∈ blockDot3.lhsNonContracting by decide)]
  rfl

/-- its column the summation index; -/
theorem blockDot3_lhs_col (i : S10000x128.Idx) (k : blockDot3.contr.Idx) :
    (blockDot3.lhsIdx i k 1).val = (k ⟨0, by decide⟩).val :=
  blockDot3.lhsIdx_val_of_single rfl i k

/-- the right factor's row is the summation index, -/
theorem blockDot3_rhs_row (i : S10000x128.Idx) (k : blockDot3.contr.Idx) :
    (blockDot3.rhsIdx i k 0).val = (k ⟨0, by decide⟩).val :=
  blockDot3.rhsIdx_val_of_single rfl i k

/-- and its column the entry's column. -/
theorem blockDot3_rhs_col (i : S10000x128.Idx) (k : blockDot3.contr.Idx) : (blockDot3.rhsIdx i k 1).val = (i 1).val := by
  unfold DotDims.rhsIdx
  rw [dif_neg (show ¬(1 : Fin S128x128.rank) ∈ blockDot3.rhsBatch by decide),
    dif_pos (show (1 : Fin S128x128.rank) ∈ blockDot3.rhsNonContracting by decide)]
  rfl

/-- Entry (p, q) of what the region's body computes from a block `x` and the matrix `w`: the sum over k of
    x(p, k) · w(k, q). The changes of float format are the identity on extended reals and the accumulator is zero. -/
theorem blockProduct3_apply (x : Vec Ideal S10000x128 .f32) (w : Vec Ideal S128x128 .f32) (p : Fin 10000) (q : Fin 128) :
    k3_pay1 (F := Ideal) x w (ix2 p q) = ∑ k : Fin 128, x (ix2 p k) * w (ix2 k q) := by
  unfold k3_pay1
  simp only [shapeCast_self]
  refine (Ideal.matmul_constant_zero_apply blockDot3 none _ _ (ix2 p q)).trans ?_
  rw [← Equiv.sum_comp (contrEquiv1 blockDot3 128 rfl rfl).symm]
  refine Finset.sum_congr rfl fun k _ => ?_
  have hk := contrEquiv1_symm_val blockDot3 128 rfl rfl k
  have el : blockDot3.lhsIdx (ix2 p q) ((contrEquiv1 blockDot3 128 rfl rfl).symm k) = ix2 p k :=
    funext fun a => Fin.ext (by
      match a with
      | ⟨0, _⟩ => exact blockDot3_lhs_row _ _
      | ⟨1, _⟩ => exact (blockDot3_lhs_col _ _).trans hk)
  have er : blockDot3.rhsIdx (ix2 p q) ((contrEquiv1 blockDot3 128 rfl rfl).symm k) = ix2 k q :=
    funext fun a => Fin.ext (by
      match a with
      | ⟨0, _⟩ => exact (blockDot3_rhs_row _ _).trans hk
      | ⟨1, _⟩ => exact blockDot3_rhs_col _ _)
  rw [el, er]
  rfl

/-! ## One entry of the whole product -/

/-- The whole product's dimension numbers. -/
abbrev nodeDot3 : DotDims Cert.ReferenceIdeal.S100000x128 Cert.ReferenceIdeal.S128x128 Cert.ReferenceIdeal.S100000x128 :=
  Cert.ReferenceIdeal.dot_S100000x128_S128x128_S100000x128_1_0_0_1_n_n

theorem nodeDot3_lhs_row (i : Cert.ReferenceIdeal.S100000x128.Idx) (k : nodeDot3.contr.Idx) :
    (nodeDot3.lhsIdx i k 0).val = (i 0).val := by
  unfold DotDims.lhsIdx
  rw [dif_neg (show ¬(0 : Fin Cert.ReferenceIdeal.S100000x128.rank) ∈ nodeDot3.lhsBatch by decide),
    dif_pos (show (0 : Fin Cert.ReferenceIdeal.S100000x128.rank) ∈ nodeDot3.lhsNonContracting by decide)]
  rfl

theorem nodeDot3_lhs_col (i : Cert.ReferenceIdeal.S100000x128.Idx) (k : nodeDot3.contr.Idx) :
    (nodeDot3.lhsIdx i k 1).val = (k ⟨0, by decide⟩).val :=
  nodeDot3.lhsIdx_val_of_single rfl i k

theorem nodeDot3_rhs_row (i : Cert.ReferenceIdeal.S100000x128.Idx) (k : nodeDot3.contr.Idx) :
    (nodeDot3.rhsIdx i k 0).val = (k ⟨0, by decide⟩).val :=
  nodeDot3.rhsIdx_val_of_single rfl i k

theorem nodeDot3_rhs_col (i : Cert.ReferenceIdeal.S100000x128.Idx) (k : nodeDot3.contr.Idx) :
    (nodeDot3.rhsIdx i k 1).val = (i 1).val := by
  unfold DotDims.rhsIdx
  rw [dif_neg (show ¬(1 : Fin Cert.ReferenceIdeal.S128x128.rank) ∈ nodeDot3.rhsBatch by decide),
    dif_pos (show (1 : Fin Cert.ReferenceIdeal.S128x128.rank) ∈ nodeDot3.rhsNonContracting by decide)]
  rfl

/-- Entry (r, q) of the node features times the matrix: the sum over k of h(r, k) · w(k, q). -/
theorem project3_apply (h : Cert.Gcn.CF Cert.ReferenceIdeal.S100000x128) (w : Cert.Gcn.CF Cert.ReferenceIdeal.S128x128)
    (r : Fin 100000) (q : Fin 128) :
    Cert.Gcn.project h w (ix2 r q) = ∑ k : Fin 128, h (ix2 r k) * w (ix2 k q) := by
  unfold Cert.Gcn.project
  simp only [Host.dotGeneral]
  rw [Ideal.dotGeneral_apply, ← Equiv.sum_comp (contrEquiv1 nodeDot3 128 rfl rfl).symm]
  refine Finset.sum_congr rfl fun k _ => ?_
  have hk := contrEquiv1_symm_val nodeDot3 128 rfl rfl k
  have el : nodeDot3.lhsIdx (ix2 r q) ((contrEquiv1 nodeDot3 128 rfl rfl).symm k) = ix2 r k :=
    funext fun a => Fin.ext (by
      match a with
      | ⟨0, _⟩ => exact nodeDot3_lhs_row _ _
      | ⟨1, _⟩ => exact (nodeDot3_lhs_col _ _).trans hk)
  have er : nodeDot3.rhsIdx (ix2 r q) ((contrEquiv1 nodeDot3 128 rfl rfl).symm k) = ix2 k q :=
    funext fun a => Fin.ext (by
      match a with
      | ⟨0, _⟩ => exact (nodeDot3_rhs_row _ _).trans hk
      | ⟨1, _⟩ => exact nodeDot3_rhs_col _ _)
  rw [el, er]

/-- A block's product is the whole product on the block's rows: if row p of the block `x` is row r of the features
    `h`, and the block's matrix is the matrix `w'`, entry (p, q) of the one is entry (r, q) of the other. -/
theorem blockProduct3_eq_project (x : Vec Ideal S10000x128 .f32) (w : Vec Ideal S128x128 .f32)
    (h : Cert.Gcn.CF Cert.ReferenceIdeal.S100000x128) (w' : Cert.Gcn.CF Cert.ReferenceIdeal.S128x128)
    (p : Fin 10000) (q : Fin 128) (r : Fin 100000)
    (hx : ∀ k : Fin 128, x (ix2 p k) = h (ix2 r k)) (hw : ∀ k : Fin 128, w (ix2 k q) = w' (ix2 k q)) :
    k3_pay1 (F := Ideal) x w (ix2 p q) = Cert.Gcn.project h w' (ix2 r q) := by
  rw [blockProduct3_apply, project3_apply]
  exact Finset.sum_congr rfl fun k _ => by rw [hx k, hw k]

/-! ## From the ten blocks to the whole result -/

variable (V : (c : Dev nD) → (b : Ref sig .tc) → Buf (Elt Ideal) ((c : Thread nD τ).loc b))

theorem zeroOffsets3 : (![0, 0] : Fin 2 → Nat) = fun _ => 0 := funext fun a => by fin_cases a <;> rfl

/-- Where each window's block sits at grid point t: the feature block and the result block are block t of their
    matrices' rows and the only block of their columns; the 128 × 128 matrix is one block. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the feature block at grid point t is row 10000·t + p of the feature matrix. -/
theorem featureBlock3_apply (c : Dev nD) (t : Fin cfg3.N) (p : Fin 10000) (k : Fin 128) (r : Fin 100000)
    (hr : r.val = t.val * 10000 + p.val) :
    iblk3 V c 0 t (ix2 p k) = V c (Pipeline.arrRef spec3 0) (ix2 r k) := by
  obtain ⟨e0, e1, -, -, -, -⟩ := blockIndex3 t
  show V c (Pipeline.arrRef spec3 0) (((cfg3.win 0).blk t).view.emb (ix2 p k)) = _
  refine congrArg (V c (Pipeline.arrRef spec3 0)) (funext fun a => Fin.ext ?_)
  match a with
  | ⟨0, _⟩ => show win3_0.index t (0 : Fin 2) * 10000 + 1 * p.val = r.val; omega
  | ⟨1, _⟩ => show win3_0.index t (1 : Fin 2) * 128 + 1 * k.val = k.val; omega

/-- The matrix block at every grid point is the whole 128 × 128 matrix. -/
theorem matrixBlock3_apply (c : Dev nD) (t : Fin cfg3.N) (k : Fin 128) (q : Fin 128) :
    iblk3 V c 1 t (ix2 k q) = V c (Pipeline.arrRef spec3 1) (ix2 k q) := by
  obtain ⟨-, -, e2, e3, -, -⟩ := blockIndex3 t
  show V c (Pipeline.arrRef spec3 1) (((cfg3.win 1).blk t).view.emb (ix2 k q)) = _
  refine congrArg (V c (Pipeline.arrRef spec3 1)) (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- Entry (p, q) of the result block at grid point t is entry (10000·t + p, q) of the result. -/
theorem resultBlock3_emb (t : Fin cfg3.N) (p : Fin 10000) (q : Fin 128) (r : Fin 100000)
    (hr : r.val = t.val * 10000 + p.val) :
    ((cfg3.win 2).blk t).view.emb (ix2 p q) = ix2 r q := by
  obtain ⟨-, -, -, -, e4, e5⟩ := blockIndex3 t
  funext a; apply Fin.ext
  match a with
  | ⟨0, _⟩ => show win3_2.index t (0 : Fin 2) * 10000 + 1 * p.val = r.val; omega
  | ⟨1, _⟩ => show win3_2.index t (1 : Fin 2) * 128 + 1 * q.val = q.val; omega

/-- What grid point t writes back is block t of the whole product of the arrays the region finds. -/
theorem written3 (c : Dev nD) (t : Fin cfg3.N) :
    (dat3 (F := Ideal) V c).flushed 2 t
      = ((cfg3.win 2).blk t).view.read (Elt Ideal)
          (Cert.Gcn.project (V c (Pipeline.arrRef spec3 0)) (V c (Pipeline.arrRef spec3 1))) := by
  show (cfg3.win 2).cut (grid3.coords t) ((dat3 V c).after 2 t) = _
  rw [after3_2]
  unfold out3_2
  rw [View.canon_unit_zero zeroOffsets3]
  simp only [View.ld_unit_zero (S := S10000x128) zeroOffsets3, View.ld_unit_zero (S := S128x128) zeroOffsets3]
  have ht : t.val < 10 := by have h := t.isLt; have hN : cfg3.N = 10 := N_3; omega
  funext j
  obtain ⟨p, q, rfl⟩ : ∃ (p : Fin 10000) (q : Fin 128), j = ix2 p q := ⟨j 0, j 1, eq_ix2 j⟩
  have hp : p.val < 10000 := p.isLt
  show k3_pay1 (F := Ideal) (iblk3 V c 0 t) (iblk3 V c 1 t) (ix2 p q)
    = Cert.Gcn.project (V c (Pipeline.arrRef spec3 0)) (V c (Pipeline.arrRef spec3 1)) (((cfg3.win 2).blk t).view.emb (ix2 p q))
  rw [resultBlock3_emb t p q ⟨t.val * 10000 + p.val, by omega⟩ rfl]
  exact blockProduct3_eq_project (iblk3 V c 0 t) (iblk3 V c 1 t) (V c (Pipeline.arrRef spec3 0))
    (V c (Pipeline.arrRef spec3 1)) p q ⟨t.val * 10000 + p.val, by omega⟩
    (fun k => featureBlock3_apply V c t p k _ rfl) (fun k => matrixBlock3_apply V c t k q)

/-- An entry of the result is in grid point t's block exactly when each coordinate is in the block's range. -/
theorem mem_block3 (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole (Pipeline.arrRef spec3 2)).slice (win3_2.rect t)).set ↔ _
  rw [View.set_slice_whole, Rect.mem_set_unit]
  exact Iff.rfl

/-- Every entry of the result is written: row r by grid point r / 10000. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  let t : Fin cfg3.N := ⟨(i 0).val / 10000, by rw [hN]; omega⟩
  obtain ⟨-, -, -, -, e4, e5⟩ := blockIndex3 t
  have e4' : win3_2.index t (0 : Fin 2) = (i 0).val / 10000 := e4
  refine ⟨t, flush3_2 t, ?_⟩
  rw [mem_block3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- After region 3 its result array holds the product of the feature matrix and the 128 × 128 matrix as the
    region found them. -/
theorem project3 (c : Dev nD) :
    (dat3 (F := Ideal) V c).arrAt 2 cfg3.N
      = Cert.Gcn.project (V c (Pipeline.arrRef spec3 0)) (V c (Pipeline.arrRef spec3 1)) :=
  (dat3 (F := Ideal) V c).arrAt_eq_of_cover 2 _ (fun t _ => written3 V c t) (covered3)

end Cert.KernelIdeal.Tiles

end
-- ==== Proof.Tile4.lean ====
/-
  Region 4 of the tiled program adds a bias row to every node row and applies the exponential linear unit, ten
  thousand rows at a time.

  The 100000 node rows are cut into ten blocks of 10000 consecutive rows. At grid point t the region reads block t
  of the node matrix and the whole bias row of 128 entries, and writes back, as block t of the result, the unit
  applied to each entry plus the bias entry of its column: y where y is positive, exp y − 1 elsewhere. The same
  stage of the network selects between y and one times expm1 of y with its positive entries zeroed; the two
  agree entry by entry, whichever way the comparison falls, because expm1 y is exp y − 1 and the factor is the
  number one. Row p of block t is row 10000·t + p of the node matrix, so the block written at point t is block t
  of the stage applied to the whole matrix, and the ten blocks fill the result.
-/
import proofs.«159488_j4544075399263_1_alg».proof.Proof.Gen.KernelIdeal.Frame
import proofs.«159488_j4544075399263_1_alg».proof.Proof.Gcn
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Tiles

open Cert.KernelIdeal Cert.KernelIdeal.Gen
open Idealize.ShloMosaic Idealize.ShloMosaic.TcCoe Idealize.ShloMosaic.ValueIdx
open Idealize.ShloMosaic.Pipeline (Dat)

/-! ## The unit at one entry -/

/-- The exponential linear unit as the region's body spells it: y where y is positive, exp y − 1 elsewhere. -/
def unit4 (y : Ideal .f32) : Ideal .f32 :=
  Scalar.select (FloatOps.cmpf .ogt y (Ideal.ofBits .f32 0x00000000#32)) y (Ideal.exp y - Ideal.ofBits .f32 0x3F800000#32)

/-- The network's stage spells the unit as a selection between y and one times expm1 of (zero where y is positive,
    y elsewhere). Where y is positive both are y; elsewhere the inner selection is y, expm1 y is exp y − 1 and the
    factor is one. -/
theorem unit4_eq_stage (y : Ideal .f32) :
    Scalar.select (FloatOps.cmpf .ogt y (Ideal.ofBits .f32 0x00000000#32)) y
        (Ideal.ofBits .f32 0x3F800000#32
          * (Ideal.exp (Scalar.select (FloatOps.cmpf .ogt y (Ideal.ofBits .f32 0x00000000#32)) (Ideal.ofBits .f32 0x00000000#32) y) - 1))
      = unit4 y := by
  unfold unit4
  rcases BitVec.eq_zero_or_eq_one (FloatOps.cmpf .ogt y (Ideal.ofBits .f32 0x00000000#32)) with h | h
  · rw [h, select_zero, select_zero, select_zero, Ideal.ofBits_one_f32, one_mul]
  · rw [h, select_one, select_one]

/-- Entry (p, q) of what the region's body computes from a block `x` and the bias row `b`: the unit of
    x(p, q) + b(q). The bias row is viewed as a one-row matrix and repeated down the block's rows. -/
theorem blockUnit4_apply (x : Vec Ideal S10000x128 .f32) (b : Vec Ideal S128 .f32) (p : Fin 10000) (q : Fin 128) :
    k4_pay1 (F := Ideal) x b (ix2 p q) = unit4 (x (ix2 p q) + b (ix1 q)) := by
  unfold k4_pay1
  simp only [shapeCast_self]
  exact congrArg (fun z => unit4 (x (ix2 p q) + z))
    ((broadcastTo_1b_ab_apply _ _ p q).trans (shapeCast_a_1a_apply b _ 0 q))

/-! ## The network's stage at one entry -/

/-- The bias row repeated down the node rows reads, at (r, q), the bias entry of column q. -/
theorem biasRows4_apply (b : Cert.Gcn.CF Cert.ReferenceIdeal.S128) (r : Fin 100000) (q : Fin 128) :
    Cert.Gcn.biasRows b (ix2 r q) = b (ix1 q) := by
  unfold Cert.Gcn.biasRows
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The unit stage at an entry is the unit of the entry. -/
theorem elu4_apply (y : Cert.Gcn.CF Cert.ReferenceIdeal.S100000x128) (i : Cert.ReferenceIdeal.S100000x128.Idx) :
    Cert.Gcn.elu y i = unit4 (y i) := by
  have h0 : broadcastInDim Cert.ReferenceIdeal.S100000x128 ![] Cert.ReferenceIdeal.Facts₀.bcast_S_S100000x128
      (constant (F := Ideal) Cert.ReferenceIdeal.S_ .f32 0x00000000#32) i = Ideal.ofBits .f32 0x00000000#32 :=
    broadcastInDim_scalar_apply _ _ i
  have h1 : broadcastInDim Cert.ReferenceIdeal.S100000x128 ![] Cert.ReferenceIdeal.Facts₀.bcast_S_S100000x128
      (constant (F := Ideal) Cert.ReferenceIdeal.S_ .f32 0x3F800000#32) i = Ideal.ofBits .f32 0x3F800000#32 :=
    broadcastInDim_scalar_apply _ _ i
  rw [← unit4_eq_stage]
  unfold Cert.Gcn.elu
  simp only [select_apply, cmpf_apply, mulf_apply, Host.expm1, id, Ideal.hostUnary_expm1_def]
  rw [h0, h1]

/-- Entry (r, q) of the bias-and-unit stage: the unit of a(r, q) + b(q). -/
theorem activate4_apply (a : Cert.Gcn.CF Cert.ReferenceIdeal.S100000x128) (b : Cert.Gcn.CF Cert.ReferenceIdeal.S128)
    (r : Fin 100000) (q : Fin 128) :
    Cert.Gcn.activate a b (ix2 r q) = unit4 (a (ix2 r q) + b (ix1 q)) := by
  unfold Cert.Gcn.activate
  rw [elu4_apply, addf_apply, biasRows4_apply]

/-- A block's result is the stage's on the block's rows: if entry (p, q) of the block `x` is entry (r, q) of the
    node matrix `a`, and the block's bias row is the row `b'`, the two agree at that entry. -/
theorem blockUnit4_eq_activate (x : Vec Ideal S10000x128 .f32) (b : Vec Ideal S128 .f32)
    (a : Cert.Gcn.CF Cert.ReferenceIdeal.S100000x128) (b' : Cert.Gcn.CF Cert.ReferenceIdeal.S128)
    (p : Fin 10000) (q : Fin 128) (r : Fin 100000)
    (hx : x (ix2 p q) = a (ix2 r q)) (hb : b (ix1 q) = b' (ix1 q)) :
    k4_pay1 (F := Ideal) x b (ix2 p q) = Cert.Gcn.activate a b' (ix2 r q) := by
  rw [blockUnit4_apply, activate4_apply, hx, hb]

/-! ## From the ten blocks to the whole result -/

variable (V : (c : Dev nD) → (b : Ref sig .tc) → Buf (Elt Ideal) ((c : Thread nD τ).loc b))

theorem zeroOffsets4 : (![0, 0] : Fin 2 → Nat) = fun _ => 0 := funext fun a => by fin_cases a <;> rfl
theorem zeroOffset4 : (![0] : Fin 1 → Nat) = fun _ => 0 := funext fun a => by fin_cases a; rfl

/-- Where each window's block sits at grid point t: the node block and the result block are block t of their
    matrices' rows and the only block of their columns; the bias row is one block. -/
theorem blockIndex4 : ∀ t : Fin cfg4.N, win4_0.index t (0 : Fin 2) = t.val ∧ win4_0.index t (1 : Fin 2) = 0
    ∧ win4_1.index t (0 : Fin 1) = 0
    ∧ win4_2.index t (0 : Fin 2) = t.val ∧ win4_2.index t (1 : Fin 2) = 0 :=
  (by decide +kernel : ∀ t : Fin grid4.N, _)

/-- Row p of the node block at grid point t is row 10000·t + p of the node matrix. -/
theorem nodeBlock4_apply (c : Dev nD) (t : Fin cfg4.N) (p : Fin 10000) (q : Fin 128) (r : Fin 100000)
    (hr : r.val = t.val * 10000 + p.val) :
    iblk4 V c 0 t (ix2 p q) = V c (Pipeline.arrRef spec4 0) (ix2 r q) := by
  obtain ⟨e0, e1, -, -, -⟩ := blockIndex4 t
  show V c (Pipeline.arrRef spec4 0) (((cfg4.win 0).blk t).view.emb (ix2 p q)) = _
  refine congrArg (V c (Pipeline.arrRef spec4 0)) (funext fun a => Fin.ext ?_)
  match a with
  | ⟨0, _⟩ => show win4_0.index t (0 : Fin 2) * 10000 + 1 * p.val = r.val; omega
  | ⟨1, _⟩ => show win4_0.index t (1 : Fin 2) * 128 + 1 * q.val = q.val; omega

/-- The bias block at every grid point is the whole bias row. -/
theorem biasBlock4_apply (c : Dev nD) (t : Fin cfg4.N) (q : Fin 128) :
    iblk4 V c 1 t (ix1 q) = V c (Pipeline.arrRef spec4 1) (ix1 q) := by
  obtain ⟨-, -, e2, -, -⟩ := blockIndex4 t
  show V c (Pipeline.arrRef spec4 1) (((cfg4.win 1).blk t).view.emb (ix1 q)) = _
  refine congrArg (V c (Pipeline.arrRef spec4 1)) (funext fun a => Fin.ext ?_)
  match a with
  | ⟨0, _⟩ => show win4_1.index t (0 : Fin 1) * 128 + 1 * q.val = q.val; omega

/-- Entry (p, q) of the result block at grid point t is entry (10000·t + p, q) of the result. -/
theorem resultBlock4_emb (t : Fin cfg4.N) (p : Fin 10000) (q : Fin 128) (r : Fin 100000)
    (hr : r.val = t.val * 10000 + p.val) :
    ((cfg4.win 2).blk t).view.emb (ix2 p q) = ix2 r q := by
  obtain ⟨-, -, -, e4, e5⟩ := blockIndex4 t
  funext a; apply Fin.ext
  match a with
  | ⟨0, _⟩ => show win4_2.index t (0 : Fin 2) * 10000 + 1 * p.val = r.val; omega
  | ⟨1, _⟩ => show win4_2.index t (1 : Fin 2) * 128 + 1 * q.val = q.val; omega

/-- What grid point t writes back is block t of the stage applied to the arrays the region finds. -/
theorem written4 (c : Dev nD) (t : Fin cfg4.N) :
    (dat4 (F := Ideal) V c).flushed 2 t
      = ((cfg4.win 2).blk t).view.read (Elt Ideal)
          (Cert.Gcn.activate (V c (Pipeline.arrRef spec4 0)) (V c (Pipeline.arrRef spec4 1))) := by
  show (cfg4.win 2).cut (grid4.coords t) ((dat4 V c).after 2 t) = _
  rw [after4_2]
  unfold out4_2
  rw [View.canon_unit_zero zeroOffsets4]
  simp only [View.ld_unit_zero (S := S10000x128) zeroOffsets4, View.ld_unit_zero (S := S128) zeroOffset4]
  have ht : t.val < 10 := by have h := t.isLt; have hN : cfg4.N = 10 := N_4; omega
  funext j
  obtain ⟨p, q, rfl⟩ : ∃ (p : Fin 10000) (q : Fin 128), j = ix2 p q := ⟨j 0, j 1, eq_ix2 j⟩
  have hp : p.val < 10000 := p.isLt
  show k4_pay1 (F := Ideal) (iblk4 V c 0 t) (iblk4 V c 1 t) (ix2 p q)
    = Cert.Gcn.activate (V c (Pipeline.arrRef spec4 0)) (V c (Pipeline.arrRef spec4 1)) (((cfg4.win 2).blk t).view.emb (ix2 p q))
  rw [resultBlock4_emb t p q ⟨t.val * 10000 + p.val, by omega⟩ rfl]
  exact blockUnit4_eq_activate (iblk4 V c 0 t) (iblk4 V c 1 t) (V c (Pipeline.arrRef spec4 0))
    (V c (Pipeline.arrRef spec4 1)) p q ⟨t.val * 10000 + p.val, by omega⟩
    (nodeBlock4_apply V c t p q _ rfl) (biasBlock4_apply V c t q)

/-- An entry of the result is in grid point t's block exactly when each coordinate is in the block's range. -/
theorem mem_block4 (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole (Pipeline.arrRef spec4 2)).slice (win4_2.rect t)).set ↔ _
  rw [View.set_slice_whole, Rect.mem_set_unit]
  exact Iff.rfl

/-- Every entry of the result is written: row r by grid point r / 10000. -/
theorem covered4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 10 := N_4
  let t : Fin cfg4.N := ⟨(i 0).val / 10000, by rw [hN]; omega⟩
  obtain ⟨-, -, -, e4, e5⟩ := blockIndex4 t
  have e4' : win4_2.index t (0 : Fin 2) = (i 0).val / 10000 := e4
  refine ⟨t, flush4_2 t, ?_⟩
  rw [mem_block4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 128 ≤ (i 1).val ∧ (i 1).val < win4_2.index t (1 : Fin 2) * 128 + 128
    omega

/-- After region 4 its result array holds the bias-and-unit stage of the node matrix and the bias row as the
    region found them. -/
theorem activate4 (c : Dev nD) :
    (dat4 (F := Ideal) V c).arrAt 2 cfg4.N
      = Cert.Gcn.activate (V c (Pipeline.arrRef spec4 0)) (V c (Pipeline.arrRef spec4 1)) :=
  (dat4 (F := Ideal) V c).arrAt_eq_of_cover 2 _ (fun t _ => written4 V c t) (covered4)

end Cert.KernelIdeal.Tiles

end
-- ==== Proof.Tile5.lean ====
/-
  Region 5 of the tiled program multiplies the node features by a 128 × 128 matrix, ten thousand rows at a time.

  The 100000 node rows are cut into ten blocks of 10000 consecutive rows. At grid point t the region reads block t
  of the feature matrix and the whole 128 × 128 matrix, multiplies them into a zero accumulator, and writes the
  product back as block t of the result. Entry (p, q) of a block's product is the sum over k of the block's
  (p, k) entry times the matrix's (k, q) entry, and row p of block t is row 10000·t + p of the feature matrix; so
  the block written at point t is block t of the product of the whole feature matrix with the matrix. Every row
  r lies in block r / 10000, so the ten blocks fill the result, which is therefore the whole product.
-/
import proofs.«159488_j4544075399263_1_alg».proof.Proof.Gen.KernelIdeal.Frame
import proofs.«159488_j4544075399263_1_alg».proof.Proof.Gcn
import Idealize.ShloMosaic.Lib.Pipeline.Value
import Idealize.ShloMosaic.Lib.ValueIdx
import Idealize.ShloMosaic.PureOps.Ideal.Laws

set_option maxRecDepth 16384

noncomputable section

namespace Cert.KernelIdeal.Tiles

open Cert.KernelIdeal Cert.KernelIdeal.Gen Cert.KernelIdeal.Facts₀
open Idealize.ShloMosaic Idealize.ShloMosaic.TcCoe Idealize.ShloMosaic.ValueIdx
open Idealize.ShloMosaic.Pipeline (Dat)
open scoped BigOperators

/-! ## One entry of a block's product -/

/-- The block product's dimension numbers: the block's columns are contracted against the matrix's rows. -/
abbrev blockDot5 : DotDims S10000x128 S128x128 S10000x128 := dot_S10000x128_S128x128_S10000x128_1_0_0_1_n_n

/-- The left factor's row is the entry's row, -/
theorem blockDot5_lhs_row (i : S10000x128.Idx) (k : blockDot5.contr.Idx) : (blockDot5.lhsIdx i k 0).val = (i 0).val := by
  unfold DotDims.lhsIdx
  rw [dif_neg (show ¬(0 : Fin S10000x128.rank) ∈ blockDot5.lhsBatch by decide),
    dif_pos (show (0 : Fin S10000x128.rank) ∈ blockDot5.lhsNonContracting by decide)]
  rfl

/-- its column the summation index; -/
theorem blockDot5_lhs_col (i : S10000x128.Idx) (k : blockDot5.contr.Idx) :
    (blockDot5.lhsIdx i k 1).val = (k ⟨0, by decide⟩).val :=
  blockDot5.lhsIdx_val_of_single rfl i k

/-- the right factor's row is the summation index, -/
theorem blockDot5_rhs_row (i : S10000x128.Idx) (k : blockDot5.contr.Idx) :
    (blockDot5.rhsIdx i k 0).val = (k ⟨0, by decide⟩).val :=
  blockDot5.rhsIdx_val_of_single rfl i k

/-- and its column the entry's column. -/
theorem blockDot5_rhs_col (i : S10000x128.Idx) (k : blockDot5.contr.Idx) : (blockDot5.rhsIdx i k 1).val = (i 1).val := by
  unfold DotDims.rhsIdx
  rw [dif_neg (show ¬(1 : Fin S128x128.rank) ∈ blockDot5.rhsBatch by decide),
    dif_pos (show (1 : Fin S128x128.rank) ∈ blockDot5.rhsNonContracting by decide)]
  rfl

/-- Entry (p, q) of what the region's body computes from a block `x` and the matrix `w`: the sum over k of
    x(p, k) · w(k, q). The changes of float format are the identity on extended reals and the accumulator is zero. -/
theorem blockProduct5_apply (x : Vec Ideal S10000x128 .f32) (w : Vec Ideal S128x128 .f32) (p : Fin 10000) (q : Fin 128) :
    k5_pay1 (F := Ideal) x w (ix2 p q) = ∑ k : Fin 128, x (ix2 p k) * w (ix2 k q) := by
  unfold k5_pay1
  simp only [shapeCast_self]
  refine (Ideal.matmul_constant_zero_apply blockDot5 none _ _ (ix2 p q)).trans ?_
  rw [← Equiv.sum_comp (contrEquiv1 blockDot5 128 rfl rfl).symm]
  refine Finset.sum_congr rfl fun k _ => ?_
  have hk := contrEquiv1_symm_val blockDot5 128 rfl rfl k
  have el : blockDot5.lhsIdx (ix2 p q) ((contrEquiv1 blockDot5 128 rfl rfl).symm k) = ix2 p k :=
    funext fun a => Fin.ext (by
      match a with
      | ⟨0, _⟩ => exact blockDot5_lhs_row _ _
      | ⟨1, _⟩ => exact (blockDot5_lhs_col _ _).trans hk)
  have er : blockDot5.rhsIdx (ix2 p q) ((contrEquiv1 blockDot5 128 rfl rfl).symm k) = ix2 k q :=
    funext fun a => Fin.ext (by
      match a with
      | ⟨0, _⟩ => exact (blockDot5_rhs_row _ _).trans hk
      | ⟨1, _⟩ => exact blockDot5_rhs_col _ _)
  rw [el, er]
  rfl

/-! ## One entry of the whole product -/

/-- The whole product's dimension numbers. -/
abbrev nodeDot5 : DotDims Cert.ReferenceIdeal.S100000x128 Cert.ReferenceIdeal.S128x128 Cert.ReferenceIdeal.S100000x128 :=
  Cert.ReferenceIdeal.dot_S100000x128_S128x128_S100000x128_1_0_0_1_n_n

theorem nodeDot5_lhs_row (i : Cert.ReferenceIdeal.S100000x128.Idx) (k : nodeDot5.contr.Idx) :
    (nodeDot5.lhsIdx i k 0).val = (i 0).val := by
  unfold DotDims.lhsIdx
  rw [dif_neg (show ¬(0 : Fin Cert.ReferenceIdeal.S100000x128.rank) ∈ nodeDot5.lhsBatch by decide),
    dif_pos (show (0 : Fin Cert.ReferenceIdeal.S100000x128.rank) ∈ nodeDot5.lhsNonContracting by decide)]
  rfl

theorem nodeDot5_lhs_col (i : Cert.ReferenceIdeal.S100000x128.Idx) (k : nodeDot5.contr.Idx) :
    (nodeDot5.lhsIdx i k 1).val = (k ⟨0, by decide⟩).val :=
  nodeDot5.lhsIdx_val_of_single rfl i k

theorem nodeDot5_rhs_row (i : Cert.ReferenceIdeal.S100000x128.Idx) (k : nodeDot5.contr.Idx) :
    (nodeDot5.rhsIdx i k 0).val = (k ⟨0, by decide⟩).val :=
  nodeDot5.rhsIdx_val_of_single rfl i k

theorem nodeDot5_rhs_col (i : Cert.ReferenceIdeal.S100000x128.Idx) (k : nodeDot5.contr.Idx) :
    (nodeDot5.rhsIdx i k 1).val = (i 1).val := by
  unfold DotDims.rhsIdx
  rw [dif_neg (show ¬(1 : Fin Cert.ReferenceIdeal.S128x128.rank) ∈ nodeDot5.rhsBatch by decide),
    dif_pos (show (1 : Fin Cert.ReferenceIdeal.S128x128.rank) ∈ nodeDot5.rhsNonContracting by decide)]
  rfl

/-- Entry (r, q) of the node features times the matrix: the sum over k of h(r, k) · w(k, q). -/
theorem project5_apply (h : Cert.Gcn.CF Cert.ReferenceIdeal.S100000x128) (w : Cert.Gcn.CF Cert.ReferenceIdeal.S128x128)
    (r : Fin 100000) (q : Fin 128) :
    Cert.Gcn.project h w (ix2 r q) = ∑ k : Fin 128, h (ix2 r k) * w (ix2 k q) := by
  unfold Cert.Gcn.project
  simp only [Host.dotGeneral]
  rw [Ideal.dotGeneral_apply, ← Equiv.sum_comp (contrEquiv1 nodeDot5 128 rfl rfl).symm]
  refine Finset.sum_congr rfl fun k _ => ?_
  have hk := contrEquiv1_symm_val nodeDot5 128 rfl rfl k
  have el : nodeDot5.lhsIdx (ix2 r q) ((contrEquiv1 nodeDot5 128 rfl rfl).symm k) = ix2 r k :=
    funext fun a => Fin.ext (by
      match a with
      | ⟨0, _⟩ => exact nodeDot5_lhs_row _ _
      | ⟨1, _⟩ => exact (nodeDot5_lhs_col _ _).trans hk)
  have er : nodeDot5.rhsIdx (ix2 r q) ((contrEquiv1 nodeDot5 128 rfl rfl).symm k) = ix2 k q :=
    funext fun a => Fin.ext (by
      match a with
      | ⟨0, _⟩ => exact (nodeDot5_rhs_row _ _).trans hk
      | ⟨1, _⟩ => exact nodeDot5_rhs_col _ _)
  rw [el, er]

/-- A block's product is the whole product on the block's rows: if row p of the block `x` is row r of the features
    `h`, and the block's matrix is the matrix `w'`, entry (p, q) of the one is entry (r, q) of the other. -/
theorem blockProduct5_eq_project (x : Vec Ideal S10000x128 .f32) (w : Vec Ideal S128x128 .f32)
    (h : Cert.Gcn.CF Cert.ReferenceIdeal.S100000x128) (w' : Cert.Gcn.CF Cert.ReferenceIdeal.S128x128)
    (p : Fin 10000) (q : Fin 128) (r : Fin 100000)
    (hx : ∀ k : Fin 128, x (ix2 p k) = h (ix2 r k)) (hw : ∀ k : Fin 128, w (ix2 k q) = w' (ix2 k q)) :
    k5_pay1 (F := Ideal) x w (ix2 p q) = Cert.Gcn.project h w' (ix2 r q) := by
  rw [blockProduct5_apply, project5_apply]
  exact Finset.sum_congr rfl fun k _ => by rw [hx k, hw k]

/-! ## From the ten blocks to the whole result -/

variable (V : (c : Dev nD) → (b : Ref sig .tc) → Buf (Elt Ideal) ((c : Thread nD τ).loc b))

theorem zeroOffsets5 : (![0, 0] : Fin 2 → Nat) = fun _ => 0 := funext fun a => by fin_cases a <;> rfl

/-- Where each window's block sits at grid point t: the feature block and the result block are block t of their
    matrices' rows and the only block of their columns; the 128 × 128 matrix is one block. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row p of the feature block at grid point t is row 10000·t + p of the feature matrix. -/
theorem featureBlock5_apply (c : Dev nD) (t : Fin cfg5.N) (p : Fin 10000) (k : Fin 128) (r : Fin 100000)
    (hr : r.val = t.val * 10000 + p.val) :
    iblk5 V c 0 t (ix2 p k) = V c (Pipeline.arrRef spec5 0) (ix2 r k) := by
  obtain ⟨e0, e1, -, -, -, -⟩ := blockIndex5 t
  show V c (Pipeline.arrRef spec5 0) (((cfg5.win 0).blk t).view.emb (ix2 p k)) = _
  refine congrArg (V c (Pipeline.arrRef spec5 0)) (funext fun a => Fin.ext ?_)
  match a with
  | ⟨0, _⟩ => show win5_0.index t (0 : Fin 2) * 10000 + 1 * p.val = r.val; omega
  | ⟨1, _⟩ => show win5_0.index t (1 : Fin 2) * 128 + 1 * k.val = k.val; omega

/-- The matrix block at every grid point is the whole 128 × 128 matrix. -/
theorem matrixBlock5_apply (c : Dev nD) (t : Fin cfg5.N) (k : Fin 128) (q : Fin 128) :
    iblk5 V c 1 t (ix2 k q) = V c (Pipeline.arrRef spec5 1) (ix2 k q) := by
  obtain ⟨-, -, e2, e3, -, -⟩ := blockIndex5 t
  show V c (Pipeline.arrRef spec5 1) (((cfg5.win 1).blk t).view.emb (ix2 k q)) = _
  refine congrArg (V c (Pipeline.arrRef spec5 1)) (funext fun a => Fin.ext ?_)
  match a with
  | ⟨0, _⟩ => show win5_1.index t (0 : Fin 2) * 128 + 1 * k.val = k.val; omega
  | ⟨1, _⟩ => show win5_1.index t (1 : Fin 2) * 128 + 1 * q.val = q.val; omega

/-- Entry (p, q) of the result block at grid point t is entry (10000·t + p, q) of the result. -/
theorem resultBlock5_emb (t : Fin cfg5.N) (p : Fin 10000) (q : Fin 128) (r : Fin 100000)
    (hr : r.val = t.val * 10000 + p.val) :
    ((cfg5.win 2).blk t).view.emb (ix2 p q) = ix2 r q := by
  obtain ⟨-, -, -, -, e4, e5⟩ := blockIndex5 t
  funext a; apply Fin.ext
  match a with
  | ⟨0, _⟩ => show win5_2.index t (0 : Fin 2) * 10000 + 1 * p.val = r.val; omega
  | ⟨1, _⟩ => show win5_2.index t (1 : Fin 2) * 128 + 1 * q.val = q.val; omega

/-- What grid point t writes back is block t of the whole product of the arrays the region finds. -/
theorem written5 (c : Dev nD) (t : Fin cfg5.N) :
    (dat5 (F := Ideal) V c).flushed 2 t
      = ((cfg5.win 2).blk t).view.read (Elt Ideal)
          (Cert.Gcn.project (V c (Pipeline.arrRef spec5 0)) (V c (Pipeline.arrRef spec5 1))) := by
  show (cfg5.win 2).cut (grid5.coords t) ((dat5 V c).after 2 t) = _
  rw [after5_2]
  unfold out5_2
  rw [View.canon_unit_zero zeroOffsets5]
  simp only [View.ld_unit_zero (S := S10000x128) zeroOffsets5, View.ld_unit_zero (S := S128x128) zeroOffsets5]
  have ht : t.val < 10 := by have h := t.isLt; have hN : cfg5.N = 10 := N_5; omega
  funext j
  obtain ⟨p, q, rfl⟩ : ∃ (p : Fin 10000) (q : Fin 128), j = ix2 p q := ⟨j 0, j 1, eq_ix2 j⟩
  have hp : p.val < 10000 := p.isLt
  show k5_pay1 (F := Ideal) (iblk5 V c 0 t) (iblk5 V c 1 t) (ix2 p q)
    = Cert.Gcn.project (V c (Pipeline.arrRef spec5 0)) (V c (Pipeline.arrRef spec5 1)) (((cfg5.win 2).blk t).view.emb (ix2 p q))
  rw [resultBlock5_emb t p q ⟨t.val * 10000 + p.val, by omega⟩ rfl]
  exact blockProduct5_eq_project (iblk5 V c 0 t) (iblk5 V c 1 t) (V c (Pipeline.arrRef spec5 0))
    (V c (Pipeline.arrRef spec5 1)) p q ⟨t.val * 10000 + p.val, by omega⟩
    (fun k => featureBlock5_apply V c t p k _ rfl) (fun k => matrixBlock5_apply V c t k q)

/-- An entry of the result is in grid point t's block exactly when each coordinate is in the block's range. -/
theorem mem_block5 (t : Fin cfg5.N) (i : S100000x128.Idx) :
    i ∈ ((cfg5.win 2).blk t).view.set ↔ ∀ a : Fin 2, win5_2.index t a * S10000x128.size a ≤ (i a).val
      ∧ (i a).val < win5_2.index t a * S10000x128.size a + S10000x128.size a := by
  show i ∈ ((View.whole (Pipeline.arrRef spec5 2)).slice (win5_2.rect t)).set ↔ _
  rw [View.set_slice_whole, Rect.mem_set_unit]
  exact Iff.rfl

/-- Every entry of the result is written: row r by grid point r / 10000. -/
theorem covered5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  let t : Fin cfg5.N := ⟨(i 0).val / 10000, by rw [hN]; omega⟩
  obtain ⟨-, -, -, -, e4, e5⟩ := blockIndex5 t
  have e4' : win5_2.index t (0 : Fin 2) = (i 0).val / 10000 := e4
  refine ⟨t, flush5_2 t, ?_⟩
  rw [mem_block5]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 128 ≤ (i 1).val ∧ (i 1).val < win5_2.index t (1 : Fin 2) * 128 + 128
    omega

/-- After region 5 its result array holds the product of the feature matrix and the 128 × 128 matrix as the
    region found them. -/
theorem project5 (c : Dev nD) :
    (dat5 (F := Ideal) V c).arrAt 2 cfg5.N
      = Cert.Gcn.project (V c (Pipeline.arrRef spec5 0)) (V c (Pipeline.arrRef spec5 1)) :=
  (dat5 (F := Ideal) V c).arrAt_eq_of_cover 2 _ (fun t _ => written5 V c t) (covered5)

end Cert.KernelIdeal.Tiles

end
-- ==== Proof.Tile6.lean ====
/-
  Region 6 of the tiled program adds a bias row to every node row and applies the exponential linear unit, ten
  thousand rows at a time.

  The 100000 node rows are cut into ten blocks of 10000 consecutive rows. At grid point t the region reads block t
  of the node matrix and the whole bias row of 128 entries, and writes back, as block t of the result, the unit
  applied to each entry plus the bias entry of its column: y where y is positive, exp y − 1 elsewhere. The same
  stage of the network selects between y and one times expm1 of y with its positive entries zeroed; the two
  agree entry by entry, whichever way the comparison falls, because expm1 y is exp y − 1 and the factor is the
  number one. Row p of block t is row 10000·t + p of the node matrix, so the block written at point t is block t
  of the stage applied to the whole matrix, and the ten blocks fill the result.
-/
import proofs.«159488_j4544075399263_1_alg».proof.Proof.Gen.KernelIdeal.Frame
import proofs.«159488_j4544075399263_1_alg».proof.Proof.Gcn
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Tiles

open Cert.KernelIdeal Cert.KernelIdeal.Gen
open Idealize.ShloMosaic Idealize.ShloMosaic.TcCoe Idealize.ShloMosaic.ValueIdx
open Idealize.ShloMosaic.Pipeline (Dat)

/-! ## The unit at one entry -/

/-- The exponential linear unit as the region's body spells it: y where y is positive, exp y − 1 elsewhere. -/
def unit6 (y : Ideal .f32) : Ideal .f32 :=
  Scalar.select (FloatOps.cmpf .ogt y (Ideal.ofBits .f32 0x00000000#32)) y (Ideal.exp y - Ideal.ofBits .f32 0x3F800000#32)

/-- The network's stage spells the unit as a selection between y and one times expm1 of (zero where y is positive,
    y elsewhere). Where y is positive both are y; elsewhere the inner selection is y, expm1 y is exp y − 1 and the
    factor is one. -/
theorem unit6_eq_stage (y : Ideal .f32) :
    Scalar.select (FloatOps.cmpf .ogt y (Ideal.ofBits .f32 0x00000000#32)) y
        (Ideal.ofBits .f32 0x3F800000#32
          * (Ideal.exp (Scalar.select (FloatOps.cmpf .ogt y (Ideal.ofBits .f32 0x00000000#32)) (Ideal.ofBits .f32 0x00000000#32) y) - 1))
      = unit6 y := by
  unfold unit6
  rcases BitVec.eq_zero_or_eq_one (FloatOps.cmpf .ogt y (Ideal.ofBits .f32 0x00000000#32)) with h | h
  · rw [h, select_zero, select_zero, select_zero, Ideal.ofBits_one_f32, one_mul]
  · rw [h, select_one, select_one]

/-- Entry (p, q) of what the region's body computes from a block `x` and the bias row `b`: the unit of
    x(p, q) + b(q). The bias row is viewed as a one-row matrix and repeated down the block's rows. -/
theorem blockUnit6_apply (x : Vec Ideal S10000x128 .f32) (b : Vec Ideal S128 .f32) (p : Fin 10000) (q : Fin 128) :
    k6_pay1 (F := Ideal) x b (ix2 p q) = unit6 (x (ix2 p q) + b (ix1 q)) := by
  unfold k6_pay1
  simp only [shapeCast_self]
  exact congrArg (fun z => unit6 (x (ix2 p q) + z))
    ((broadcastTo_1b_ab_apply _ _ p q).trans (shapeCast_a_1a_apply b _ 0 q))

/-! ## The network's stage at one entry -/

/-- The bias row repeated down the node rows reads, at (r, q), the bias entry of column q. -/
theorem biasRows6_apply (b : Cert.Gcn.CF Cert.ReferenceIdeal.S128) (r : Fin 100000) (q : Fin 128) :
    Cert.Gcn.biasRows b (ix2 r q) = b (ix1 q) := by
  unfold Cert.Gcn.biasRows
  refine (broadcastInDim_apply _ _ _ (ix2 r q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The unit stage at an entry is the unit of the entry. -/
theorem elu6_apply (y : Cert.Gcn.CF Cert.ReferenceIdeal.S100000x128) (i : Cert.ReferenceIdeal.S100000x128.Idx) :
    Cert.Gcn.elu y i = unit6 (y i) := by
  have h0 : broadcastInDim Cert.ReferenceIdeal.S100000x128 ![] Cert.ReferenceIdeal.Facts₀.bcast_S_S100000x128
      (constant (F := Ideal) Cert.ReferenceIdeal.S_ .f32 0x00000000#32) i = Ideal.ofBits .f32 0x00000000#32 :=
    broadcastInDim_scalar_apply _ _ i
  have h1 : broadcastInDim Cert.ReferenceIdeal.S100000x128 ![] Cert.ReferenceIdeal.Facts₀.bcast_S_S100000x128
      (constant (F := Ideal) Cert.ReferenceIdeal.S_ .f32 0x3F800000#32) i = Ideal.ofBits .f32 0x3F800000#32 :=
    broadcastInDim_scalar_apply _ _ i
  rw [← unit6_eq_stage]
  unfold Cert.Gcn.elu
  simp only [select_apply, cmpf_apply, mulf_apply, Host.expm1, id, Ideal.hostUnary_expm1_def]
  rw [h0, h1]

/-- Entry (r, q) of the bias-and-unit stage: the unit of a(r, q) + b(q). -/
theorem activate6_apply (a : Cert.Gcn.CF Cert.ReferenceIdeal.S100000x128) (b : Cert.Gcn.CF Cert.ReferenceIdeal.S128)
    (r : Fin 100000) (q : Fin 128) :
    Cert.Gcn.activate a b (ix2 r q) = unit6 (a (ix2 r q) + b (ix1 q)) := by
  unfold Cert.Gcn.activate
  rw [elu6_apply, addf_apply, biasRows6_apply]

/-- A block's result is the stage's on the block's rows: if entry (p, q) of the block `x` is entry (r, q) of the
    node matrix `a`, and the block's bias row is the row `b'`, the two agree at that entry. -/
theorem blockUnit6_eq_activate (x : Vec Ideal S10000x128 .f32) (b : Vec Ideal S128 .f32)
    (a : Cert.Gcn.CF Cert.ReferenceIdeal.S100000x128) (b' : Cert.Gcn.CF Cert.ReferenceIdeal.S128)
    (p : Fin 10000) (q : Fin 128) (r : Fin 100000)
    (hx : x (ix2 p q) = a (ix2 r q)) (hb : b (ix1 q) = b' (ix1 q)) :
    k6_pay1 (F := Ideal) x b (ix2 p q) = Cert.Gcn.activate a b' (ix2 r q) := by
  rw [blockUnit6_apply, activate6_apply, hx, hb]

/-! ## From the ten blocks to the whole result -/

variable (V : (c : Dev nD) → (b : Ref sig .tc) → Buf (Elt Ideal) ((c : Thread nD τ).loc b))

theorem zeroOffsets6 : (![0, 0] : Fin 2 → Nat) = fun _ => 0 := funext fun a => by fin_cases a <;> rfl
theorem zeroOffset6 : (![0] : Fin 1 → Nat) = fun _ => 0 := funext fun a => by fin_cases a; rfl

/-- Where each window's block sits at grid point t: the node block and the result block are block t of their
    matrices' rows and the only block of their columns; the bias row is one block. -/
theorem blockIndex6 : ∀ t : Fin cfg6.N, win6_0.index t (0 : Fin 2) = t.val ∧ win6_0.index t (1 : Fin 2) = 0
    ∧ win6_1.index t (0 : Fin 1) = 0
    ∧ win6_2.index t (0 : Fin 2) = t.val ∧ win6_2.index t (1 : Fin 2) = 0 :=
  (by decide +kernel : ∀ t : Fin grid6.N, _)

/-- Row p of the node block at grid point t is row 10000·t + p of the node matrix. -/
theorem nodeBlock6_apply (c : Dev nD) (t : Fin cfg6.N) (p : Fin 10000) (q : Fin 128) (r : Fin 100000)
    (hr : r.val = t.val * 10000 + p.val) :
    iblk6 V c 0 t (ix2 p q) = V c (Pipeline.arrRef spec6 0) (ix2 r q) := by
  obtain ⟨e0, e1, -, -, -⟩ := blockIndex6 t
  show V c (Pipeline.arrRef spec6 0) (((cfg6.win 0).blk t).view.emb (ix2 p q)) = _
  refine congrArg (V c (Pipeline.arrRef spec6 0)) (funext fun a => Fin.ext ?_)
  match a with
  | ⟨0, _⟩ => show win6_0.index t (0 : Fin 2) * 10000 + 1 * p.val = r.val; omega
  | ⟨1, _⟩ => show win6_0.index t (1 : Fin 2) * 128 + 1 * q.val = q.val; omega

/-- The bias block at every grid point is the whole bias row. -/
theorem biasBlock6_apply (c : Dev nD) (t : Fin cfg6.N) (q : Fin 128) :
    iblk6 V c 1 t (ix1 q) = V c (Pipeline.arrRef spec6 1) (ix1 q) := by
  obtain ⟨-, -, e2, -, -⟩ := blockIndex6 t
  show V c (Pipeline.arrRef spec6 1) (((cfg6.win 1).blk t).view.emb (ix1 q)) = _
  refine congrArg (V c (Pipeline.arrRef spec6 1)) (funext fun a => Fin.ext ?_)
  match a with
  | ⟨0, _⟩ => show win6_1.index t (0 : Fin 1) * 128 + 1 * q.val = q.val; omega

/-- Entry (p, q) of the result block at grid point t is entry (10000·t + p, q) of the result. -/
theorem resultBlock6_emb (t : Fin cfg6.N) (p : Fin 10000) (q : Fin 128) (r : Fin 100000)
    (hr : r.val = t.val * 10000 + p.val) :
    ((cfg6.win 2).blk t).view.emb (ix2 p q) = ix2 r q := by
  obtain ⟨-, -, -, e4, e5⟩ := blockIndex6 t
  funext a; apply Fin.ext
  match a with
  | ⟨0, _⟩ => show win6_2.index t (0 : Fin 2) * 10000 + 1 * p.val = r.val; omega
  | ⟨1, _⟩ => show win6_2.index t (1 : Fin 2) * 128 + 1 * q.val = q.val; omega

/-- What grid point t writes back is block t of the stage applied to the arrays the region finds. -/
theorem written6 (c : Dev nD) (t : Fin cfg6.N) :
    (dat6 (F := Ideal) V c).flushed 2 t
      = ((cfg6.win 2).blk t).view.read (Elt Ideal)
          (Cert.Gcn.activate (V c (Pipeline.arrRef spec6 0)) (V c (Pipeline.arrRef spec6 1))) := by
  show (cfg6.win 2).cut (grid6.coords t) ((dat6 V c).after 2 t) = _
  rw [after6_2]
  unfold out6_2
  rw [View.canon_unit_zero zeroOffsets6]
  simp only [View.ld_unit_zero (S := S10000x128) zeroOffsets6, View.ld_unit_zero (S := S128) zeroOffset6]
  have ht : t.val < 10 := by have h := t.isLt; have hN : cfg6.N = 10 := N_6; omega
  funext j
  obtain ⟨p, q, rfl⟩ : ∃ (p : Fin 10000) (q : Fin 128), j = ix2 p q := ⟨j 0, j 1, eq_ix2 j⟩
  have hp : p.val < 10000 := p.isLt
  show k6_pay1 (F := Ideal) (iblk6 V c 0 t) (iblk6 V c 1 t) (ix2 p q)
    = Cert.Gcn.activate (V c (Pipeline.arrRef spec6 0)) (V c (Pipeline.arrRef spec6 1)) (((cfg6.win 2).blk t).view.emb (ix2 p q))
  rw [resultBlock6_emb t p q ⟨t.val * 10000 + p.val, by omega⟩ rfl]
  exact blockUnit6_eq_activate (iblk6 V c 0 t) (iblk6 V c 1 t) (V c (Pipeline.arrRef spec6 0))
    (V c (Pipeline.arrRef spec6 1)) p q ⟨t.val * 10000 + p.val, by omega⟩
    (nodeBlock6_apply V c t p q _ rfl) (biasBlock6_apply V c t q)

/-- An entry of the result is in grid point t's block exactly when each coordinate is in the block's range. -/
theorem mem_block6 (t : Fin cfg6.N) (i : S100000x128.Idx) :
    i ∈ ((cfg6.win 2).blk t).view.set ↔ ∀ a : Fin 2, win6_2.index t a * S10000x128.size a ≤ (i a).val
      ∧ (i a).val < win6_2.index t a * S10000x128.size a + S10000x128.size a := by
  show i ∈ ((View.whole (Pipeline.arrRef spec6 2)).slice (win6_2.rect t)).set ↔ _
  rw [View.set_slice_whole, Rect.mem_set_unit]
  exact Iff.rfl

/-- Every entry of the result is written: row r by grid point r / 10000. -/
theorem covered6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 10 := N_6
  let t : Fin cfg6.N := ⟨(i 0).val / 10000, by rw [hN]; omega⟩
  obtain ⟨-, -, -, e4, e5⟩ := blockIndex6 t
  have e4' : win6_2.index t (0 : Fin 2) = (i 0).val / 10000 := e4
  refine ⟨t, flush6_2 t, ?_⟩
  rw [mem_block6]
  intro a
  match a with
  | ⟨0, _⟩ =>
    show win6_2.index t (0 : Fin 2) * 10000 ≤ (i 0).val ∧ (i 0).val < win6_2.index t (0 : Fin 2) * 10000 + 10000
    omega
  | ⟨1, _⟩ =>
    show win6_2.index t (1 : Fin 2) * 128 ≤ (i 1).val ∧ (i 1).val < win6_2.index t (1 : Fin 2) * 128 + 128
    omega

/-- After region 6 its result array holds the bias-and-unit stage of the node matrix and the bias row as the
    region found them. -/
theorem activate6 (c : Dev nD) :
    (dat6 (F := Ideal) V c).arrAt 2 cfg6.N
      = Cert.Gcn.activate (V c (Pipeline.arrRef spec6 0)) (V c (Pipeline.arrRef spec6 1)) :=
  (dat6 (F := Ideal) V c).arrAt_eq_of_cover 2 _ (fun t _ => written6 V c t) (covered6)

end Cert.KernelIdeal.Tiles

end
-- ==== Proof.Tile7.lean ====
/-
  The last region of the tiled program: the head of the network, on all 512 graphs at once.

  The region has one grid point; each of its six windows is its whole array. Its body multiplies the 512 × 128
  summed graph means by a 128 × 128 matrix into a zero accumulator, adds a bias row, applies the exponential linear
  unit, multiplies by a 128 × 10 matrix, adds a bias row, and takes the logarithmic softmax of each row: subtract
  the row's largest entry, then subtract the logarithm of the sum of the exponentials. The reference spells the
  same stage with host operations. The two spellings agree operation by operation as whole arrays: a product into
  a zero accumulator is the host's product (both are the same sum over the contracted index, changes of float
  format being the identity on extended reals); a row cast to one row and repeated down the rows is the row
  broadcast along the other axis; `exp y - 1` is one times `expm1 y`; a row maximum folded from minus infinity is
  unchanged by a further maximum with minus infinity; a column cast and repeated across the classes is the column
  broadcast; a row sum from zero is the host's sum with initial value zero. The one block written is the whole result.
-/
import proofs.«159488_j4544075399263_1_alg».proof.Proof.Gen.KernelIdeal.Frame
import proofs.«159488_j4544075399263_1_alg».proof.Proof.Gcn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Tiles

open Cert.KernelIdeal Cert.KernelIdeal.Gen
open Idealize.ShloMosaic Idealize.ShloMosaic.TcCoe Idealize.ShloMosaic.ValueIdx Idealize.SL.Sem
open Idealize.ShloMosaic.Pipeline (Dat)

/-! ## The body's operations and the host's, as whole arrays -/

/-- The word of `1.0` denotes one. -/
theorem one_word7 : Ideal.ofBits .f32 0x3F800000#32 = 1 := by
  simp [Ideal.ofBits, Ideal.ieee, -EReal.coe_mul]; norm_num

/-- a product into a zero accumulator is the host's product, for equal dimension records -/
theorem dense7_eq {sl sr so : Shape} (dK dR : DotDims sl sr so) (hd : dK = dR) (l : FVec Ideal sl .f32) (r : FVec Ideal sr .f32)
    (h1 : FTy.bf16.bits < FTy.f32.bits) :
    matmul dK none (truncf .bf16 l h1) (truncf .bf16 r h1) (constant (F := Ideal) so .f32 0x00000000#32)
      = Host.dotGeneral (F := Ideal) dR none l r := by
  subst hd
  funext j
  refine (Ideal.matmul_constant_zero_apply dK none (truncf .bf16 l h1) (truncf .bf16 r h1) j).trans ?_
  simp only [Host.dotGeneral]
  rw [Ideal.dotGeneral_apply]
  rfl

/-- a bias row repeated down the rows, in the two spellings -/
theorem biasRows7_eq {a b : Nat} (v : FVec Ideal ⟨1, ![b]⟩ .f32) (hc : (⟨1, ![b]⟩ : Shape).ShapeCasts ⟨2, ![1, b]⟩)
    (hb : (⟨2, ![1, b]⟩ : Shape).Broadcasts ⟨2, ![a, b]⟩)
    (h1 : (⟨1, ![b]⟩ : Shape).BroadcastsInDim ⟨2, ![1, b]⟩ ![1]) (h2 : (⟨2, ![1, b]⟩ : Shape).BroadcastsInDim ⟨2, ![a, b]⟩ ![0, 1]) :
    broadcastTo ⟨2, ![a, b]⟩ (shapeCast ⟨2, ![1, b]⟩ v hc) hb
      = broadcastInDim ⟨2, ![a, b]⟩ ![0, 1] h2 (broadcastInDim ⟨2, ![1, b]⟩ ![1] h1 v) := by
  funext j
  obtain ⟨p, q, rfl⟩ : ∃ (p : Fin a) (q : Fin b), j = ix2 p q := ⟨j 0, j 1, eq_ix2 j⟩
  rw [broadcastTo_1b_ab_apply, shapeCast_a_1a_apply]
  symm
  refine (broadcastInDim_apply _ h2 _ (ix2 p q) (ix2 (0 : Fin 1) q) fun ax => ?_).trans ?_
  · match ax with
    | ⟨0, _⟩ => rfl
    | ⟨1, _⟩ =>
      show q.val = if b = 1 then 0 else q.val
      split
      · have := q.isLt; omega
      · rfl
  · refine broadcastInDim_apply _ h1 _ (ix2 (0 : Fin 1) q) (ix1 q) fun ax => ?_
    match ax with
    | ⟨0, _⟩ =>
      show q.val = if b = 1 then 0 else q.val
      split
      · have := q.isLt; omega
      · rfl

/-- the unit, in the two spellings -/
theorem unit7_eq (y : FVec Ideal S512x128 .f32) :
    select (cmpf .ogt y (broadcast S512x128 (Scalar.ofBits (F := Ideal) .f32 0x00000000#32))) y
        (subf (exp y) (broadcast S512x128 (Scalar.ofBits (F := Ideal) .f32 0x3F800000#32)))
      = Cert.Gcn.eluG y := by
  funext i
  show Scalar.select (FloatOps.cmpf .ogt (y i) (Ideal.ofBits .f32 0x00000000#32)) (y i) (Ideal.exp (y i) - Ideal.ofBits .f32 0x3F800000#32)
     = Scalar.select (FloatOps.cmpf .ogt (y i) (Ideal.ofBits .f32 0x00000000#32)) (y i)
        (Ideal.ofBits .f32 0x3F800000#32 * (Ideal.exp (Scalar.select (FloatOps.cmpf .ogt (y i) (Ideal.ofBits .f32 0x00000000#32)) (Ideal.ofBits .f32 0x00000000#32) (y i)) - 1))
  generalize FloatOps.cmpf .ogt (y i) (Ideal.ofBits .f32 0x00000000#32) = c
  rcases BitVec.eq_zero_or_eq_one c with h | h <;> subst h
  · show Ideal.exp (y i) - Ideal.ofBits .f32 0x3F800000#32 = Ideal.ofBits .f32 0x3F800000#32 * (Ideal.exp (y i) - 1)
    rw [one_word7, one_mul]
  · rfl

/-- the largest entry of each row, in the two spellings -/
theorem rowMax7_eq (v : FVec Ideal S512x10 .f32) (hred : S512x10.Reduces [1] S512) (hto : S512x10.ReducesTo [1] S512)
    (hφ : FKind.Formats .f32) (hacc : (0xFF800000#32 : BitVec 32) = FKind.maximumf.neutral .f32 hφ)
    (hS : 0 < S_.numel) (hb : S_.BroadcastsInDim S512 ![]) :
    multiReduction .maximumf [1] S512 v 0xFF800000#32 hred hφ hacc
      = maximumf (broadcastInDim S512 ![] hb (constant (F := Ideal) S_ .f32 0xFF800000#32))
          (Host.reduce FloatOps.maximumf v (constant (F := Ideal) S_ .f32 0xFF800000#32) hto hS) := by
  funext j
  refine (Ideal.multiReduction_maximumf_single v _ hred hφ hacc j).trans ?_
  rw [maximumf_apply]
  have e := Host.reduce_eq_fold_single (max : EReal → EReal → EReal) v (constant (F := Ideal) S_ .f32 0xFF800000#32) hto hred hS j
  refine Eq.trans ?_ (congrArg (max _) e.symm)
  show Finset.fold max (Ideal.ofBits .f32 0xFF800000#32) (v ∘ hred.lift j) Finset.univ
     = max (Ideal.ofBits .f32 0xFF800000#32) (Finset.fold max (Ideal.ofBits .f32 0xFF800000#32) (v ∘ hred.lift j) Finset.univ)
  exact (max_eq_right ((Finset.le_fold_max _).mpr (Or.inl le_rfl))).symm

/-- a list of 512 numbers cast to a column is the list broadcast along the new axis -/
theorem castColumn7_eq (v : FVec Ideal S512 .f32) (hc : S512.ShapeCasts S512x1) (h1 : S512.BroadcastsInDim S512x1 ![0]) :
    shapeCast S512x1 v hc = broadcastInDim S512x1 ![0] h1 v := by
  funext j
  obtain ⟨p, q, rfl⟩ : ∃ (p : Fin 512) (q : Fin 1), j = ix2 p q := ⟨j 0, j 1, eq_ix2 j⟩
  have hq : q.val = 0 := by omega
  have eL : shapeCast S512x1 v hc (ix2 p q) = v (ix1 p) := by
    refine shapeCast_apply v hc _ (ix1 p) ?_
    rw [Shape.rowMajor_val_two, Shape.rowMajor_val_one]
    show p.val = p.val * 1 + q.val
    omega
  have eR : broadcastInDim S512x1 ![0] h1 v (ix2 p q) = v (ix1 p) := by
    refine broadcastInDim_apply _ h1 _ (ix2 p q) (ix1 p) fun ax => ?_
    match ax with
    | ⟨0, _⟩ => rfl
  rw [eL, eR]

/-- a column repeated across the ten classes, in the two spellings -/
theorem spreadColumn7_eq (u : FVec Ideal S512x1 .f32) (hb : S512x1.Broadcasts S512x10) (h2 : S512x1.BroadcastsInDim S512x10 ![0, 1]) :
    broadcastTo S512x10 u hb = broadcastInDim S512x10 ![0, 1] h2 u := by
  funext j
  obtain ⟨p, q, rfl⟩ : ∃ (p : Fin 512) (q : Fin 10), j = ix2 p q := ⟨j 0, j 1, eq_ix2 j⟩
  have eL : broadcastTo S512x10 u hb (ix2 p q) = u (ix2 p (0 : Fin 1)) := by
    refine broadcastTo_apply _ hb (ix2 p q) (ix2 p (0 : Fin 1)) fun ax => ?_
    match ax with
    | ⟨0, _⟩ => rfl
    | ⟨1, _⟩ => rfl
  have eR : broadcastInDim S512x10 ![0, 1] h2 u (ix2 p q) = u (ix2 p (0 : Fin 1)) := by
    refine broadcastInDim_apply _ h2 _ (ix2 p q) (ix2 p (0 : Fin 1)) fun ax => ?_
    match ax with
    | ⟨0, _⟩ => rfl
    | ⟨1, _⟩ => rfl
  rw [eL, eR]

/-- the sum of each row, in the two spellings -/
theorem rowSum7_eq (v : FVec Ideal S512x10 .f32) (hred : S512x10.Reduces [1] S512) (hto : S512x10.ReducesTo [1] S512)
    (hφ : FKind.Formats .f32) (hacc : (0x00000000#32 : BitVec 32) = FKind.add.neutral .f32 hφ) (hS : 0 < S_.numel) :
    multiReduction .add [1] S512 v 0x00000000#32 hred hφ hacc
      = Host.reduceAdd (F := Ideal) v (constant (F := Ideal) S_ .f32 0x00000000#32) hto hS := by
  funext j
  refine (Ideal.multiReduction_add_single v _ hred hφ hacc j).trans ?_
  simp only [Host.reduceAdd]
  rw [Ideal.hostReduceAdd_def, Ideal.hostReduceAdd_single hto hred]
  show _ = Ideal.ofBits .f32 0x00000000#32 + _
  rw [Ideal.ofBits_zero_f32, zero_add]

/-! ## The body's logarithmic softmax -/

/-- The body's last operations on the 512 × 10 scores `z`: subtract each row's largest entry, then the logarithm of
    the row's summed exponentials. -/
def bodyLogSoftmax7 (z : FVec Ideal S512x10 .f32) : FVec Ideal S512x10 .f32 :=
  subf
    (subf z (broadcastTo S512x10 (shapeCast S512x1
      (multiReduction .maximumf [1] S512 z 0xFF800000#32 Gen.reduces_S512x10_S512 (.inl rfl) rfl) Gen.shapeCasts_S512_S512x1) Gen.broadcasts_S512x1_S512x10))
    (broadcastTo S512x10 (log (shapeCast S512x1
      (multiReduction .add [1] S512
        (exp (subf z (broadcastTo S512x10 (shapeCast S512x1
          (multiReduction .maximumf [1] S512 z 0xFF800000#32 Gen.reduces_S512x10_S512 (.inl rfl) rfl) Gen.shapeCasts_S512_S512x1) Gen.broadcasts_S512x1_S512x10)))
        0x00000000#32 Gen.reduces_S512x10_S512 (.inl rfl) rfl) Gen.shapeCasts_S512_S512x1)) Gen.broadcasts_S512x1_S512x10)

theorem bodyLogSoftmax_eq (z : FVec Ideal S512x10 .f32) : bodyLogSoftmax7 z = Cert.Gcn.logSoftmax z := by
  unfold bodyLogSoftmax7 Cert.Gcn.logSoftmax
  rw [rowMax7_eq z Gen.reduces_S512x10_S512 Cert.ReferenceIdeal.Facts₀.reducesTo_S512x10_S512_d1 (.inl rfl) rfl
      Cert.ReferenceIdeal.Facts₀.h_S_ Cert.ReferenceIdeal.Facts₀.bcast_S_S512,
    castColumn7_eq _ Gen.shapeCasts_S512_S512x1 Cert.ReferenceIdeal.Facts₀.bcast_S512_S512x1_0,
    spreadColumn7_eq _ Gen.broadcasts_S512x1_S512x10 Cert.ReferenceIdeal.Facts₀.bcast_S512x1_S512x10_0_1,
    rowSum7_eq _ Gen.reduces_S512x10_S512 Cert.ReferenceIdeal.Facts₀.reducesTo_S512x10_S512_d1 (.inl rfl) rfl Cert.ReferenceIdeal.Facts₀.h_S_,
    castColumn7_eq _ Gen.shapeCasts_S512_S512x1 Cert.ReferenceIdeal.Facts₀.bcast_S512_S512x1_0,
    spreadColumn7_eq _ Gen.broadcasts_S512x1_S512x10 Cert.ReferenceIdeal.Facts₀.bcast_S512x1_S512x10_0_1]
  rfl

/-! ## The body's result is the head of its operands -/

/-- What the body stores, as a function of the five arrays it loads, is the head. -/
theorem head7_payload (r : Vec Ideal S512x128 .f32) (w1 : Vec Ideal S128x128 .f32) (b1 : Vec Ideal S128 .f32)
    (w2 : Vec Ideal S128x10 .f32) (b2 : Vec Ideal S10 .f32) :
    k7_pay1 (F := Ideal) r w1 b1 w2 b2 = Cert.Gcn.head r w1 b1 w2 b2 := by
  unfold k7_pay1 Cert.Gcn.head
  simp only [shapeCast_self]
  rw [dense7_eq dot_S512x128_S128x128_S512x128_1_0_0_1_n_n Cert.ReferenceIdeal.dot_S512x128_S128x128_S512x128_1_0_0_1_n_n rfl,
    biasRows7_eq b1 _ _ Cert.ReferenceIdeal.Facts₀.bcast_S128_S1x128_1 Cert.ReferenceIdeal.Facts₀.bcast_S1x128_S512x128_0_1,
    unit7_eq,
    dense7_eq dot_S512x128_S128x10_S512x10_1_0_0_1_n_n Cert.ReferenceIdeal.dot_S512x128_S128x10_S512x10_1_0_0_1_n_n rfl,
    biasRows7_eq b2 _ _ Cert.ReferenceIdeal.Facts₀.bcast_S10_S1x10_1 Cert.ReferenceIdeal.Facts₀.bcast_S1x10_S512x10_0_1]
  exact bodyLogSoftmax_eq _

/-! ## The one block is the whole result -/

variable (V : (c : Dev nD) → (b : Ref sig .tc) → Buf (Elt Ideal) ((c : Thread nD τ).loc b))

theorem noOffsetMatrix7 : (![0, 0] : Fin 2 → Nat) = fun _ => 0 := funext fun a => by fin_cases a <;> rfl
theorem noOffsetRow7 : (![0] : Fin 1 → Nat) = fun _ => 0 := funext fun a => by fin_cases a; rfl

/-- At the region's one grid point every window's block is block 0 along every axis. -/
theorem blockIndex7 : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0
    ∧ win7_4.index t (0 : Fin 1) = 0
    ∧ win7_5.index t (0 : Fin 2) = 0 ∧ win7_5.index t (1 : Fin 2) = 0 :=
  (by decide +kernel : ∀ t : Fin grid7.N, _)

/-- The body's result at an entry, for operands that agree entry by entry with five whole arrays, is the head of
    those arrays at that entry. -/
theorem head7_of_blocks (r : Vec Ideal S512x128 .f32) (w1 : Vec Ideal S128x128 .f32) (b1 : Vec Ideal S128 .f32)
    (w2 : Vec Ideal S128x10 .f32) (b2 : Vec Ideal S10 .f32)
    (r' : Cert.Gcn.CF Cert.ReferenceIdeal.S512x128) (w1' : Cert.Gcn.CF Cert.ReferenceIdeal.S128x128)
    (b1' : Cert.Gcn.CF Cert.ReferenceIdeal.S128) (w2' : Cert.Gcn.CF Cert.ReferenceIdeal.S128x10) (b2' : Cert.Gcn.CF Cert.ReferenceIdeal.S10)
    (hr : ∀ (p : Fin 512) (q : Fin 128), r (ix2 p q) = r' (ix2 p q))
    (hw1 : ∀ (p : Fin 128) (q : Fin 128), w1 (ix2 p q) = w1' (ix2 p q))
    (hb1 : ∀ q : Fin 128, b1 (ix1 q) = b1' (ix1 q))
    (hw2 : ∀ (p : Fin 128) (q : Fin 10), w2 (ix2 p q) = w2' (ix2 p q))
    (hb2 : ∀ q : Fin 10, b2 (ix1 q) = b2' (ix1 q)) (p : Fin 512) (q : Fin 10) :
    k7_pay1 (F := Ideal) r w1 b1 w2 b2 (ix2 p q) = Cert.Gcn.head r' w1' b1' w2' b2' (ix2 p q) := by
  have e0 : r = r' := funext fun i => by rw [eq_ix2 i]; exact hr _ _
  have e1 : w1 = w1' := funext fun i => by rw [eq_ix2 i]; exact hw1 _ _
  have e2 : b1 = b1' := funext fun i => by rw [eq_ix1 i]; exact hb1 _
  have e3 : w2 = w2' := funext fun i => by rw [eq_ix2 i]; exact hw2 _ _
  have e4 : b2 = b2' := funext fun i => by rw [eq_ix1 i]; exact hb2 _
  subst e0 e1 e2 e3 e4
  rw [head7_payload]

/-- What the grid point writes back is the head of the arrays the region finds, read through the result's one block. -/
theorem written7 (c : Dev nD) (t : Fin cfg7.N) :
    (dat7 (F := Ideal) V c).flushed 5 t
      = ((cfg7.win 5).blk t).view.read (Elt Ideal)
          (Cert.Gcn.head (V c (Pipeline.arrRef spec7 0)) (V c (Pipeline.arrRef spec7 1)) (V c (Pipeline.arrRef spec7 2))
            (V c (Pipeline.arrRef spec7 3)) (V c (Pipeline.arrRef spec7 4))) := by
  show (cfg7.win 5).cut (grid7.coords t) ((dat7 V c).after 5 t) = _
  rw [after7_5]
  unfold out7_5
  rw [View.canon_unit_zero noOffsetMatrix7]
  simp only [View.ld_unit_zero (S := S512x128) noOffsetMatrix7, View.ld_unit_zero (S := S128x128) noOffsetMatrix7,
    View.ld_unit_zero (S := S128) noOffsetRow7, View.ld_unit_zero (S := S128x10) noOffsetMatrix7, View.ld_unit_zero (S := S10) noOffsetRow7]
  obtain ⟨e0, e1, e2, e3, e4, e5, e6, e7, e8, e9⟩ := blockIndex7 t
  funext j
  have hj0 : (j 0).val < 512 := (j 0).isLt
  have hj1 : (j 1).val < 10 := (j 1).isLt
  show k7_pay1 (F := Ideal) (iblk7 V c 0 t) (iblk7 V c 1 t) (iblk7 V c 2 t) (iblk7 V c 3 t) (iblk7 V c 4 t) j
    = Cert.Gcn.head (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb j)
  have hrow : ((cfg7.win 5).blk t).view.emb j = ix2 (⟨(j 0).val, hj0⟩ : Fin 512) (⟨(j 1).val, hj1⟩ : Fin 10) := by
    funext a; apply Fin.ext
    match a with
    | ⟨0, _⟩ => show win7_5.index t (0 : Fin 2) * 512 + 1 * (j 0).val = (j 0).val; omega
    | ⟨1, _⟩ => show win7_5.index t (1 : Fin 2) * 10 + 1 * (j 1).val = (j 1).val; omega
  have hj : j = ix2 (⟨(j 0).val, hj0⟩ : Fin 512) (⟨(j 1).val, hj1⟩ : Fin 10) := by
    funext a; apply Fin.ext
    match a with
    | ⟨0, _⟩ => rfl
    | ⟨1, _⟩ => rfl
  rw [hrow]
  refine (congrArg (k7_pay1 (F := Ideal) (iblk7 V c 0 t) (iblk7 V c 1 t) (iblk7 V c 2 t) (iblk7 V c 3 t) (iblk7 V c 4 t)) hj).trans ?_
  refine head7_of_blocks (iblk7 V c 0 t) (iblk7 V c 1 t) (iblk7 V c 2 t) (iblk7 V c 3 t) (iblk7 V c 4 t)
    (V c (Pipeline.arrRef spec7 0)) (V c (Pipeline.arrRef spec7 1)) (V c (Pipeline.arrRef spec7 2))
    (V c (Pipeline.arrRef spec7 3)) (V c (Pipeline.arrRef spec7 4))
    (fun p q => ?_) (fun p q => ?_) (fun q => ?_) (fun p q => ?_) (fun q => ?_) ⟨(j 0).val, hj0⟩ ⟨(j 1).val, hj1⟩
  · show V c (Pipeline.arrRef spec7 0) (((cfg7.win 0).blk t).view.emb (ix2 p q)) = _
    congr 1
    funext a; apply Fin.ext
    match a with
    | ⟨0, _⟩ => show win7_0.index t (0 : Fin 2) * 512 + 1 * p.val = p.val; omega
    | ⟨1, _⟩ => show win7_0.index t (1 : Fin 2) * 128 + 1 * q.val = q.val; omega
  · show V c (Pipeline.arrRef spec7 1) (((cfg7.win 1).blk t).view.emb (ix2 p q)) = _
    congr 1
    funext a; apply Fin.ext
    match a with
    | ⟨0, _⟩ => show win7_1.index t (0 : Fin 2) * 128 + 1 * p.val = p.val; omega
    | ⟨1, _⟩ => show win7_1.index t (1 : Fin 2) * 128 + 1 * q.val = q.val; omega
  · show V c (Pipeline.arrRef spec7 2) (((cfg7.win 2).blk t).view.emb (ix1 q)) = _
    congr 1
    funext a; apply Fin.ext
    match a with
    | ⟨0, _⟩ => show win7_2.index t (0 : Fin 1) * 128 + 1 * q.val = q.val; omega
  · show V c (Pipeline.arrRef spec7 3) (((cfg7.win 3).blk t).view.emb (ix2 p q)) = _
    congr 1
    funext a; apply Fin.ext
    match a with
    | ⟨0, _⟩ => show win7_3.index t (0 : Fin 2) * 128 + 1 * p.val = p.val; omega
    | ⟨1, _⟩ => show win7_3.index t (1 : Fin 2) * 10 + 1 * q.val = q.val; omega
  · show V c (Pipeline.arrRef spec7 4) (((cfg7.win 4).blk t).view.emb (ix1 q)) = _
    congr 1
    funext a; apply Fin.ext
    match a with
    | ⟨0, _⟩ => show win7_4.index t (0 : Fin 1) * 10 + 1 * q.val = q.val; omega

/-- An entry of the result is in the grid point's block exactly when each coordinate is in the block's range. -/
theorem mem_block7 (t : Fin cfg7.N) (i : S512x10.Idx) :
    i ∈ ((cfg7.win 5).blk t).view.set ↔ ∀ a : Fin 2, win7_5.index t a * S512x10.size a ≤ (i a).val
      ∧ (i a).val < win7_5.index t a * S512x10.size a + S512x10.size a := by
  show i ∈ ((View.whole (Pipeline.arrRef spec7 5)).slice (win7_5.rect t)).set ↔ _
  rw [View.set_slice_whole, Rect.mem_set_unit]
  exact Iff.rfl

/-- Every entry of the result is written by the one grid point. -/
theorem covered7 (i : S512x10.Idx) :
    ∃ t : Fin cfg7.N, (cfg7.win 5).flush t = true ∧ i ∈ ((cfg7.win 5).blk t).view.set := by
  have hi0 : (i 0).val < 512 := (i 0).isLt
  have hi1 : (i 1).val < 10 := (i 1).isLt
  have hN : cfg7.N = 1 := N_7
  let t : Fin cfg7.N := ⟨0, by rw [hN]; omega⟩
  obtain ⟨-, -, -, -, -, -, -, -, e8, e9⟩ := blockIndex7 t
  refine ⟨t, flush7_5 t, ?_⟩
  rw [mem_block7]
  intro a
  match a with
  | ⟨0, _⟩ =>
    show win7_5.index t (0 : Fin 2) * 512 ≤ (i 0).val ∧ (i 0).val < win7_5.index t (0 : Fin 2) * 512 + 512
    omega
  | ⟨1, _⟩ =>
    show win7_5.index t (1 : Fin 2) * 10 ≤ (i 1).val ∧ (i 1).val < win7_5.index t (1 : Fin 2) * 10 + 10
    omega

/-- After the last region its result array holds the head of the five arrays the region found. -/
theorem head7 (c : Dev nD) :
    (dat7 (F := Ideal) V c).arrAt 5 cfg7.N
      = Cert.Gcn.head (V c (Pipeline.arrRef spec7 0)) (V c (Pipeline.arrRef spec7 1)) (V c (Pipeline.arrRef spec7 2))
          (V c (Pipeline.arrRef spec7 3)) (V c (Pipeline.arrRef spec7 4)) :=
  (dat7 (F := Ideal) V c).arrAt_eq_of_cover 5 _ (fun t _ => written7 V c t) (covered7)

end Cert.KernelIdeal.Tiles

end
-- ==== Proof.RefRunOps.lean ====
/-
  The reference program's run, read back as the graph network.

  The reference is one straight line of host operations: its six outlined functions (the exponential linear
  unit on the node matrix, four times; the same unit on the graph matrix; the logarithmic softmax) are lines
  of the same kind over the buffers of each call, so with every call replaced by the callee's lines the
  program is a list of 245 operations. The list is cut where the network's stages end: the edge, degree and
  graph-size prelude; the input layer; then for each of the three layers the projection, the message passing
  and the activation (three cuts), followed by that layer's graph mean and its addition to the running sum (the input
  layer's mean starts the sum); and the head.

  Each stage's result buffer, read after the stage's operations from ARBITRARY contents, is the stage's
  function (proof/Proof/Gcn.lean) of the contents of the buffers the stage reads; a buffer no operation of a
  stage writes keeps its contents. Chaining the stages, the result buffer after the whole list holds the
  network's value at the eleven argument arrays, which no operation writes. The run of the program then ends,
  on every device, with the result buffer at the network of the launch contents of the arguments and the
  arguments unchanged.
-/
import proofs.«159488_j4544075399263_1_alg».proof.Proof.Gcn
import proofs.«159488_j4544075399263_1_alg».proof.Proof.HostRead
import Idealize.ShloMosaic.Lib.StableHlo.Run

noncomputable section

namespace Cert.ReferenceIdeal.RefRun

open Cert.ReferenceIdeal Cert.ReferenceIdeal.Facts₀ Cert.HostRead
open Idealize.ShloMosaic Idealize.ShloMosaic.TcCoe Idealize.SL.Sem Idealize.ShloMosaic.StableHlo

variable {F : FTy → Type} [FloatOps F]

/-! ## The operations, stage by stage -/

/-- The edges with a loop at every node, the inverse square-root degrees, each edge's weight, and each graph's size. -/
def prelude : List (HloOp τ sig (Elt F)) :=
  [ StableHlo.unary main_arg9 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg9 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x3F800000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (maximumf : (⟨S100000, .f32⟩ : BufTy).Contents (Elt F) → (⟨S100000, .f32⟩ : BufTy).Contents (Elt F) → (⟨S100000, .f32⟩ : BufTy).Contents (Elt F)),
    StableHlo.unary main_v12 main_v13 (Host.rsqrt : (⟨S100000, .f32⟩ : BufTy).Contents (Elt F) → (⟨S100000, .f32⟩ : BufTy).Contents (Elt F)),
    StableHlo.nullary main_c (constantI S_ 32 0#32),
    StableHlo.unary main_c main_v14 (broadcastInDim S1700000 ![] bcast_S_S1700000 : (⟨S_, .i32⟩ : BufTy).Contents (Elt F) → (⟨S1700000, .i32⟩ : BufTy).Contents (Elt F)),
    StableHlo.binary main_v5 main_v14 main_v15 (cmpi .slt : (⟨S1700000, .i32⟩ : BufTy).Contents (Elt F) → (⟨S1700000, .i32⟩ : BufTy).Contents (Elt F) → (⟨S1700000, .i1⟩ : BufTy).Contents (Elt F)),
    StableHlo.nullary main_c_2 (constantI S_ 32 100000#32),
    StableHlo.unary main_c_2 main_v16 (broadcastInDim S1700000 ![] bcast_S_S1700000 : (⟨S_, .i32⟩ : BufTy).Contents (Elt F) → (⟨S1700000, .i32⟩ : BufTy).Contents (Elt F)),
    StableHlo.binary main_v5 main_v16 main_v17 (addi : (⟨S1700000, .i32⟩ : BufTy).Contents (Elt F) → (⟨S1700000, .i32⟩ : BufTy).Contents (Elt F) → (⟨S1700000, .i32⟩ : BufTy).Contents (Elt F)),
    StableHlo.ternary main_v15 main_v17 main_v5 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v18 main_v19 (broadcastInDim S1700000x1 ![0] bcast_S1700000_S1700000x1_0 : (⟨S1700000, .i32⟩ : BufTy).Contents (Elt F) → (⟨S1700000x1, .i32⟩ : BufTy).Contents (Elt F)),
    StableHlo.binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_3 (constantI S_ 32 0#32),
    StableHlo.unary main_c_3 main_v21 (broadcastInDim S1700000 ![] bcast_S_S1700000 : (⟨S_, .i32⟩ : BufTy).Contents (Elt F) → (⟨S1700000, .i32⟩ : BufTy).Contents (Elt F)),
    StableHlo.binary main_v6 main_v21 main_v22 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (addi : (⟨S1700000, .i32⟩ : BufTy).Contents (Elt F) → (⟨S1700000, .i32⟩ : BufTy).Contents (Elt F) → (⟨S1700000, .i32⟩ : BufTy).Contents (Elt F)),
    StableHlo.ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v25 main_v26 (broadcastInDim S1700000x1 ![0] bcast_S1700000_S1700000x1_0 : (⟨S1700000, .i32⟩ : BufTy).Contents (Elt F) → (⟨S1700000x1, .i32⟩ : BufTy).Contents (Elt F)),
    StableHlo.binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v20 main_v27 main_v28 (mulf : (⟨S1700000, .f32⟩ : BufTy).Contents (Elt F) → (⟨S1700000, .f32⟩ : BufTy).Contents (Elt F) → (⟨S1700000, .f32⟩ : BufTy).Contents (Elt F)),
    StableHlo.unary main_v28 main_v29 (broadcastInDim S1700000x1 ![0] bcast_S1700000_S1700000x1_0 : (⟨S1700000, .f32⟩ : BufTy).Contents (Elt F) → (⟨S1700000x1, .f32⟩ : BufTy).Contents (Elt F)),
    StableHlo.nullary main_cst_5 (constant S_ .f32 0x3F800000#32),
    StableHlo.unary main_cst_5 main_v30 (broadcastInDim S100000 ![] bcast_S_S100000 : (⟨S_, .f32⟩ : BufTy).Contents (Elt F) → (⟨S100000, .f32⟩ : BufTy).Contents (Elt F)),
    StableHlo.nullary main_cst_6 (constant S_ .f32 0x00000000#32),
    StableHlo.unary main_cst_6 main_v31 (broadcastInDim S512 ![] bcast_S_S512 : (⟨S_, .f32⟩ : BufTy).Contents (Elt F) → (⟨S512, .f32⟩ : BufTy).Contents (Elt F)),
    StableHlo.unary main_arg10 main_v32 (broadcastInDim S100000x1 ![0] bcast_S100000_S100000x1_0 : (⟨S100000, .i32⟩ : BufTy).Contents (Elt F) → (⟨S100000x1, .i32⟩ : BufTy).Contents (Elt F)),
    StableHlo.ternary main_v31 main_v32 main_v30 main_v33 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_7 (constant S_ .f32 0x3F800000#32),
    StableHlo.unary main_cst_7 main_v34 (broadcastInDim S512 ![] bcast_S_S512 : (⟨S_, .f32⟩ : BufTy).Contents (Elt F) → (⟨S512, .f32⟩ : BufTy).Contents (Elt F)),
    StableHlo.binary main_v33 main_v34 main_v35 (maximumf : (⟨S512, .f32⟩ : BufTy).Contents (Elt F) → (⟨S512, .f32⟩ : BufTy).Contents (Elt F) → (⟨S512, .f32⟩ : BufTy).Contents (Elt F)),
    StableHlo.unary main_v35 main_v36 (broadcastInDim S512x1 ![0] bcast_S512_S512x1_0 : (⟨S512, .f32⟩ : BufTy).Contents (Elt F) → (⟨S512x1, .f32⟩ : BufTy).Contents (Elt F)) ]

/-- The input layer: the projection, the bias, the unit (the first call of the node-matrix unit). -/
def input : List (HloOp τ sig (Elt F)) :=
  [ StableHlo.binary main_arg0 main_arg1 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v40 : StableHlo.TRef sig ⟨S100000x128, .f32⟩) main_call0.v0 main_call0.v1 (cmpf .ogt),
    StableHlo.TRef.nullary main_call0.cst_0 (constant S_ .f32 0x00000000#32),
    StableHlo.TRef.unary main_call0.cst_0 main_call0.v2 (broadcastInDim S100000x128 ![] bcast_S_S100000x128),
    StableHlo.TRef.binary (.of main_v40 : StableHlo.TRef sig ⟨S100000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x128 ![] bcast_S_S100000x128),
    StableHlo.TRef.ternary main_call0.v3 main_call0.call0.v1 (.of main_v40 : StableHlo.TRef sig ⟨S100000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x128 ![] bcast_S_S100000x128),
    StableHlo.TRef.binary main_call0.v6 main_call0.v5 main_call0.v7 mulf,
    StableHlo.TRef.ternary main_call0.v1 (.of main_v40 : StableHlo.TRef sig ⟨S100000x128, .f32⟩) main_call0.v7 main_call0.call1.v0 select ]

/-- The input layer's graph mean: it starts the running sum. -/
def mean0 : List (HloOp τ sig (Elt F)) :=
  [ StableHlo.nullary main_cst_8 (constant S_ .f32 0x00000000#32),
    StableHlo.unary main_cst_8 main_v42 (broadcastInDim S512x128 ![] bcast_S_S512x128 : (⟨S_, .f32⟩ : BufTy).Contents (Elt F) → (⟨S512x128, .f32⟩ : BufTy).Contents (Elt F)),
    StableHlo.unary main_arg10 main_v43 (broadcastInDim S100000x1 ![0] bcast_S100000_S100000x1_0 : (⟨S100000, .i32⟩ : BufTy).Contents (Elt F) → (⟨S100000x1, .i32⟩ : BufTy).Contents (Elt F)),
    StableHlo.ternary main_v42 main_v43 main_v41 main_v44 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.unary main_v36 main_v45 (broadcastInDim S512x128 ![0, 1] bcast_S512x1_S512x128_0_1 : (⟨S512x1, .f32⟩ : BufTy).Contents (Elt F) → (⟨S512x128, .f32⟩ : BufTy).Contents (Elt F)),
    StableHlo.binary main_v44 main_v45 main_v46 (Host.divf : (⟨S512x128, .f32⟩ : BufTy).Contents (Elt F) → (⟨S512x128, .f32⟩ : BufTy).Contents (Elt F) → (⟨S512x128, .f32⟩ : BufTy).Contents (Elt F)) ]

/-- Layer 1's weight matrix and the projection of the input layer's features. -/
def proj1 : List (HloOp τ sig (Elt F)) :=
  [ StableHlo.unary main_arg3 main_v47 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v47 main_v48 rfl shapeCasts_S1x128x128_S128x128,
    StableHlo.binary main_v41 main_v48 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Layer 1's message passing. -/
def prop1 : List (HloOp τ sig (Elt F)) :=
  [ StableHlo.nullary main_c_9 (constantI S_ 32 0#32),
    StableHlo.unary main_c_9 main_v50 (broadcastInDim S1700000 ![] bcast_S_S1700000 : (⟨S_, .i32⟩ : BufTy).Contents (Elt F) → (⟨S1700000, .i32⟩ : BufTy).Contents (Elt F)),
    StableHlo.binary main_v5 main_v50 main_v51 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v52 (broadcastInDim S1700000 ![] bcast_S_S1700000 : (⟨S_, .i32⟩ : BufTy).Contents (Elt F) → (⟨S1700000, .i32⟩ : BufTy).Contents (Elt F)),
    StableHlo.binary main_v5 main_v52 main_v53 (addi : (⟨S1700000, .i32⟩ : BufTy).Contents (Elt F) → (⟨S1700000, .i32⟩ : BufTy).Contents (Elt F) → (⟨S1700000, .i32⟩ : BufTy).Contents (Elt F)),
    StableHlo.ternary main_v51 main_v53 main_v5 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v54 main_v55 (broadcastInDim S1700000x1 ![0] bcast_S1700000_S1700000x1_0 : (⟨S1700000, .i32⟩ : BufTy).Contents (Elt F) → (⟨S1700000x1, .i32⟩ : BufTy).Contents (Elt F)),
    StableHlo.binary main_v49 main_v55 main_v56 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v57 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v57 main_v56 main_v58 (mulf : (⟨S1700000x128, .f32⟩ : BufTy).Contents (Elt F) → (⟨S1700000x128, .f32⟩ : BufTy).Contents (Elt F) → (⟨S1700000x128, .f32⟩ : BufTy).Contents (Elt F)),
    StableHlo.nullary main_cst_11 (constant S_ .f32 0x00000000#32),
    StableHlo.unary main_cst_11 main_v59 (broadcastInDim S100000x128 ![] bcast_S_S100000x128 : (⟨S_, .f32⟩ : BufTy).Contents (Elt F) → (⟨S100000x128, .f32⟩ : BufTy).Contents (Elt F)),
    StableHlo.unary main_v6 main_v60 (broadcastInDim S1700000x1 ![0] bcast_S1700000_S1700000x1_0 : (⟨S1700000, .i32⟩ : BufTy).Contents (Elt F) → (⟨S1700000x1, .i32⟩ : BufTy).Contents (Elt F)),
    StableHlo.ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Layer 1's bias row, its addition, and the unit. -/
def act1 : List (HloOp τ sig (Elt F)) :=
  [ StableHlo.unary main_arg4 main_v62 ((extractStridedSlice S1x128 ![0, 0] · slices_S3x128_S1x128_0_0) : (⟨S3x128, .f32⟩ : BufTy).Contents (Elt F) → (⟨S1x128, .f32⟩ : BufTy).Contents (Elt F)),
    StableHlo.reshape main_v62 main_v63 rfl shapeCasts_S1x128_S128,
    StableHlo.unary main_v63 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v65 main_v66 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v66 : StableHlo.TRef sig ⟨S100000x128, .f32⟩) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v66 : StableHlo.TRef sig ⟨S100000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v66 : StableHlo.TRef sig ⟨S100000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v66 : StableHlo.TRef sig ⟨S100000x128, .f32⟩) main_call1.v7 main_call1.call1.v0 select ]

/-- Layer 1's graph mean, added to the running sum. -/
def mean1 : List (HloOp τ sig (Elt F)) :=
  [ StableHlo.nullary main_cst_12 (constant S_ .f32 0x00000000#32),
    StableHlo.unary main_cst_12 main_v68 (broadcastInDim S512x128 ![] bcast_S_S512x128 : (⟨S_, .f32⟩ : BufTy).Contents (Elt F) → (⟨S512x128, .f32⟩ : BufTy).Contents (Elt F)),
    StableHlo.unary main_arg10 main_v69 (broadcastInDim S100000x1 ![0] bcast_S100000_S100000x1_0 : (⟨S100000, .i32⟩ : BufTy).Contents (Elt F) → (⟨S100000x1, .i32⟩ : BufTy).Contents (Elt F)),
    StableHlo.ternary main_v68 main_v69 main_v67 main_v70 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.unary main_v36 main_v71 (broadcastInDim S512x128 ![0, 1] bcast_S512x1_S512x128_0_1 : (⟨S512x1, .f32⟩ : BufTy).Contents (Elt F) → (⟨S512x128, .f32⟩ : BufTy).Contents (Elt F)),
    StableHlo.binary main_v70 main_v71 main_v72 (Host.divf : (⟨S512x128, .f32⟩ : BufTy).Contents (Elt F) → (⟨S512x128, .f32⟩ : BufTy).Contents (Elt F) → (⟨S512x128, .f32⟩ : BufTy).Contents (Elt F)),
    StableHlo.binary main_v46 main_v72 main_v73 (addf : (⟨S512x128, .f32⟩ : BufTy).Contents (Elt F) → (⟨S512x128, .f32⟩ : BufTy).Contents (Elt F) → (⟨S512x128, .f32⟩ : BufTy).Contents (Elt F)) ]

/-- Layer 2's weight matrix and the projection of layer 1's features. -/
def proj2 : List (HloOp τ sig (Elt F)) :=
  [ StableHlo.unary main_arg3 main_v74 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v74 main_v75 rfl shapeCasts_S1x128x128_S128x128,
    StableHlo.binary main_v67 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Layer 2's message passing. -/
def prop2 : List (HloOp τ sig (Elt F)) :=
  [ StableHlo.nullary main_c_13 (constantI S_ 32 0#32),
    StableHlo.unary main_c_13 main_v77 (broadcastInDim S1700000 ![] bcast_S_S1700000 : (⟨S_, .i32⟩ : BufTy).Contents (Elt F) → (⟨S1700000, .i32⟩ : BufTy).Contents (Elt F)),
    StableHlo.binary main_v5 main_v77 main_v78 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v79 (broadcastInDim S1700000 ![] bcast_S_S1700000 : (⟨S_, .i32⟩ : BufTy).Contents (Elt F) → (⟨S1700000, .i32⟩ : BufTy).Contents (Elt F)),
    StableHlo.binary main_v5 main_v79 main_v80 (addi : (⟨S1700000, .i32⟩ : BufTy).Contents (Elt F) → (⟨S1700000, .i32⟩ : BufTy).Contents (Elt F) → (⟨S1700000, .i32⟩ : BufTy).Contents (Elt F)),
    StableHlo.ternary main_v78 main_v80 main_v5 main_v81 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v81 main_v82 (broadcastInDim S1700000x1 ![0] bcast_S1700000_S1700000x1_0 : (⟨S1700000, .i32⟩ : BufTy).Contents (Elt F) → (⟨S1700000x1, .i32⟩ : BufTy).Contents (Elt F)),
    StableHlo.binary main_v76 main_v82 main_v83 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v84 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v84 main_v83 main_v85 (mulf : (⟨S1700000x128, .f32⟩ : BufTy).Contents (Elt F) → (⟨S1700000x128, .f32⟩ : BufTy).Contents (Elt F) → (⟨S1700000x128, .f32⟩ : BufTy).Contents (Elt F)),
    StableHlo.nullary main_cst_15 (constant S_ .f32 0x00000000#32),
    StableHlo.unary main_cst_15 main_v86 (broadcastInDim S100000x128 ![] bcast_S_S100000x128 : (⟨S_, .f32⟩ : BufTy).Contents (Elt F) → (⟨S100000x128, .f32⟩ : BufTy).Contents (Elt F)),
    StableHlo.unary main_v6 main_v87 (broadcastInDim S1700000x1 ![0] bcast_S1700000_S1700000x1_0 : (⟨S1700000, .i32⟩ : BufTy).Contents (Elt F) → (⟨S1700000x1, .i32⟩ : BufTy).Contents (Elt F)),
    StableHlo.ternary main_v86 main_v87 main_v85 main_v88 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Layer 2's bias row, its addition, and the unit. -/
def act2 : List (HloOp τ sig (Elt F)) :=
  [ StableHlo.unary main_arg4 main_v89 ((extractStridedSlice S1x128 ![1, 0] · slices_S3x128_S1x128_1_0) : (⟨S3x128, .f32⟩ : BufTy).Contents (Elt F) → (⟨S1x128, .f32⟩ : BufTy).Contents (Elt F)),
    StableHlo.reshape main_v89 main_v90 rfl shapeCasts_S1x128_S128,
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v92 main_v93 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v93 : StableHlo.TRef sig ⟨S100000x128, .f32⟩) main_call2.v0 main_call2.v1 (cmpf .ogt),
    StableHlo.TRef.nullary main_call2.cst_0 (constant S_ .f32 0x00000000#32),
    StableHlo.TRef.unary main_call2.cst_0 main_call2.v2 (broadcastInDim S100000x128 ![] bcast_S_S100000x128),
    StableHlo.TRef.binary (.of main_v93 : StableHlo.TRef sig ⟨S100000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x128 ![] bcast_S_S100000x128),
    StableHlo.TRef.ternary main_call2.v3 main_call2.call0.v1 (.of main_v93 : StableHlo.TRef sig ⟨S100000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x128 ![] bcast_S_S100000x128),
    StableHlo.TRef.binary main_call2.v6 main_call2.v5 main_call2.v7 mulf,
    StableHlo.TRef.ternary main_call2.v1 (.of main_v93 : StableHlo.TRef sig ⟨S100000x128, .f32⟩) main_call2.v7 main_call2.call1.v0 select ]

/-- Layer 2's graph mean, added to the running sum. -/
def mean2 : List (HloOp τ sig (Elt F)) :=
  [ StableHlo.nullary main_cst_16 (constant S_ .f32 0x00000000#32),
    StableHlo.unary main_cst_16 main_v95 (broadcastInDim S512x128 ![] bcast_S_S512x128 : (⟨S_, .f32⟩ : BufTy).Contents (Elt F) → (⟨S512x128, .f32⟩ : BufTy).Contents (Elt F)),
    StableHlo.unary main_arg10 main_v96 (broadcastInDim S100000x1 ![0] bcast_S100000_S100000x1_0 : (⟨S100000, .i32⟩ : BufTy).Contents (Elt F) → (⟨S100000x1, .i32⟩ : BufTy).Contents (Elt F)),
    StableHlo.ternary main_v95 main_v96 main_v94 main_v97 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.unary main_v36 main_v98 (broadcastInDim S512x128 ![0, 1] bcast_S512x1_S512x128_0_1 : (⟨S512x1, .f32⟩ : BufTy).Contents (Elt F) → (⟨S512x128, .f32⟩ : BufTy).Contents (Elt F)),
    StableHlo.binary main_v97 main_v98 main_v99 (Host.divf : (⟨S512x128, .f32⟩ : BufTy).Contents (Elt F) → (⟨S512x128, .f32⟩ : BufTy).Contents (Elt F) → (⟨S512x128, .f32⟩ : BufTy).Contents (Elt F)),
    StableHlo.binary main_v73 main_v99 main_v100 (addf : (⟨S512x128, .f32⟩ : BufTy).Contents (Elt F) → (⟨S512x128, .f32⟩ : BufTy).Contents (Elt F) → (⟨S512x128, .f32⟩ : BufTy).Contents (Elt F)) ]

/-- Layer 3's weight matrix and the projection of layer 2's features. -/
def proj3 : List (HloOp τ sig (Elt F)) :=
  [ StableHlo.unary main_arg3 main_v101 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v101 main_v102 rfl shapeCasts_S1x128x128_S128x128,
    StableHlo.binary main_v94 main_v102 main_v103 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Layer 3's message passing. -/
def prop3 : List (HloOp τ sig (Elt F)) :=
  [ StableHlo.nullary main_c_17 (constantI S_ 32 0#32),
    StableHlo.unary main_c_17 main_v104 (broadcastInDim S1700000 ![] bcast_S_S1700000 : (⟨S_, .i32⟩ : BufTy).Contents (Elt F) → (⟨S1700000, .i32⟩ : BufTy).Contents (Elt F)),
    StableHlo.binary main_v5 main_v104 main_v105 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v106 (broadcastInDim S1700000 ![] bcast_S_S1700000 : (⟨S_, .i32⟩ : BufTy).Contents (Elt F) → (⟨S1700000, .i32⟩ : BufTy).Contents (Elt F)),
    StableHlo.binary main_v5 main_v106 main_v107 (addi : (⟨S1700000, .i32⟩ : BufTy).Contents (Elt F) → (⟨S1700000, .i32⟩ : BufTy).Contents (Elt F) → (⟨S1700000, .i32⟩ : BufTy).Contents (Elt F)),
    StableHlo.ternary main_v105 main_v107 main_v5 main_v108 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v108 main_v109 (broadcastInDim S1700000x1 ![0] bcast_S1700000_S1700000x1_0 : (⟨S1700000, .i32⟩ : BufTy).Contents (Elt F) → (⟨S1700000x1, .i32⟩ : BufTy).Contents (Elt F)),
    StableHlo.binary main_v103 main_v109 main_v110 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v111 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v111 main_v110 main_v112 (mulf : (⟨S1700000x128, .f32⟩ : BufTy).Contents (Elt F) → (⟨S1700000x128, .f32⟩ : BufTy).Contents (Elt F) → (⟨S1700000x128, .f32⟩ : BufTy).Contents (Elt F)),
    StableHlo.nullary main_cst_19 (constant S_ .f32 0x00000000#32),
    StableHlo.unary main_cst_19 main_v113 (broadcastInDim S100000x128 ![] bcast_S_S100000x128 : (⟨S_, .f32⟩ : BufTy).Contents (Elt F) → (⟨S100000x128, .f32⟩ : BufTy).Contents (Elt F)),
    StableHlo.unary main_v6 main_v114 (broadcastInDim S1700000x1 ![0] bcast_S1700000_S1700000x1_0 : (⟨S1700000, .i32⟩ : BufTy).Contents (Elt F) → (⟨S1700000x1, .i32⟩ : BufTy).Contents (Elt F)),
    StableHlo.ternary main_v113 main_v114 main_v112 main_v115 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- Layer 3's bias row, its addition, and the unit. -/
def act3 : List (HloOp τ sig (Elt F)) :=
  [ StableHlo.unary main_arg4 main_v116 ((extractStridedSlice S1x128 ![2, 0] · slices_S3x128_S1x128_2_0) : (⟨S3x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v119 main_v120 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v120 : StableHlo.TRef sig ⟨S100000x128, .f32⟩) main_call3.v0 main_call3.v1 (cmpf .ogt),
    StableHlo.TRef.nullary main_call3.cst_0 (constant S_ .f32 0x00000000#32),
    StableHlo.TRef.unary main_call3.cst_0 main_call3.v2 (broadcastInDim S100000x128 ![] bcast_S_S100000x128),
    StableHlo.TRef.binary (.of main_v120 : StableHlo.TRef sig ⟨S100000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x128 ![] bcast_S_S100000x128),
    StableHlo.TRef.ternary main_call3.v3 main_call3.call0.v1 (.of main_v120 : StableHlo.TRef sig ⟨S100000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x128 ![] bcast_S_S100000x128),
    StableHlo.TRef.binary main_call3.v6 main_call3.v5 main_call3.v7 mulf,
    StableHlo.TRef.ternary main_call3.v1 (.of main_v120 : StableHlo.TRef sig ⟨S100000x128, .f32⟩) main_call3.v7 main_call3.call1.v0 select ]

/-- Layer 3's graph mean, added to the running sum. -/
def mean3 : List (HloOp τ sig (Elt F)) :=
  [ StableHlo.nullary main_cst_20 (constant S_ .f32 0x00000000#32),
    StableHlo.unary main_cst_20 main_v122 (broadcastInDim S512x128 ![] bcast_S_S512x128 : (⟨S_, .f32⟩ : BufTy).Contents (Elt F) → (⟨S512x128, .f32⟩ : BufTy).Contents (Elt F)),
    StableHlo.unary main_arg10 main_v123 (broadcastInDim S100000x1 ![0] bcast_S100000_S100000x1_0 : (⟨S100000, .i32⟩ : BufTy).Contents (Elt F) → (⟨S100000x1, .i32⟩ : BufTy).Contents (Elt F)),
    StableHlo.ternary main_v122 main_v123 main_v121 main_v124 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.unary main_v36 main_v125 (broadcastInDim S512x128 ![0, 1] bcast_S512x1_S512x128_0_1 : (⟨S512x1, .f32⟩ : BufTy).Contents (Elt F) → (⟨S512x128, .f32⟩ : BufTy).Contents (Elt F)),
    StableHlo.binary main_v124 main_v125 main_v126 (Host.divf : (⟨S512x128, .f32⟩ : BufTy).Contents (Elt F) → (⟨S512x128, .f32⟩ : BufTy).Contents (Elt F) → (⟨S512x128, .f32⟩ : BufTy).Contents (Elt F)),
    StableHlo.binary main_v100 main_v126 main_v127 (addf : (⟨S512x128, .f32⟩ : BufTy).Contents (Elt F) → (⟨S512x128, .f32⟩ : BufTy).Contents (Elt F) → (⟨S512x128, .f32⟩ : BufTy).Contents (Elt F)) ]

/-- The head: a dense layer with the unit on the graph matrix, a dense layer to ten classes, the logarithmic softmax. -/
def headOps : List (HloOp τ sig (Elt F)) :=
  [ StableHlo.binary main_v127 main_arg5 main_v128 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg6 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S512x128 ![0, 1] bcast_S1x128_S512x128_0_1 : (⟨S1x128, .f32⟩ : BufTy).Contents (Elt F) → (⟨S512x128, .f32⟩ : BufTy).Contents (Elt F)),
    StableHlo.binary main_v128 main_v130 main_v131 (addf : (⟨S512x128, .f32⟩ : BufTy).Contents (Elt F) → (⟨S512x128, .f32⟩ : BufTy).Contents (Elt F) → (⟨S512x128, .f32⟩ : BufTy).Contents (Elt F)),
    StableHlo.TRef.nullary main_call4.cst (constant S_ .f32 0x00000000#32),
    StableHlo.TRef.unary main_call4.cst main_call4.v0 (broadcastInDim S512x128 ![] bcast_S_S512x128),
    StableHlo.TRef.binary (.of main_v131 : StableHlo.TRef sig ⟨S512x128, .f32⟩) main_call4.v0 main_call4.v1 (cmpf .ogt),
    StableHlo.TRef.nullary main_call4.cst_0 (constant S_ .f32 0x00000000#32),
    StableHlo.TRef.unary main_call4.cst_0 main_call4.v2 (broadcastInDim S512x128 ![] bcast_S_S512x128),
    StableHlo.TRef.binary (.of main_v131 : StableHlo.TRef sig ⟨S512x128, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S512x128 ![] bcast_S_S512x128),
    StableHlo.TRef.ternary main_call4.v3 main_call4.call0.v1 (.of main_v131 : StableHlo.TRef sig ⟨S512x128, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S512x128 ![] bcast_S_S512x128),
    StableHlo.TRef.binary main_call4.v6 main_call4.v5 main_call4.v7 mulf,
    StableHlo.TRef.ternary main_call4.v1 (.of main_v131 : StableHlo.TRef sig ⟨S512x128, .f32⟩) main_call4.v7 main_call4.call1.v0 select,
    StableHlo.binary main_v132 main_arg7 main_v133 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.unary main_arg8 main_v134 (broadcastInDim S1x10 ![1] bcast_S10_S1x10_1 : (⟨S10, .f32⟩ : BufTy).Contents (Elt F) → (⟨S1x10, .f32⟩ : BufTy).Contents (Elt F)),
    StableHlo.unary main_v134 main_v135 (broadcastInDim S512x10 ![0, 1] bcast_S1x10_S512x10_0_1 : (⟨S1x10, .f32⟩ : BufTy).Contents (Elt F) → (⟨S512x10, .f32⟩ : BufTy).Contents (Elt F)),
    StableHlo.binary main_v133 main_v135 main_v136 (addf : (⟨S512x10, .f32⟩ : BufTy).Contents (Elt F) → (⟨S512x10, .f32⟩ : BufTy).Contents (Elt F) → (⟨S512x10, .f32⟩ : BufTy).Contents (Elt F)),
    StableHlo.TRef.nullary main_call5.cst (constant S_ .f32 0xFF800000#32),
    StableHlo.TRef.binary (.of main_v136 : StableHlo.TRef sig ⟨S512x10, .f32⟩) main_call5.cst main_call5.v0 (fun x v => Host.reduce FloatOps.maximumf x v reducesTo_S512x10_S512_d1 h_S_),
    StableHlo.TRef.nullary main_call5.cst_0 (constant S_ .f32 0xFF800000#32),
    StableHlo.TRef.unary main_call5.cst_0 main_call5.v1 (broadcastInDim S512 ![] bcast_S_S512),
    StableHlo.TRef.binary main_call5.v1 main_call5.v0 main_call5.v2 maximumf,
    StableHlo.TRef.unary main_call5.v2 main_call5.v3 (broadcastInDim S512x1 ![0] bcast_S512_S512x1_0),
    StableHlo.TRef.unary main_call5.v3 main_call5.v4 (broadcastInDim S512x10 ![0, 1] bcast_S512x1_S512x10_0_1),
    StableHlo.TRef.binary (.of main_v136 : StableHlo.TRef sig ⟨S512x10, .f32⟩) main_call5.v4 main_call5.v5 subf,
    StableHlo.TRef.unary main_call5.v5 main_call5.v6 Host.exp,
    StableHlo.TRef.nullary main_call5.cst_1 (constant S_ .f32 0x00000000#32),
    StableHlo.TRef.binary main_call5.v6 main_call5.cst_1 main_call5.v7 (fun x v => Host.reduceAdd x v reducesTo_S512x10_S512_d1 h_S_),
    StableHlo.TRef.unary main_call5.v7 main_call5.v8 (broadcastInDim S512x1 ![0] bcast_S512_S512x1_0),
    StableHlo.TRef.unary main_call5.v8 main_call5.v9 Host.log,
    StableHlo.TRef.unary main_call5.v9 main_call5.v10 (broadcastInDim S512x10 ![0, 1] bcast_S512x1_S512x10_0_1),
    StableHlo.TRef.binary main_call5.v5 main_call5.v10 main_call5.v11 subf ]

/-- The whole program's operations, in order. -/
def ops : List (HloOp τ sig (Elt F)) :=
  prelude ++ (input ++ (mean0 ++ (proj1 ++ (prop1 ++ (act1 ++ (mean1 ++ (proj2 ++ (prop2 ++ (act2 ++ (mean2 ++ (proj3 ++ (prop3 ++ (act3 ++ (mean3 ++ (headOps)))))))))))))))

/-! ## The program is that line -/

set_option maxRecDepth 65536 in
set_option maxHeartbeats 4000000 in
/-- The program is the straight line of `ops`: with the three windows of its text and the outlined functions'
    bodies unfolded at their calls, both sides are one chain of steps once sequencing is reassociated. -/
theorem main_eq (c : Dev nD) : main (F := F) c = seq ops := by
  simp only [main, main_part0, main_part1, main_part2, fn_elu.body, fn_where.body, fn_where_0.body, fn_elu_1.body,
    fn_where_2.body, fn_where_3.body, fn_log_softmax.body, ops, prelude, input, mean0, proj1, prop1, act1, mean1, proj2, prop2, act2, mean2, proj3, prop3, act3, mean3, headOps, seq_append, seq, bind_assoc, pure_bind]

/-- No buffer of the program is scoped to a region, and it has no semaphore: the whole device memory is live throughout. -/
theorem scopedRefs_eq : (Finset.univ.filter fun b : Ref sig .tc => b.isScoped) = ∅ := by decide
theorem scopedSems_eq : (Finset.univ.filter fun sm : SemLoc sig => sm.isScoped .tc) = ∅ := by decide

/-! ## Every operation touches device buffers only, and determines what it writes -/

theorem prelude_sub : (prelude : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem prelude_fresh : (prelude : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem input_sub : (input : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem input_fresh : (input : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem mean0_sub : (mean0 : List (HloOp τ sig (Elt F))).Forall fun op => op.bufs ⊆ tcRefs τ sig :=
  ⟨nullary_bufs_sub .., unary_bufs_sub .., unary_bufs_sub .., ternary_bufs_sub .., unary_bufs_sub .., binary_bufs_sub ..⟩
theorem mean0_fresh : (mean0 : List (HloOp τ sig (Elt F))).Forall fun op => op.fresh = ∅ :=
  ⟨rfl, rfl, rfl, rfl, rfl, rfl⟩

theorem proj1_sub : (proj1 : List (HloOp τ sig (Elt F))).Forall fun op => op.bufs ⊆ tcRefs τ sig :=
  ⟨unary_bufs_sub .., reshape_bufs_sub .., binary_bufs_sub ..⟩
theorem proj1_fresh : (proj1 : List (HloOp τ sig (Elt F))).Forall fun op => op.fresh = ∅ :=
  ⟨rfl, rfl, rfl⟩

theorem prop1_sub : (prop1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem prop1_fresh : (prop1 : List (HloOp τ sig (Elt F))).Forall fun op => op.fresh = ∅ :=
  ⟨rfl, rfl, rfl, rfl, rfl, rfl, rfl, rfl, rfl, rfl, rfl, rfl, rfl, rfl, rfl⟩

theorem act1_sub : (act1 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem act1_fresh : (act1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem mean1_sub : (mean1 : List (HloOp τ sig (Elt F))).Forall fun op => op.bufs ⊆ tcRefs τ sig :=
  ⟨nullary_bufs_sub .., unary_bufs_sub .., unary_bufs_sub .., ternary_bufs_sub .., unary_bufs_sub .., binary_bufs_sub .., binary_bufs_sub ..⟩
theorem mean1_fresh : (mean1 : List (HloOp τ sig (Elt F))).Forall fun op => op.fresh = ∅ :=
  ⟨rfl, rfl, rfl, rfl, rfl, rfl, rfl⟩

theorem proj2_sub : (proj2 : List (HloOp τ sig (Elt F))).Forall fun op => op.bufs ⊆ tcRefs τ sig :=
  ⟨unary_bufs_sub .., reshape_bufs_sub .., binary_bufs_sub ..⟩
theorem proj2_fresh : (proj2 : List (HloOp τ sig (Elt F))).Forall fun op => op.fresh = ∅ :=
  ⟨rfl, rfl, rfl⟩

theorem prop2_sub : (prop2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem prop2_fresh : (prop2 : List (HloOp τ sig (Elt F))).Forall fun op => op.fresh = ∅ :=
  ⟨rfl, rfl, rfl, rfl, rfl, rfl, rfl, rfl, rfl, rfl, rfl, rfl, rfl, rfl, rfl⟩

theorem act2_sub : (act2 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem act2_fresh : (act2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem mean2_sub : (mean2 : List (HloOp τ sig (Elt F))).Forall fun op => op.bufs ⊆ tcRefs τ sig :=
  ⟨nullary_bufs_sub .., unary_bufs_sub .., unary_bufs_sub .., ternary_bufs_sub .., unary_bufs_sub .., binary_bufs_sub .., binary_bufs_sub ..⟩
theorem mean2_fresh : (mean2 : List (HloOp τ sig (Elt F))).Forall fun op => op.fresh = ∅ :=
  ⟨rfl, rfl, rfl, rfl, rfl, rfl, rfl⟩

theorem proj3_sub : (proj3 : List (HloOp τ sig (Elt F))).Forall fun op => op.bufs ⊆ tcRefs τ sig :=
  ⟨unary_bufs_sub .., reshape_bufs_sub .., binary_bufs_sub ..⟩
theorem proj3_fresh : (proj3 : List (HloOp τ sig (Elt F))).Forall fun op => op.fresh = ∅ :=
  ⟨rfl, rfl, rfl⟩

theorem prop3_sub : (prop3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
theorem prop3_fresh : (prop3 : List (HloOp τ sig (Elt F))).Forall fun op => op.fresh = ∅ :=
  ⟨rfl, rfl, rfl, rfl, rfl, rfl, rfl, rfl, rfl, rfl, rfl, rfl, rfl, rfl, rfl⟩

theorem act3_sub : (act3 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem act3_fresh : (act3 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem mean3_sub : (mean3 : List (HloOp τ sig (Elt F))).Forall fun op => op.bufs ⊆ tcRefs τ sig :=
  ⟨nullary_bufs_sub .., unary_bufs_sub .., unary_bufs_sub .., ternary_bufs_sub .., unary_bufs_sub .., binary_bufs_sub .., binary_bufs_sub ..⟩
theorem mean3_fresh : (mean3 : List (HloOp τ sig (Elt F))).Forall fun op => op.fresh = ∅ :=
  ⟨rfl, rfl, rfl, rfl, rfl, rfl, rfl⟩

theorem headOps_sub : (headOps : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem headOps_fresh : (headOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.mpr ⟨prelude_sub, List.forall_append.mpr ⟨input_sub, List.forall_append.mpr ⟨mean0_sub, List.forall_append.mpr ⟨proj1_sub, List.forall_append.mpr ⟨prop1_sub, List.forall_append.mpr ⟨act1_sub, List.forall_append.mpr ⟨mean1_sub, List.forall_append.mpr ⟨proj2_sub, List.forall_append.mpr ⟨prop2_sub, List.forall_append.mpr ⟨act2_sub, List.forall_append.mpr ⟨mean2_sub, List.forall_append.mpr ⟨proj3_sub, List.forall_append.mpr ⟨prop3_sub, List.forall_append.mpr ⟨act3_sub, List.forall_append.mpr ⟨mean3_sub, headOps_sub⟩⟩⟩⟩⟩⟩⟩⟩⟩⟩⟩⟩⟩⟩⟩

theorem ops_fresh : ∀ op ∈ (ops : List (HloOp τ sig (Elt F))), op.fresh = ∅ :=
  List.forall_iff_forall_mem.mp (List.forall_append.mpr ⟨prelude_fresh, List.forall_append.mpr ⟨input_fresh, List.forall_append.mpr ⟨mean0_fresh, List.forall_append.mpr ⟨proj1_fresh, List.forall_append.mpr ⟨prop1_fresh, List.forall_append.mpr ⟨act1_fresh, List.forall_append.mpr ⟨mean1_fresh, List.forall_append.mpr ⟨proj2_fresh, List.forall_append.mpr ⟨prop2_fresh, List.forall_append.mpr ⟨act2_fresh, List.forall_append.mpr ⟨mean2_fresh, List.forall_append.mpr ⟨proj3_fresh, List.forall_append.mpr ⟨prop3_fresh, List.forall_append.mpr ⟨act3_fresh, List.forall_append.mpr ⟨mean3_fresh, headOps_fresh⟩⟩⟩⟩⟩⟩⟩⟩⟩⟩⟩⟩⟩⟩⟩)

/-- From any memory with zero counters every weakly fair execution of the program terminates, and each buffer ends
    at the fold of the operations over the device's launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefRun.lean ====
/-
  The reference program's run, read back as the graph network: the stages' values and the run.

  Each stage's result buffer, read after the stage's operations from ARBITRARY contents, is the stage's
  function (proof/Proof/Gcn.lean) of the contents of the buffers the stage reads; a buffer no operation of a
  stage writes keeps its contents. Chaining the stages, the result buffer after the whole list of operations
  holds the network's value at the eleven argument arrays, which no operation writes. The run of the program
  then ends, on every device, with the result buffer at the network of the launch contents of the arguments
  and the arguments unchanged.
-/
import proofs.«159488_j4544075399263_1_alg».proof.Proof.RefRunOps

noncomputable section

namespace Cert.ReferenceIdeal.RefRun

open Cert.ReferenceIdeal Cert.ReferenceIdeal.Facts₀ Cert.HostRead
open Idealize.ShloMosaic Idealize.ShloMosaic.TcCoe Idealize.SL.Sem Idealize.ShloMosaic.StableHlo

/-! ## Each stage's value, from arbitrary contents -/

section Stages
variable (V : Valuation τ sig (Elt Ideal))

set_option maxRecDepth 16384 in
theorem prelude_src :
    after (prelude (F := Ideal)) V (no_index (Proc.devRef .tc main_v5))
      = Cert.Gcn.src (V (Proc.devRef .tc main_arg9)) := by
  unfold prelude; after_results_simp; results_loop; rfl

set_option maxRecDepth 16384 in
theorem prelude_dst :
    after (prelude (F := Ideal)) V (no_index (Proc.devRef .tc main_v6))
      = Cert.Gcn.dst (V (Proc.devRef .tc main_arg9)) := by
  unfold prelude; after_results_simp; results_loop; rfl

set_option maxRecDepth 16384 in
theorem prelude_weight :
    after (prelude (F := Ideal)) V (no_index (Proc.devRef .tc main_v29))
      = Cert.Gcn.edgeWeight (Cert.Gcn.src (V (Proc.devRef .tc main_arg9))) (Cert.Gcn.dst (V (Proc.devRef .tc main_arg9))) := by
  unfold prelude; after_results_simp; results_loop; rfl

set_option maxRecDepth 16384 in
theorem prelude_size :
    after (prelude (F := Ideal)) V (no_index (Proc.devRef .tc main_v36))
      = Cert.Gcn.graphSize (V (Proc.devRef .tc main_arg10)) := by
  unfold prelude; after_results_simp; rfl

set_option maxRecDepth 16384 in
theorem input_eq :
    after (input (F := Ideal)) V (no_index (Proc.devRef .tc main_v41))
      = Cert.Gcn.inputLayer (V (Proc.devRef .tc main_arg0)) (V (Proc.devRef .tc main_arg1)) (V (Proc.devRef .tc main_arg2)) := by
  unfold input; after_results_simp; rfl

set_option maxRecDepth 16384 in
theorem mean0_eq :
    after (mean0 (F := Ideal)) V (no_index (Proc.devRef .tc main_v46))
      = Cert.Gcn.graphMean (V (Proc.devRef .tc main_arg10)) (V (Proc.devRef .tc main_v36)) (V (Proc.devRef .tc main_v41)) := by
  unfold mean0; after_results_simp; rfl

set_option maxRecDepth 16384 in
theorem proj1_eq :
    after (proj1 (F := Ideal)) V (no_index (Proc.devRef .tc main_v49))
      = Cert.Gcn.project (V (Proc.devRef .tc main_v41)) (Cert.Gcn.weight0 (V (Proc.devRef .tc main_arg3))) := by
  unfold proj1; after_results_simp; rfl

set_option maxRecDepth 16384 in
theorem prop1_eq :
    after (prop1 (F := Ideal)) V (no_index (Proc.devRef .tc main_v61))
      = Cert.Gcn.propagate (V (Proc.devRef .tc main_v5)) (V (Proc.devRef .tc main_v6)) (V (Proc.devRef .tc main_v29)) (V (Proc.devRef .tc main_v49)) := by
  unfold prop1; after_results_simp; rfl

set_option maxRecDepth 16384 in
theorem act1_eq :
    after (act1 (F := Ideal)) V (no_index (Proc.devRef .tc main_v67))
      = Cert.Gcn.activate (V (Proc.devRef .tc main_v61)) (Cert.Gcn.bias0 (V (Proc.devRef .tc main_arg4))) := by
  unfold act1; after_results_simp; rfl

set_option maxRecDepth 16384 in
theorem mean1_eq :
    after (mean1 (F := Ideal)) V (no_index (Proc.devRef .tc main_v73))
      = addf (V (Proc.devRef .tc main_v46) : Cert.Gcn.CF S512x128) (Cert.Gcn.graphMean (V (Proc.devRef .tc main_arg10)) (V (Proc.devRef .tc main_v36)) (V (Proc.devRef .tc main_v67))) := by
  unfold mean1; after_results_simp; rfl

set_option maxRecDepth 16384 in
theorem proj2_eq :
    after (proj2 (F := Ideal)) V (no_index (Proc.devRef .tc main_v76))
      = Cert.Gcn.project (V (Proc.devRef .tc main_v67)) (Cert.Gcn.weight1 (V (Proc.devRef .tc main_arg3))) := by
  unfold proj2; after_results_simp; rfl

set_option maxRecDepth 16384 in
theorem prop2_eq :
    after (prop2 (F := Ideal)) V (no_index (Proc.devRef .tc main_v88))
      = Cert.Gcn.propagate (V (Proc.devRef .tc main_v5)) (V (Proc.devRef .tc main_v6)) (V (Proc.devRef .tc main_v29)) (V (Proc.devRef .tc main_v76)) := by
  unfold prop2; after_results_simp; rfl

set_option maxRecDepth 16384 in
theorem act2_eq :
    after (act2 (F := Ideal)) V (no_index (Proc.devRef .tc main_v94))
      = Cert.Gcn.activate (V (Proc.devRef .tc main_v88)) (Cert.Gcn.bias1 (V (Proc.devRef .tc main_arg4))) := by
  unfold act2; after_results_simp; rfl

set_option maxRecDepth 16384 in
theorem mean2_eq :
    after (mean2 (F := Ideal)) V (no_index (Proc.devRef .tc main_v100))
      = addf (V (Proc.devRef .tc main_v73) : Cert.Gcn.CF S512x128) (Cert.Gcn.graphMean (V (Proc.devRef .tc main_arg10)) (V (Proc.devRef .tc main_v36)) (V (Proc.devRef .tc main_v94))) := by
  unfold mean2; after_results_simp; rfl

set_option maxRecDepth 16384 in
theorem proj3_eq :
    after (proj3 (F := Ideal)) V (no_index (Proc.devRef .tc main_v103))
      = Cert.Gcn.project (V (Proc.devRef .tc main_v94)) (Cert.Gcn.weight2 (V (Proc.devRef .tc main_arg3))) := by
  unfold proj3; after_results_simp; rfl

set_option maxRecDepth 16384 in
theorem prop3_eq :
    after (prop3 (F := Ideal)) V (no_index (Proc.devRef .tc main_v115))
      = Cert.Gcn.propagate (V (Proc.devRef .tc main_v5)) (V (Proc.devRef .tc main_v6)) (V (Proc.devRef .tc main_v29)) (V (Proc.devRef .tc main_v103)) := by
  unfold prop3; after_results_simp; rfl

set_option maxRecDepth 16384 in
theorem act3_eq :
    after (act3 (F := Ideal)) V (no_index (Proc.devRef .tc main_v121))
      = Cert.Gcn.activate (V (Proc.devRef .tc main_v115)) (Cert.Gcn.bias2 (V (Proc.devRef .tc main_arg4))) := by
  unfold act3; after_results_simp; rfl

set_option maxRecDepth 16384 in
theorem mean3_eq :
    after (mean3 (F := Ideal)) V (no_index (Proc.devRef .tc main_v127))
      = addf (V (Proc.devRef .tc main_v100) : Cert.Gcn.CF S512x128) (Cert.Gcn.graphMean (V (Proc.devRef .tc main_arg10)) (V (Proc.devRef .tc main_v36)) (V (Proc.devRef .tc main_v121))) := by
  unfold mean3; after_results_simp; rfl

set_option maxRecDepth 16384 in
theorem head_eq :
    after (headOps (F := Ideal)) V (no_index (Proc.devRef .tc main_v137))
      = Cert.Gcn.head (V (Proc.devRef .tc main_v127)) (V (Proc.devRef .tc main_arg5)) (V (Proc.devRef .tc main_arg6)) (V (Proc.devRef .tc main_arg7)) (V (Proc.devRef .tc main_arg8)) := by
  unfold headOps; after_results_simp; rfl

end Stages

/-! ## What each stage writes, and that it leaves every other buffer alone -/

/-- An operation writing the one buffer `y` writes inside any list of references that has `y`. -/
theorem writes_in {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

section Keeps
variable {F : FTy → Type} [FloatOps F]

/-- The buffers the operations of `prelude` write. -/
def preludeW : List (Ref sig .tc) :=
  [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_v29, main_cst_5, main_v30, main_cst_6, main_v31, main_v32, main_v33, main_cst_7, main_v34, main_v35, main_v36]
theorem prelude_writes : (prelude : List (HloOp τ sig (Elt F))).Forall fun op => op.writes ⊆ (preludeW.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩
theorem prelude_keeps {r : Ref sig .tc} (h : r ∉ preludeW) (V : Valuation τ sig (Elt F)) :
    after prelude V (no_index (Proc.devRef .tc r)) = V (Proc.devRef .tc r) :=
  after_of_writes_sub prelude V prelude_writes h

/-- The buffers the operations of `input` write. -/
def inputW : List (Ref sig .tc) :=
  [main_v37, main_v38, main_v39, main_v40, main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v41]
theorem input_writes : (input : List (HloOp τ sig (Elt F))).Forall fun op => op.writes ⊆ (inputW.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩
theorem input_keeps {r : Ref sig .tc} (h : r ∉ inputW) (V : Valuation τ sig (Elt F)) :
    after input V (no_index (Proc.devRef .tc r)) = V (Proc.devRef .tc r) :=
  after_of_writes_sub input V input_writes h

/-- The buffers the operations of `mean0` write. -/
def mean0W : List (Ref sig .tc) :=
  [main_cst_8, main_v42, main_v43, main_v44, main_v45, main_v46]
theorem mean0_writes : (mean0 : List (HloOp τ sig (Elt F))).Forall fun op => op.writes ⊆ (mean0W.map (Proc.devRef (τ := τ) .tc)).toFinset :=
  ⟨writes_in (by decide), writes_in (by decide), writes_in (by decide), writes_in (by decide), writes_in (by decide), writes_in (by decide)⟩
theorem mean0_keeps {r : Ref sig .tc} (h : r ∉ mean0W) (V : Valuation τ sig (Elt F)) :
    after mean0 V (no_index (Proc.devRef .tc r)) = V (Proc.devRef .tc r) :=
  after_of_writes_sub mean0 V mean0_writes h

/-- The buffers the operations of `proj1` write. -/
def proj1W : List (Ref sig .tc) :=
  [main_v47, main_v48, main_v49]
theorem proj1_writes : (proj1 : List (HloOp τ sig (Elt F))).Forall fun op => op.writes ⊆ (proj1W.map (Proc.devRef (τ := τ) .tc)).toFinset :=
  ⟨writes_in (by decide), writes_in (by decide), writes_in (by decide)⟩
theorem proj1_keeps {r : Ref sig .tc} (h : r ∉ proj1W) (V : Valuation τ sig (Elt F)) :
    after proj1 V (no_index (Proc.devRef .tc r)) = V (Proc.devRef .tc r) :=
  after_of_writes_sub proj1 V proj1_writes h

/-- The buffers the operations of `prop1` write. -/
def prop1W : List (Ref sig .tc) :=
  [main_c_9, main_v50, main_v51, main_c_10, main_v52, main_v53, main_v54, main_v55, main_v56, main_v57, main_v58, main_cst_11, main_v59, main_v60, main_v61]
theorem prop1_writes : (prop1 : List (HloOp τ sig (Elt F))).Forall fun op => op.writes ⊆ (prop1W.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩
theorem prop1_keeps {r : Ref sig .tc} (h : r ∉ prop1W) (V : Valuation τ sig (Elt F)) :
    after prop1 V (no_index (Proc.devRef .tc r)) = V (Proc.devRef .tc r) :=
  after_of_writes_sub prop1 V prop1_writes h

/-- The buffers the operations of `act1` write. -/
def act1W : List (Ref sig .tc) :=
  [main_v62, main_v63, main_v64, main_v65, main_v66, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v67]
theorem act1_writes : (act1 : List (HloOp τ sig (Elt F))).Forall fun op => op.writes ⊆ (act1W.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩
theorem act1_keeps {r : Ref sig .tc} (h : r ∉ act1W) (V : Valuation τ sig (Elt F)) :
    after act1 V (no_index (Proc.devRef .tc r)) = V (Proc.devRef .tc r) :=
  after_of_writes_sub act1 V act1_writes h

/-- The buffers the operations of `mean1` write. -/
def mean1W : List (Ref sig .tc) :=
  [main_cst_12, main_v68, main_v69, main_v70, main_v71, main_v72, main_v73]
theorem mean1_writes : (mean1 : List (HloOp τ sig (Elt F))).Forall fun op => op.writes ⊆ (mean1W.map (Proc.devRef (τ := τ) .tc)).toFinset :=
  ⟨writes_in (by decide), writes_in (by decide), writes_in (by decide), writes_in (by decide), writes_in (by decide), writes_in (by decide), writes_in (by decide)⟩
theorem mean1_keeps {r : Ref sig .tc} (h : r ∉ mean1W) (V : Valuation τ sig (Elt F)) :
    after mean1 V (no_index (Proc.devRef .tc r)) = V (Proc.devRef .tc r) :=
  after_of_writes_sub mean1 V mean1_writes h

/-- The buffers the operations of `proj2` write. -/
def proj2W : List (Ref sig .tc) :=
  [main_v74, main_v75, main_v76]
theorem proj2_writes : (proj2 : List (HloOp τ sig (Elt F))).Forall fun op => op.writes ⊆ (proj2W.map (Proc.devRef (τ := τ) .tc)).toFinset :=
  ⟨writes_in (by decide), writes_in (by decide), writes_in (by decide)⟩
theorem proj2_keeps {r : Ref sig .tc} (h : r ∉ proj2W) (V : Valuation τ sig (Elt F)) :
    after proj2 V (no_index (Proc.devRef .tc r)) = V (Proc.devRef .tc r) :=
  after_of_writes_sub proj2 V proj2_writes h

/-- The buffers the operations of `prop2` write. -/
def prop2W : List (Ref sig .tc) :=
  [main_c_13, main_v77, main_v78, main_c_14, main_v79, main_v80, main_v81, main_v82, main_v83, main_v84, main_v85, main_cst_15, main_v86, main_v87, main_v88]
theorem prop2_writes : (prop2 : List (HloOp τ sig (Elt F))).Forall fun op => op.writes ⊆ (prop2W.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩
theorem prop2_keeps {r : Ref sig .tc} (h : r ∉ prop2W) (V : Valuation τ sig (Elt F)) :
    after prop2 V (no_index (Proc.devRef .tc r)) = V (Proc.devRef .tc r) :=
  after_of_writes_sub prop2 V prop2_writes h

/-- The buffers the operations of `act2` write. -/
def act2W : List (Ref sig .tc) :=
  [main_v89, main_v90, main_v91, main_v92, main_v93, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v94]
theorem act2_writes : (act2 : List (HloOp τ sig (Elt F))).Forall fun op => op.writes ⊆ (act2W.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩
theorem act2_keeps {r : Ref sig .tc} (h : r ∉ act2W) (V : Valuation τ sig (Elt F)) :
    after act2 V (no_index (Proc.devRef .tc r)) = V (Proc.devRef .tc r) :=
  after_of_writes_sub act2 V act2_writes h

/-- The buffers the operations of `mean2` write. -/
def mean2W : List (Ref sig .tc) :=
  [main_cst_16, main_v95, main_v96, main_v97, main_v98, main_v99, main_v100]
theorem mean2_writes : (mean2 : List (HloOp τ sig (Elt F))).Forall fun op => op.writes ⊆ (mean2W.map (Proc.devRef (τ := τ) .tc)).toFinset :=
  ⟨writes_in (by decide), writes_in (by decide), writes_in (by decide), writes_in (by decide), writes_in (by decide), writes_in (by decide), writes_in (by decide)⟩
theorem mean2_keeps {r : Ref sig .tc} (h : r ∉ mean2W) (V : Valuation τ sig (Elt F)) :
    after mean2 V (no_index (Proc.devRef .tc r)) = V (Proc.devRef .tc r) :=
  after_of_writes_sub mean2 V mean2_writes h

/-- The buffers the operations of `proj3` write. -/
def proj3W : List (Ref sig .tc) :=
  [main_v101, main_v102, main_v103]
theorem proj3_writes : (proj3 : List (HloOp τ sig (Elt F))).Forall fun op => op.writes ⊆ (proj3W.map (Proc.devRef (τ := τ) .tc)).toFinset :=
  ⟨writes_in (by decide), writes_in (by decide), writes_in (by decide)⟩
theorem proj3_keeps {r : Ref sig .tc} (h : r ∉ proj3W) (V : Valuation τ sig (Elt F)) :
    after proj3 V (no_index (Proc.devRef .tc r)) = V (Proc.devRef .tc r) :=
  after_of_writes_sub proj3 V proj3_writes h

/-- The buffers the operations of `prop3` write. -/
def prop3W : List (Ref sig .tc) :=
  [main_c_17, main_v104, main_v105, main_c_18, main_v106, main_v107, main_v108, main_v109, main_v110, main_v111, main_v112, main_cst_19, main_v113, main_v114, main_v115]
theorem prop3_writes : (prop3 : List (HloOp τ sig (Elt F))).Forall fun op => op.writes ⊆ (prop3W.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩
theorem prop3_keeps {r : Ref sig .tc} (h : r ∉ prop3W) (V : Valuation τ sig (Elt F)) :
    after prop3 V (no_index (Proc.devRef .tc r)) = V (Proc.devRef .tc r) :=
  after_of_writes_sub prop3 V prop3_writes h

/-- The buffers the operations of `act3` write. -/
def act3W : List (Ref sig .tc) :=
  [main_v116, main_v117, main_v118, main_v119, main_v120, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v121]
theorem act3_writes : (act3 : List (HloOp τ sig (Elt F))).Forall fun op => op.writes ⊆ (act3W.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩
theorem act3_keeps {r : Ref sig .tc} (h : r ∉ act3W) (V : Valuation τ sig (Elt F)) :
    after act3 V (no_index (Proc.devRef .tc r)) = V (Proc.devRef .tc r) :=
  after_of_writes_sub act3 V act3_writes h

/-- The buffers the operations of `mean3` write. -/
def mean3W : List (Ref sig .tc) :=
  [main_cst_20, main_v122, main_v123, main_v124, main_v125, main_v126, main_v127]
theorem mean3_writes : (mean3 : List (HloOp τ sig (Elt F))).Forall fun op => op.writes ⊆ (mean3W.map (Proc.devRef (τ := τ) .tc)).toFinset :=
  ⟨writes_in (by decide), writes_in (by decide), writes_in (by decide), writes_in (by decide), writes_in (by decide), writes_in (by decide), writes_in (by decide)⟩
theorem mean3_keeps {r : Ref sig .tc} (h : r ∉ mean3W) (V : Valuation τ sig (Elt F)) :
    after mean3 V (no_index (Proc.devRef .tc r)) = V (Proc.devRef .tc r) :=
  after_of_writes_sub mean3 V mean3_writes h

/-- The buffers the operations of `headOps` write. -/
def headOpsW : List (Ref sig .tc) :=
  [main_v128, main_v129, main_v130, main_v131, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v132, main_v133, main_v134, main_v135, main_v136, main_call5_cst, main_call5_v0, main_call5_cst_0, main_call5_v1, main_call5_v2, main_call5_v3, main_call5_v4, main_call5_v5, main_call5_v6, main_call5_cst_1, main_call5_v7, main_call5_v8, main_call5_v9, main_call5_v10, main_v137]
theorem headOps_writes : (headOps : List (HloOp τ sig (Elt F))).Forall fun op => op.writes ⊆ (headOpsW.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩
theorem headOps_keeps {r : Ref sig .tc} (h : r ∉ headOpsW) (V : Valuation τ sig (Elt F)) :
    after headOps V (no_index (Proc.devRef .tc r)) = V (Proc.devRef .tc r) :=
  after_of_writes_sub headOps V headOps_writes h

end Keeps

/-! ## The whole line -/

set_option maxRecDepth 16384 in
/-- After the whole line, from arbitrary contents, the result buffer holds the network at the argument arrays: each
    stage's value at the values of the stages before it, every buffer a later stage reads having been kept meanwhile. -/
theorem result (V : Valuation τ sig (Elt Ideal)) :
    after (ops (F := Ideal)) V (Proc.devRef .tc main_v137)
      = Cert.Gcn.net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  unfold ops
  simp (disch := decide) only [after_append, head_eq, mean3_eq, act3_eq, prop3_eq, proj3_eq, mean2_eq, act2_eq, prop2_eq, proj2_eq, mean1_eq, act1_eq, prop1_eq, proj1_eq, mean0_eq, input_eq, prelude_size, prelude_weight, prelude_dst, prelude_src,
    headOps_keeps, mean3_keeps, act3_keeps, prop3_keeps, proj3_keeps, mean2_keeps, act2_keeps, prop2_keeps, proj2_keeps, mean1_keeps, act1_keeps, prop1_keeps, proj1_keeps, mean0_keeps, input_keeps, prelude_keeps]
  rfl

/-- Every buffer the line writes. -/
def opsW : List (Ref sig .tc) :=
  preludeW ++ (inputW ++ (mean0W ++ (proj1W ++ (prop1W ++ (act1W ++ (mean1W ++ (proj2W ++ (prop2W ++ (act2W ++ (mean2W ++ (proj3W ++ (prop3W ++ (act3W ++ (mean3W ++ (headOpsW)))))))))))))))

/-- The line leaves alone every buffer outside that list. -/
theorem ops_keeps {F : FTy → Type} [FloatOps F] {r : Ref sig .tc} (h : r ∉ opsW) (V : Valuation τ sig (Elt F)) :
    after ops V (Proc.devRef .tc r) = V (Proc.devRef .tc r) := by
  unfold opsW at h
  simp only [List.mem_append, not_or] at h
  obtain ⟨h0, h1, h2, h3, h4, h5, h6, h7, h8, h9, h10, h11, h12, h13, h14, h15⟩ := h
  unfold ops
  simp only [after_append]
  rw [headOps_keeps h15, mean3_keeps h14, act3_keeps h13, prop3_keeps h12, proj3_keeps h11, mean2_keeps h10, act2_keeps h9, prop2_keeps h8, proj2_keeps h7, mean1_keeps h6, act1_keeps h5, prop1_keeps h4, proj1_keeps h3, mean0_keeps h2, input_keeps h1, prelude_keeps h0]

/-! ## The run -/

/-- On every device, from any memory with zero counters: every weakly fair execution of the reference terminates with the
    result buffer at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v137)
        = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun _ h c => ⟨(h c main_v137).trans (result (launchContents m c)),
      (h c main_arg0).trans (ops_keeps (by decide) (launchContents m c)),
      (h c main_arg1).trans (ops_keeps (by decide) (launchContents m c)),
      (h c main_arg2).trans (ops_keeps (by decide) (launchContents m c)),
      (h c main_arg3).trans (ops_keeps (by decide) (launchContents m c)),
      (h c main_arg4).trans (ops_keeps (by decide) (launchContents m c)),
      (h c main_arg5).trans (ops_keeps (by decide) (launchContents m c)),
      (h c main_arg6).trans (ops_keeps (by decide) (launchContents m c)),
      (h c main_arg7).trans (ops_keeps (by decide) (launchContents m c)),
      (h c main_arg8).trans (ops_keeps (by decide) (launchContents m c)),
      (h c main_arg9).trans (ops_keeps (by decide) (launchContents m c)),
      (h c main_arg10).trans (ops_keeps (by decide) (launchContents m c))⟩)
    (run_fold m ρ)

end Cert.ReferenceIdeal.RefRun

end
-- ==== Proof.lean ====
/-
  The certificate: the tiled graph network and its reference compute the same function.

  Both programs, read with floats as extended reals, end with their result array holding one function of the
  eleven argument arrays, `Cert.Gcn.net`: the input layer, three rounds of "project, propagate along the edges,
  add a bias, apply the unit", the mean of the node features over each graph after every round, and a two-layer
  head with a logarithmic softmax. For the tiled program the function is read off the chain of its sixteen
  boundaries (each host stretch a stage of the network, each region's result the stage its body computes); for the
  reference it is read off its one straight line of host operations. The three frames are the runs with their
  results forgotten; the idealization rewrote nothing, so it preserves the program.
-/
import proofs.«159488_j4544075399263_1_alg».proof.Defs
import proofs.«159488_j4544075399263_1_alg».proof.Proof.Gen.Kernel
import proofs.«159488_j4544075399263_1_alg».proof.Proof.Gen.Kernel.Frame
import proofs.«159488_j4544075399263_1_alg».proof.Proof.Gen.KernelIdeal
import proofs.«159488_j4544075399263_1_alg».proof.Proof.Gen.KernelIdeal.Frame
import proofs.«159488_j4544075399263_1_alg».proof.Proof.Gen.ReferenceIdeal
import proofs.«159488_j4544075399263_1_alg».proof.Proof.Gen.Pre_finite_inputs
import proofs.«159488_j4544075399263_1_alg».proof.Proof.KRun
import proofs.«159488_j4544075399263_1_alg».proof.Proof.KChain
import proofs.«159488_j4544075399263_1_alg».proof.Proof.Tile0
import proofs.«159488_j4544075399263_1_alg».proof.Proof.Tile1
import proofs.«159488_j4544075399263_1_alg».proof.Proof.Tile2
import proofs.«159488_j4544075399263_1_alg».proof.Proof.Tile3
import proofs.«159488_j4544075399263_1_alg».proof.Proof.Tile4
import proofs.«159488_j4544075399263_1_alg».proof.Proof.Tile5
import proofs.«159488_j4544075399263_1_alg».proof.Proof.Tile6
import proofs.«159488_j4544075399263_1_alg».proof.Proof.Tile7
import proofs.«159488_j4544075399263_1_alg».proof.Proof.RefRun

noncomputable section

namespace Cert.Proof

open Idealize.ShloMosaic Idealize.ShloMosaic.TcCoe Idealize.SL.Sem

/-- What each of the eight regions leaves in its result array, whatever contents it is entered with. -/
theorem regionValues : Cert.KernelIdeal.Chain.RegionValues where
  input := fun V c => Cert.KernelIdeal.Tiles.inputLayer0 V c
  project1 := fun V c => Cert.KernelIdeal.Tiles.project1 V c
  activate2 := fun V c => Cert.KernelIdeal.Tiles.activate2 V c
  project3 := fun V c => Cert.KernelIdeal.Tiles.project3 V c
  activate4 := fun V c => Cert.KernelIdeal.Tiles.activate4 V c
  project5 := fun V c => Cert.KernelIdeal.Tiles.project5 V c
  activate6 := fun V c => Cert.KernelIdeal.Tiles.activate6 V c
  head := fun V c => Cert.KernelIdeal.Tiles.head7 V c

/-- The tiled program's run: its result is the network of its arguments, and the arguments are unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v115)
          = Cert.Gcn.net (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        ∧ r.2.mem ((c.tc : Thread Cert.KernelIdeal.nD Cert.KernelIdeal.τ).loc Cert.KernelIdeal.main_arg0) = (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg2) = (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg3) = (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg4) = (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg5) = (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg6) = (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg7) = (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg8) = (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_arg9) = (m ((c.tc : Thread Cert.KernelIdeal.nD Cert.KernelIdeal.τ).loc Cert.KernelIdeal.main_arg9))
        ∧ r.2.mem ((c.tc : Thread Cert.KernelIdeal.nD Cert.KernelIdeal.τ).loc Cert.KernelIdeal.main_arg10) = (m ((c.tc : Thread Cert.KernelIdeal.nD Cert.KernelIdeal.τ).loc Cert.KernelIdeal.main_arg10))) :=
  (θ_run (Cert.KernelIdeal.defs (F := Ideal)) _ _).mono
    (fun r h c => ⟨(h c).1.trans (Cert.KernelIdeal.Chain.result m ρ c regionValues), (h c).2⟩)
    (Cert.KernelIdeal.Named.run_named m ρ)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2) (Cert.ReferenceIdeal.RefRun.run m ρ),
  trivial,
  fun m ρ m' ρ' _ hagree =>
    ⟨fun c => Cert.Gcn.net (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
     kernel_run m ρ,
     (θ_run (Cert.ReferenceIdeal.defs (F := Ideal)) _ _).mono
       (fun _ h c => ⟨by
          rw [(h c).1, (hagree c).1, (hagree c).2.1, (hagree c).2.2.1, (hagree c).2.2.2.1, (hagree c).2.2.2.2.1,
            (hagree c).2.2.2.2.2.1, (hagree c).2.2.2.2.2.2.1, (hagree c).2.2.2.2.2.2.2.1, (hagree c).2.2.2.2.2.2.2.2.1,
            (hagree c).2.2.2.2.2.2.2.2.2.1, (hagree c).2.2.2.2.2.2.2.2.2.2], (h c).2⟩)
       (Cert.ReferenceIdeal.RefRun.run m' ρ')⟩⟩

end Cert.Proof

end
